-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v30)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v30) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v41) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2048x256 : Shape := ⟨2, ![2048, 256]⟩
abbrev S_ : Shape := ⟨0, ![]⟩

class Facts : Prop where
  bcast_S_S2048x256 : S_.BroadcastsInDim S2048x256 (![] : Fin 0 → Fin S2048x256.rank)
  reducesTo_S2048x256_S_d0_1 : S2048x256.ReducesTo [0, 1] S_
  h_S_ : 0 < S_.numel

variable [Facts]

def fn {F : FTy → Type} [FloatOps F] (main_arg0 : FVec F S2048x256 .f32) (main_arg1 : FVec F S2048x256 .f32) : IVec S_ 1 :=
  let main_v0 : FVec F S2048x256 .f32 := Host.absf main_arg0
  let main_cst : FVec F S_ .f32 := constant S_ .f32 0x7F800000#32
  let main_v1 : FVec F S2048x256 .f32 := broadcastInDim S2048x256 ![] bcast_S_S2048x256 main_cst
  let main_v2 : IVec S2048x256 1 := cmpf .olt main_v0 main_v1
  let main_c : IVec S_ 1 := constantI S_ 1 1#1
  let main_v3 : IVec S_ 1 := (fun x v => Host.reduce IntOp.andi x v reducesTo_S2048x256_S_d0_1 h_S_) main_v2 main_c
  let main_v4 : FVec F S2048x256 .f32 := Host.absf main_arg1
  let main_cst_0 : FVec F S_ .f32 := constant S_ .f32 0x7F800000#32
  let main_v5 : FVec F S2048x256 .f32 := broadcastInDim S2048x256 ![] bcast_S_S2048x256 main_cst_0
  let main_v6 : IVec S2048x256 1 := cmpf .olt main_v4 main_v5
  let main_c_1 : IVec S_ 1 := constantI S_ 1 1#1
  let main_v7 : IVec S_ 1 := (fun x v => Host.reduce IntOp.andi x v reducesTo_S2048x256_S_d0_1 h_S_) main_v6 main_c_1
  let main_v8 : IVec S_ 1 := andi main_v3 main_v7
  main_v8
-- ==== Kernel.lean ====
abbrev S2048x256 : Shape := ⟨2, ![2048, 256]⟩
abbrev S_ : Shape := ⟨0, ![]⟩
abbrev S2048 : Shape := ⟨1, ![2048]⟩
abbrev S2048x1 : Shape := ⟨2, ![2048, 1]⟩
abbrev S4096x256 : Shape := ⟨2, ![4096, 256]⟩
abbrev S4096x1 : Shape := ⟨2, ![4096, 1]⟩
abbrev S1024x256 : Shape := ⟨2, ![1024, 256]⟩
abbrev S1024x1 : Shape := ⟨2, ![1024, 1]⟩
abbrev S1024x2048 : Shape := ⟨2, ![1024, 2048]⟩
abbrev S1x2048 : Shape := ⟨2, ![1, 2048]⟩
abbrev S1024 : Shape := ⟨1, ![1024]⟩
abbrev S4096 : Shape := ⟨1, ![4096]⟩

abbrev nBuf : Space → Nat
  | .hbm => 41
  | .vmem => 7
  | .smem => 0
  | _ => 0

abbrev bufTy : (tb : Table) → Fin (tcTables nBuf tb) → BufTy
  | .hbm, ⟨0, _⟩ => ⟨S2048x256, .f32⟩
  | .hbm, ⟨1, _⟩ => ⟨S2048x256, .f32⟩
  | .hbm, ⟨2, _⟩ => ⟨S2048x256, .f32⟩
  | .hbm, ⟨3, _⟩ => ⟨S_, .f32⟩
  | .hbm, ⟨4, _⟩ => ⟨S2048, .f32⟩
  | .hbm, ⟨5, _⟩ => ⟨S2048x1, .f32⟩
  | .hbm, ⟨6, _⟩ => ⟨S2048x1, .f32⟩
  | .hbm, ⟨7, _⟩ => ⟨S_, .f32⟩
  | .hbm, ⟨8, _⟩ => ⟨S2048x1, .f32⟩
  | .hbm, ⟨9, _⟩ => ⟨S2048x1, .f32⟩
  | .hbm, ⟨10, _⟩ => ⟨S2048x256, .f32⟩
  | .hbm, ⟨11, _⟩ => ⟨S2048x256, .f32⟩
  | .hbm, ⟨12, _⟩ => ⟨S2048x256, .f32⟩
  | .hbm, ⟨13, _⟩ => ⟨S_, .f32⟩
  | .hbm, ⟨14, _⟩ => ⟨S2048, .f32⟩
  | .hbm, ⟨15, _⟩ => ⟨S2048x1, .f32⟩
  | .hbm, ⟨16, _⟩ => ⟨S2048x1, .f32⟩
  | .hbm, ⟨17, _⟩ => ⟨S_, .f32⟩
  | .hbm, ⟨18, _⟩ => ⟨S2048x1, .f32⟩
  | .hbm, ⟨19, _⟩ => ⟨S2048x1, .f32⟩
  | .hbm, ⟨20, _⟩ => ⟨S2048x256, .f32⟩
  | .hbm, ⟨21, _⟩ => ⟨S2048x256, .f32⟩
  | .hbm, ⟨22, _⟩ => ⟨S4096x256, .f32⟩
  | .hbm, ⟨23, _⟩ => ⟨S4096x256, .bf16⟩
  | .hbm, ⟨24, _⟩ => ⟨S2048x256, .f32⟩
  | .hbm, ⟨25, _⟩ => ⟨S_, .f32⟩
  | .hbm, ⟨26, _⟩ => ⟨S2048, .f32⟩
  | .hbm, ⟨27, _⟩ => ⟨S4096x1, .f32⟩
  | .hbm, ⟨28, _⟩ => ⟨S4096, .f32⟩
  | .hbm, ⟨29, _⟩ => ⟨S4096, .f32⟩
  | .hbm, ⟨30, _⟩ => ⟨S_, .f32⟩
  | .hbm, ⟨31, _⟩ => ⟨S4096, .f32⟩
  | .hbm, ⟨32, _⟩ => ⟨S4096, .f32⟩
  | .hbm, ⟨33, _⟩ => ⟨S4096, .f32⟩
  | .hbm, ⟨34, _⟩ => ⟨S4096, .f32⟩
  | .hbm, ⟨35, _⟩ => ⟨S4096, .f32⟩
  | .hbm, ⟨36, _⟩ => ⟨S4096, .f32⟩
  | .hbm, ⟨37, _⟩ => ⟨S_, .f32⟩
  | .hbm, ⟨38, _⟩ => ⟨S_, .f32⟩
  | .hbm, ⟨39, _⟩ => ⟨S_, .f32⟩
  | .hbm, ⟨40, _⟩ => ⟨S_, .f32⟩
  | .local _ .vmem, ⟨0, _⟩ => ⟨S1024x256, .bf16⟩
  | .local _ .vmem, ⟨1, _⟩ => ⟨S1024x256, .bf16⟩
  | .local _ .vmem, ⟨2, _⟩ => ⟨S2048x256, .bf16⟩
  | .local _ .vmem, ⟨3, _⟩ => ⟨S2048x256, .bf16⟩
  | .local _ .vmem, ⟨4, _⟩ => ⟨S1024x1, .f32⟩
  | .local _ .vmem, ⟨5, _⟩ => ⟨S1024x1, .f32⟩
  | .local _ .vmem, ⟨6, _⟩ => ⟨S1024x1, .f32⟩
  | _, _ => ⟨S2048x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_cst_1 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_cst_2 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_cst_3 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_cst_4 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_cst_5 : Ref sig .tc := ⟨.hbm, 37, rfl⟩
abbrev main_v29 : Ref sig .tc := ⟨.hbm, 38, rfl⟩
abbrev main_cst_6 : Ref sig .tc := ⟨.hbm, 39, rfl⟩
abbrev main_v30 : Ref sig .tc := ⟨.hbm, 40, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![4, 2], ![false, false]⟩

def k0_cond2 (i : grid0.Coords) : BitVec 1 :=
  let arg1 : BitVec 32 := BitVec.ofNat 32 (i 1).val
  let c1_i32 : BitVec 32 := 1#32
  let v31 : BitVec 1 := Scalar.cmpi .eq arg1 c1_i32
  let v32 : BitVec 32 := Scalar.extui v31
  let c0_i32_11 : BitVec 32 := 0#32
  let v33 : BitVec 1 := Scalar.cmpi .ne v32 c0_i32_11
  v33

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S2048x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

class Facts₀ : Prop where
  reducesTo_S2048x256_S2048_d1 : S2048x256.ReducesTo [1] S2048
  h_S_ : 0 < S_.numel
  bcast_S2048_S2048x1_0 : S2048.BroadcastsInDim S2048x1 (![0] : Fin 1 → Fin S2048x1.rank)
  bcast_S_S2048x1 : S_.BroadcastsInDim S2048x1 (![] : Fin 0 → Fin S2048x1.rank)
  bcast_S2048x1_S2048x256_0_1 : S2048x1.BroadcastsInDim S2048x256 (![0, 1] : Fin 2 → Fin S2048x256.rank)
  concatenates_S2048x256_S2048x256_S4096x256_d0 : Shape.Concatenates [S2048x256, S2048x256] S4096x256 0
  bitsLt_bf16_f32 : FTy.bits .bf16 < FTy.bits .f32
  inb_S1024x1_S1024x1_0_0 : ∀ a, (![0, 0] : Fin 2 → Nat) a + S1024x1.size a ≤ S1024x1.size a
  h_S1024x1 : 0 < S1024x1.numel
  shapeCasts_S1024x1_S1024x1 : S1024x1.ShapeCasts S1024x1
  inb_S1024x256_S1024x256_0_0 : ∀ a, (![0, 0] : Fin 2 → Nat) a + S1024x256.size a ≤ S1024x256.size a
  h_S1024x256 : 0 < S1024x256.numel
  shapeCasts_S1024x256_S1024x256 : S1024x256.ShapeCasts S1024x256
  inb_S2048x256_S2048x256_0_0 : ∀ a, (![0, 0] : Fin 2 → Nat) a + S2048x256.size a ≤ S2048x256.size a
  h_S2048x256 : 0 < S2048x256.numel
  shapeCasts_S2048x256_S2048x256 : S2048x256.ShapeCasts S2048x256
  iota_S1024x1_d0_w32 : S1024x1.Iotas .tc 32 [0]
  iota_S1x2048_d1_w32 : S1x2048.Iotas .tc 32 [1]
  broadcasts_S1024x1_S1024x2048 : S1024x1.Broadcasts S1024x2048
  broadcasts_S1x2048_S1024x2048 : S1x2048.Broadcasts S1024x2048
  reduces_S1024x2048_S1024 : S1024x2048.Reduces [1] S1024
  shapeCasts_S1024_S1024x1 : S1024.ShapeCasts S1024x1
  shapeCasts_S4096x1_S4096 : S4096x1.ShapeCasts S4096
  concatenates_S2048_S2048_S4096_d0 : Shape.Concatenates [S2048, S2048] S4096 0
  bcast_S_S4096 : S_.BroadcastsInDim S4096 (![] : Fin 0 → Fin S4096.rank)
  reducesTo_S4096_S_d0 : S4096.ReducesTo [0] S_
  dot_S1024x256_S2048x256_S1024x2048_1_1_0_0_n_n_wf : DotDims.WF S1024x256 S2048x256 S1024x2048 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x256.size a ≤ S4096x256.size a
  hwx0_0 : ∀ i : grid0.Coords, EltTy.bits .bf16 = 32 ∨ (Rect.block (s := S4096x256) S1024x256.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2048x256.size a ≤ S4096x256.size a
  hwx0_1 : ∀ i : grid0.Coords, EltTy.bits .bf16 = 32 ∨ (Rect.block (s := S4096x256) S2048x256.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1024x1.size a ≤ S4096x1.size a
  hwx0_2 : ∀ i : grid0.Coords, EltTy.bits .f32 = 32 ∨ (Rect.block (s := S4096x1) S1024x1.size (cc0_transform_2 i) (hinb0_2 i)).WholeWords (EltTy.packing .f32)

variable [Facts₀]

def dot_S1024x256_S2048x256_S1024x2048_1_1_0_0_n_n : DotDims S1024x256 S2048x256 S1024x2048 where
  lhsContracting := [1]
  rhsContracting := [1]
  lhsNonContracting := [0]
  rhsNonContracting := [0]
  lhsBatch := []
  rhsBatch := []
  wf := dot_S1024x256_S2048x256_S1024x2048_1_1_0_0_n_n_wf

abbrev win0_0 : Pipeline.Window sig grid0 :=
  Pipeline.Window.ofSpec (Memref.whole main_v17) S1024x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v17) S2048x256.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v20) S1024x1.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev idle0 : Fin 3 → grid0.Coords → Bool := fun | 0 => fun _ => false | 1 => fun _ => false | 2 => fun i => !(k0_cond2 i == 1#1) | ⟨_ + 3, h⟩ => absurd h (Nat.not_lt.2 (Nat.le_add_left _ _))

class Facts : Prop extends Facts₀ where

variable [Facts]
-- ==== ReferenceIdeal.lean ====
abbrev S2048x256 : Shape := ⟨2, ![2048, 256]⟩
abbrev S_ : Shape := ⟨0, ![]⟩
abbrev S2048 : Shape := ⟨1, ![2048]⟩
abbrev S2048x1 : Shape := ⟨2, ![2048, 1]⟩
abbrev S4096x256 : Shape := ⟨2, ![4096, 256]⟩
abbrev S4096x4096 : Shape := ⟨2, ![4096, 4096]⟩
abbrev S2048x2 : Shape := ⟨2, ![2048, 2]⟩
abbrev S4096 : Shape := ⟨1, ![4096]⟩

abbrev nBuf : Space → Nat
  | .hbm => 99
  | .vmem => 0
  | .smem => 0
  | _ => 0

abbrev bufTy : (tb : Table) → Fin (tcTables nBuf tb) → BufTy
  | .hbm, ⟨0, _⟩ => ⟨S2048x256, .f32⟩
  | .hbm, ⟨1, _⟩ => ⟨S2048x256, .f32⟩
  | .hbm, ⟨2, _⟩ => ⟨S2048x256, .f32⟩
  | .hbm, ⟨3, _⟩ => ⟨S_, .f32⟩
  | .hbm, ⟨4, _⟩ => ⟨S2048, .f32⟩
  | .hbm, ⟨5, _⟩ => ⟨S2048x1, .f32⟩
  | .hbm, ⟨6, _⟩ => ⟨S2048x1, .f32⟩
  | .hbm, ⟨7, _⟩ => ⟨S_, .f32⟩
  | .hbm, ⟨8, _⟩ => ⟨S2048x1, .f32⟩
  | .hbm, ⟨9, _⟩ => ⟨S2048x1, .f32⟩
  | .hbm, ⟨10, _⟩ => ⟨S2048x256, .f32⟩
  | .hbm, ⟨11, _⟩ => ⟨S2048x256, .f32⟩
  | .hbm, ⟨12, _⟩ => ⟨S2048x256, .f32⟩
  | .hbm, ⟨13, _⟩ => ⟨S_, .f32⟩
  | .hbm, ⟨14, _⟩ => ⟨S2048, .f32⟩
  | .hbm, ⟨15, _⟩ => ⟨S2048x1, .f32⟩
  | .hbm, ⟨16, _⟩ => ⟨S2048x1, .f32⟩
  | .hbm, ⟨17, _⟩ => ⟨S_, .f32⟩
  | .hbm, ⟨18, _⟩ => ⟨S2048x1, .f32⟩
  | .hbm, ⟨19, _⟩ => ⟨S2048x1, .f32⟩
  | .hbm, ⟨20, _⟩ => ⟨S2048x256, .f32⟩
  | .hbm, ⟨21, _⟩ => ⟨S2048x256, .f32⟩
  | .hbm, ⟨22, _⟩ => ⟨S4096x256, .f32⟩
  | .hbm, ⟨23, _⟩ => ⟨S4096x4096, .f32⟩
  | .hbm, ⟨24, _⟩ => ⟨S2048, .i32⟩
  | .hbm, ⟨25, _⟩ => ⟨S2048, .i32⟩
  | .hbm, ⟨26, _⟩ => ⟨S_, .i32⟩
  | .hbm, ⟨27, _⟩ => ⟨S2048, .i32⟩
  | .hbm, ⟨28, _⟩ => ⟨S2048, .i32⟩
  | .hbm, ⟨29, _⟩ => ⟨S_, .i32⟩
  | .hbm, ⟨30, _⟩ => ⟨S2048, .i32⟩
  | .hbm, ⟨31, _⟩ => ⟨S2048, .i1⟩
  | .hbm, ⟨32, _⟩ => ⟨S_, .i32⟩
  | .hbm, ⟨33, _⟩ => ⟨S2048, .i32⟩
  | .hbm, ⟨34, _⟩ => ⟨S2048, .i32⟩
  | .hbm, ⟨35, _⟩ => ⟨S2048, .i32⟩
  | .hbm, ⟨36, _⟩ => ⟨S_, .i32⟩
  | .hbm, ⟨37, _⟩ => ⟨S2048, .i32⟩
  | .hbm, ⟨38, _⟩ => ⟨S2048, .i1⟩
  | .hbm, ⟨39, _⟩ => ⟨S_, .i32⟩
  | .hbm, ⟨40, _⟩ => ⟨S2048, .i32⟩
  | .hbm, ⟨41, _⟩ => ⟨S2048, .i32⟩
  | .hbm, ⟨42, _⟩ => ⟨S2048, .i32⟩
  | .hbm, ⟨43, _⟩ => ⟨S2048x1, .i32⟩
  | .hbm, ⟨44, _⟩ => ⟨S2048x1, .i32⟩
  | .hbm, ⟨45, _⟩ => ⟨S2048x2, .i32⟩
  | .hbm, ⟨46, _⟩ => ⟨S2048, .f32⟩
  | .hbm, ⟨47, _⟩ => ⟨S2048, .i32⟩
  | .hbm, ⟨48, _⟩ => ⟨S2048, .i32⟩
  | .hbm, ⟨49, _⟩ => ⟨S_, .i32⟩
  | .hbm, ⟨50, _⟩ => ⟨S2048, .i32⟩
  | .hbm, ⟨51, _⟩ => ⟨S2048, .i32⟩
  | .hbm, ⟨52, _⟩ => ⟨S_, .i32⟩
  | .hbm, ⟨53, _⟩ => ⟨S2048, .i32⟩
  | .hbm, ⟨54, _⟩ => ⟨S2048, .i1⟩
  | .hbm, ⟨55, _⟩ => ⟨S_, .i32⟩
  | .hbm, ⟨56, _⟩ => ⟨S2048, .i32⟩
  | .hbm, ⟨57, _⟩ => ⟨S2048, .i32⟩
  | .hbm, ⟨58, _⟩ => ⟨S2048, .i32⟩
  | .hbm, ⟨59, _⟩ => ⟨S_, .i32⟩
  | .hbm, ⟨60, _⟩ => ⟨S2048, .i32⟩
  | .hbm, ⟨61, _⟩ => ⟨S2048, .i1⟩
  | .hbm, ⟨62, _⟩ => ⟨S_, .i32⟩
  | .hbm, ⟨63, _⟩ => ⟨S2048, .i32⟩
  | .hbm, ⟨64, _⟩ => ⟨S2048, .i32⟩
  | .hbm, ⟨65, _⟩ => ⟨S2048, .i32⟩
  | .hbm, ⟨66, _⟩ => ⟨S2048x1, .i32⟩
  | .hbm, ⟨67, _⟩ => ⟨S2048x1, .i32⟩
  | .hbm, ⟨68, _⟩ => ⟨S2048x2, .i32⟩
  | .hbm, ⟨69, _⟩ => ⟨S2048, .f32⟩
  | .hbm, ⟨70, _⟩ => ⟨S4096, .f32⟩
  | .hbm, ⟨71, _⟩ => ⟨S4096x4096, .i32⟩
  | .hbm, ⟨72, _⟩ => ⟨S4096x4096, .i32⟩
  | .hbm, ⟨73, _⟩ => ⟨S_, .i32⟩
  | .hbm, ⟨74, _⟩ => ⟨S4096x4096, .i32⟩
  | .hbm, ⟨75, _⟩ => ⟨S4096x4096, .i32⟩
  | .hbm, ⟨76, _⟩ => ⟨S4096x4096, .i1⟩
  | .hbm, ⟨77, _⟩ => ⟨S4096x4096, .f32⟩
  | .hbm, ⟨78, _⟩ => ⟨S_, .f32⟩
  | .hbm, ⟨79, _⟩ => ⟨S4096x4096, .f32⟩
  | .hbm, ⟨80, _⟩ => ⟨S4096x4096, .f32⟩
  | .hbm, ⟨81, _⟩ => ⟨S_, .f32⟩
  | .hbm, ⟨82, _⟩ => ⟨S4096, .f32⟩
  | .hbm, ⟨83, _⟩ => ⟨S4096, .f32⟩
  | .hbm, ⟨84, _⟩ => ⟨S4096, .f32⟩
  | .hbm, ⟨85, _⟩ => ⟨S_, .f32⟩
  | .hbm, ⟨86, _⟩ => ⟨S4096x4096, .f32⟩
  | .hbm, ⟨87, _⟩ => ⟨S4096x4096, .f32⟩
  | .hbm, ⟨88, _⟩ => ⟨S4096x4096, .f32⟩
  | .hbm, ⟨89, _⟩ => ⟨S4096x4096, .f32⟩
  | .hbm, ⟨90, _⟩ => ⟨S_, .f32⟩
  | .hbm, ⟨91, _⟩ => ⟨S4096, .f32⟩
  | .hbm, ⟨92, _⟩ => ⟨S4096, .f32⟩
  | .hbm, ⟨93, _⟩ => ⟨S4096, .f32⟩
  | .hbm, ⟨94, _⟩ => ⟨S4096, .f32⟩
  | .hbm, ⟨95, _⟩ => ⟨S_, .f32⟩
  | .hbm, ⟨96, _⟩ => ⟨S_, .f32⟩
  | .hbm, ⟨97, _⟩ => ⟨S_, .f32⟩
  | .hbm, ⟨98, _⟩ => ⟨S_, .f32⟩
  | _, _ => ⟨S2048x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_cst_1 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_cst_2 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_call0_v0 : Ref sig .tc := ⟨.hbm, 24, rfl⟩
abbrev main_call0_v1 : Ref sig .tc := ⟨.hbm, 25, rfl⟩
abbrev main_call0_c : Ref sig .tc := ⟨.hbm, 26, rfl⟩
abbrev main_call0_v2 : Ref sig .tc := ⟨.hbm, 27, rfl⟩
abbrev main_call0_v3 : Ref sig .tc := ⟨.hbm, 28, rfl⟩
abbrev main_call0_c_0 : Ref sig .tc := ⟨.hbm, 29, rfl⟩
abbrev main_call0_v4 : Ref sig .tc := ⟨.hbm, 30, rfl⟩
abbrev main_call0_v5 : Ref sig .tc := ⟨.hbm, 31, rfl⟩
abbrev main_call0_c_1 : Ref sig .tc := ⟨.hbm, 32, rfl⟩
abbrev main_call0_v6 : Ref sig .tc := ⟨.hbm, 33, rfl⟩
abbrev main_call0_v7 : Ref sig .tc := ⟨.hbm, 34, rfl⟩
abbrev main_call0_v8 : Ref sig .tc := ⟨.hbm, 35, rfl⟩
abbrev main_call0_c_2 : Ref sig .tc := ⟨.hbm, 36, rfl⟩
abbrev main_call0_v9 : Ref sig .tc := ⟨.hbm, 37, rfl⟩
abbrev main_call0_v10 : Ref sig .tc := ⟨.hbm, 38, rfl⟩
abbrev main_call0_c_3 : Ref sig .tc := ⟨.hbm, 39, rfl⟩
abbrev main_call0_v11 : Ref sig .tc := ⟨.hbm, 40, rfl⟩
abbrev main_call0_v12 : Ref sig .tc := ⟨.hbm, 41, rfl⟩
abbrev main_call0_v13 : Ref sig .tc := ⟨.hbm, 42, rfl⟩
abbrev main_call0_v14 : Ref sig .tc := ⟨.hbm, 43, rfl⟩
abbrev main_call0_v15 : Ref sig .tc := ⟨.hbm, 44, rfl⟩
abbrev main_call0_v16 : Ref sig .tc := ⟨.hbm, 45, rfl⟩
abbrev main_v18 : Ref sig .tc := ⟨.hbm, 46, rfl⟩
abbrev main_call1_v0 : Ref sig .tc := ⟨.hbm, 47, rfl⟩
abbrev main_call1_v1 : Ref sig .tc := ⟨.hbm, 48, rfl⟩
abbrev main_call1_c : Ref sig .tc := ⟨.hbm, 49, rfl⟩
abbrev main_call1_v2 : Ref sig .tc := ⟨.hbm, 50, rfl⟩
abbrev main_call1_v3 : Ref sig .tc := ⟨.hbm, 51, rfl⟩
abbrev main_call1_c_0 : Ref sig .tc := ⟨.hbm, 52, rfl⟩
abbrev main_call1_v4 : Ref sig .tc := ⟨.hbm, 53, rfl⟩
abbrev main_call1_v5 : Ref sig .tc := ⟨.hbm, 54, rfl⟩
abbrev main_call1_c_1 : Ref sig .tc := ⟨.hbm, 55, rfl⟩
abbrev main_call1_v6 : Ref sig .tc := ⟨.hbm, 56, rfl⟩
abbrev main_call1_v7 : Ref sig .tc := ⟨.hbm, 57, rfl⟩
abbrev main_call1_v8 : Ref sig .tc := ⟨.hbm, 58, rfl⟩
abbrev main_call1_c_2 : Ref sig .tc := ⟨.hbm, 59, rfl⟩
abbrev main_call1_v9 : Ref sig .tc := ⟨.hbm, 60, rfl⟩
abbrev main_call1_v10 : Ref sig .tc := ⟨.hbm, 61, rfl⟩
abbrev main_call1_c_3 : Ref sig .tc := ⟨.hbm, 62, rfl⟩
abbrev main_call1_v11 : Ref sig .tc := ⟨.hbm, 63, rfl⟩
abbrev main_call1_v12 : Ref sig .tc := ⟨.hbm, 64, rfl⟩
abbrev main_call1_v13 : Ref sig .tc := ⟨.hbm, 65, rfl⟩
abbrev main_call1_v14 : Ref sig .tc := ⟨.hbm, 66, rfl⟩
abbrev main_call1_v15 : Ref sig .tc := ⟨.hbm, 67, rfl⟩
abbrev main_call1_v16 : Ref sig .tc := ⟨.hbm, 68, rfl⟩
abbrev main_v19 : Ref sig .tc := ⟨.hbm, 69, rfl⟩
abbrev main_v20 : Ref sig .tc := ⟨.hbm, 70, rfl⟩
abbrev main_v21 : Ref sig .tc := ⟨.hbm, 71, rfl⟩
abbrev main_v22 : Ref sig .tc := ⟨.hbm, 72, rfl⟩
abbrev main_c : Ref sig .tc := ⟨.hbm, 73, rfl⟩
abbrev main_v23 : Ref sig .tc := ⟨.hbm, 74, rfl⟩
abbrev main_v24 : Ref sig .tc := ⟨.hbm, 75, rfl⟩
abbrev main_v25 : Ref sig .tc := ⟨.hbm, 76, rfl⟩
abbrev main_v26 : Ref sig .tc := ⟨.hbm, 77, rfl⟩
abbrev main_cst_3 : Ref sig .tc := ⟨.hbm, 78, rfl⟩
abbrev main_v27 : Ref sig .tc := ⟨.hbm, 79, rfl⟩
abbrev main_v28 : Ref sig .tc := ⟨.hbm, 80, rfl⟩
abbrev main_cst_4 : Ref sig .tc := ⟨.hbm, 81, rfl⟩
abbrev main_v29 : Ref sig .tc := ⟨.hbm, 82, rfl⟩
abbrev main_v30 : Ref sig .tc := ⟨.hbm, 83, rfl⟩
abbrev main_v31 : Ref sig .tc := ⟨.hbm, 84, rfl⟩
abbrev main_cst_5 : Ref sig .tc := ⟨.hbm, 85, rfl⟩
abbrev main_v32 : Ref sig .tc := ⟨.hbm, 86, rfl⟩
abbrev main_v33 : Ref sig .tc := ⟨.hbm, 87, rfl⟩
abbrev main_v34 : Ref sig .tc := ⟨.hbm, 88, rfl⟩
abbrev main_v35 : Ref sig .tc := ⟨.hbm, 89, rfl⟩
abbrev main_cst_6 : Ref sig .tc := ⟨.hbm, 90, rfl⟩
abbrev main_v36 : Ref sig .tc := ⟨.hbm, 91, rfl⟩
abbrev main_v37 : Ref sig .tc := ⟨.hbm, 92, rfl⟩
abbrev main_v38 : Ref sig .tc := ⟨.hbm, 93, rfl⟩
abbrev main_v39 : Ref sig .tc := ⟨.hbm, 94, rfl⟩
abbrev main_cst_7 : Ref sig .tc := ⟨.hbm, 95, rfl⟩
abbrev main_v40 : Ref sig .tc := ⟨.hbm, 96, rfl⟩
abbrev main_cst_8 : Ref sig .tc := ⟨.hbm, 97, rfl⟩
abbrev main_v41 : Ref sig .tc := ⟨.hbm, 98, rfl⟩

abbrev nD : Nat := 1
abbrev τ : Topo := Topo.v7x

variable {F : FTy → Type} [FloatOps F]

class Facts₀ : Prop where
  reducesTo_S2048x256_S2048_d1 : S2048x256.ReducesTo [1] S2048
  h_S_ : 0 < S_.numel
  bcast_S2048_S2048x1_0 : S2048.BroadcastsInDim S2048x1 (![0] : Fin 1 → Fin S2048x1.rank)
  bcast_S_S2048x1 : S_.BroadcastsInDim S2048x1 (![] : Fin 0 → Fin S2048x1.rank)
  bcast_S2048x1_S2048x256_0_1 : S2048x1.BroadcastsInDim S2048x256 (![0, 1] : Fin 2 → Fin S2048x256.rank)
  concatenates_S2048x256_S2048x256_S4096x256_d0 : Shape.Concatenates [S2048x256, S2048x256] S4096x256 0
  bcast_S_S2048 : S_.BroadcastsInDim S2048 (![] : Fin 0 → Fin S2048.rank)
  concatenates_S2048x1_S2048x1_S2048x2_d1 : Shape.Concatenates [S2048x1, S2048x1] S2048x2 1
  concatenates_S2048_S2048_S4096_d0 : Shape.Concatenates [S2048, S2048] S4096 0
  bcast_S_S4096x4096 : S_.BroadcastsInDim S4096x4096 (![] : Fin 0 → Fin S4096x4096.rank)
  bcast_S_S4096 : S_.BroadcastsInDim S4096 (![] : Fin 0 → Fin S4096.rank)
  reducesTo_S4096x4096_S4096_d1 : S4096x4096.ReducesTo [1] S4096
  reducesTo_S4096_S_d0 : S4096.ReducesTo [0] S_
  dot_S4096x256_S4096x256_S4096x4096_1_1_0_0_n_n_wf : DotDims.WF S4096x256 S4096x256 S4096x4096 [1] [1] [0] [0] [] []
  gather_S4096x4096_S2048x2_S2048_n_01_n_n_01_1_11_wf : GatherDims.WF S4096x4096 S2048x2 S2048 [] [0, 1] [] [0, 1] [] 1 ![1, 1]

variable [Facts₀]

def dot_S4096x256_S4096x256_S4096x4096_1_1_0_0_n_n : DotDims S4096x256 S4096x256 S4096x4096 where
  lhsContracting := [1]
  rhsContracting := [1]
  lhsNonContracting := [0]
  rhsNonContracting := [0]
  lhsBatch := []
  rhsBatch := []
  wf := dot_S4096x256_S4096x256_S4096x4096_1_1_0_0_n_n_wf
def gather_S4096x4096_S2048x2_S2048_n_01_n_n_01_1_11 : GatherDims S4096x4096 S2048x2 S2048 where
  offsetDims := []
  collapsedSliceDims := [0, 1]
  operandBatchingDims := []
  startIndicesBatchingDims := []
  startIndexMap := [0, 1]
  indexVectorDim := 1
  sliceSizes := ![1, 1]
  wf := gather_S4096x4096_S2048x2_S2048_n_01_n_n_01_1_11_wf

class Facts : Prop extends Facts₀ where

variable [Facts]
-- ==== Proof.K.Base.lean ====
/-
  The frame of the program, part one: what every later part is stated over.

  The program is: host operations (the row normalisation, the stacking, the positive-pair dot products), ONE kernel
  region on a 4 × 2 grid, host operations (the loss from the region's result). The region reads ONE array, the
  stacked matrix, through two windows — a block of 1024 rows (window 0) and a block of 2048 rows (window 1) — and
  writes a column of 1024 row sums per row block (window 2). Its body keeps a running sum in a scratch buffer:
  reset at the first column block (second grid coordinate 0), added to at both, copied to the output at the last
  (second grid coordinate 1).
-/
import proofs.«104670_j24464133718914_2_alg».proof.Proof.Gen.Kernel.Launch
import proofs.«104670_j24464133718914_2_alg».proof.Proof.Gen.Kernel.Skeleton
import proofs.«104670_j24464133718914_2_alg».proof.Proof.Gen.Kernel.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The program around the region -/

/-- A core's buffer contents when the region is entered: after the host operations before it. -/
abbrev V0 (c : Dev nD) : Valuation τ sig (Elt F) := StableHlo.after (List.flatten [hostOps0]) (fun b => m (c, b))
/-- The same read at a reference. -/
abbrev V (c : Dev nD) (b : Ref sig .tc) : Buf (Elt F) ((c : Thread nD τ).loc b) := V0 m c (Proc.devRef .tc b)

theorem hostOps0_fresh : (hostOps0 : List (HloOp τ sig (Elt F))).Forall fun op => op.fresh = ∅ := by
  simp only [List.Forall]; repeat' constructor

theorem hostOps1_fresh : (hostOps1 : List (HloOp τ sig (Elt F))).Forall fun op => op.fresh = ∅ := by
  simp only [List.Forall]; repeat' constructor

/-- The program is: the first stretch of host operations, the region, the second stretch. -/
theorem hmain (𝒱₀ : Variants) : Pipeline.HMainK (Ix := Unit) (Name := ℕ) (U := UR sig nD τ) (Lvl := ℕ) cfgs 0 defs₀ 𝒱₀ m (main (F := F)) (V m)
      (fun _ => Pipeline.chain [StableHlo.seq hostOps1]) :=
  Pipeline.hmain_around cfgs 0 defs₀ 𝒱₀ m main [hostOps0] [hostOps1] hostOps0_sub
    hostOps0_fresh main_chain

/-- The host operations before the region write neither argument. -/
theorem V_main_arg0 (c : Dev nD) : V m c main_arg0 = m ((c : Thread nD τ).loc main_arg0) := by
  dsimp only [V, V0]
  simp only [hostOps0, List.flatten_cons, List.flatten_nil, List.append_nil]
  after_results
theorem V_main_arg1 (c : Dev nD) : V m c main_arg1 = m ((c : Thread nD τ).loc main_arg1) := by
  dsimp only [V, V0]
  simp only [hostOps0, List.flatten_cons, List.flatten_nil, List.append_nil]
  after_results

/-! ## The windows' blocks -/

/-- Window `w`'s block at grid point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- An input window's current staging buffer holds its block at every point, fetched there or not. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-! ## The body's two conditions over the grid -/

/-- "This is the first column block": the second grid coordinate is 0. -/
abbrev cond0_0 (i : grid0.Coords) : Prop := (Scalar.cmpi .ne (Scalar.extui (Scalar.cmpi .eq (BitVec.ofNat 32 (i 1).val) 0#32)) 0#32) = 1#1
theorem hcond0_0 : ∀ t : Fin cfg0.N, cond0_0 (grid0.coords t) ↔ t.val % 2 = 0 :=
  (by decide +kernel : ∀ t : Fin grid0.N, cond0_0 (grid0.coords t) ↔ t.val % 2 = 0)

/-- "This is the last column block": the second grid coordinate is 1. -/
abbrev cond0_1 (i : grid0.Coords) : Prop := k0_cond2 i = 1#1
theorem hcond0_1 : ∀ t : Fin cfg0.N, cond0_1 (grid0.coords t) ↔ t.val % 2 = 1 :=
  (by decide +kernel : ∀ t : Fin grid0.N, cond0_1 (grid0.coords t) ↔ t.val % 2 = 1)

/-! ## Where the windows are idle -/

theorem liveAt0_0 : ∀ t : Fin cfg0.N, cfg0.idle 0 (grid0.coords t) = false := by decide +kernel
theorem liveAt0_1 : ∀ t : Fin cfg0.N, cfg0.idle 1 (grid0.coords t) = false := by decide +kernel
/-- At a first column block the output window is idle (nothing is stored into it) and not written back. -/
theorem idleAt0_2_A : ∀ t : Fin cfg0.N, cond0_0 (grid0.coords t) → ¬cond0_1 (grid0.coords t) → cfg0.idle 2 (grid0.coords t) = true := by decide +kernel
theorem noFlush0_2_A : ∀ t : Fin cfg0.N, cond0_0 (grid0.coords t) → ¬cond0_1 (grid0.coords t) → (cfg0.win 2).flush t = false := by decide +kernel
/-- At a last column block it is live. -/
theorem liveAt0_2_B : ∀ t : Fin cfg0.N, ¬cond0_0 (grid0.coords t) → cond0_1 (grid0.coords t) → cfg0.idle 2 (grid0.coords t) = false := by decide +kernel

/-! ## The memrefs the body is called with -/

abbrev VO0_2 : View sig .tc .vmem S1024x1 .f32 := (Memref.whole cc0_stg2_0 : Memref sig .tc .vmem S1024x1 .f32).view
abbrev ms0_0 (t : Fin cfg0.N) : Memref sig .tc .vmem S1024x256 .bf16 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S2048x256 .bf16 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1024x1 .f32 := win0_2.stage (cfg0.slots t 2)
abbrev hs0_2 (t : Fin cfg0.N) : (ms0_2 t).IsWhole := hstage0_2 ((cfg0.slots t 2).cast nbuf0_2)
/-- The running sum's buffer. -/
abbrev scM0_0 : Memref sig .tc .vmem S1024x1 .f32 := Memref.whole cc0_scratch0
abbrev VS0_0 : View sig .tc .vmem S1024x1 .f32 := scM0_0.view

/-- The scoped buffers no window stages are the running sum's buffer, whole at some contents. -/
theorem Phi0_eq (c : Dev nD) :
    (Pipeline.scopedRest spec0 c : sProp 𝕄) = iprop(∃ d, owns (c : Thread nD τ) scM0_0 fullShare d) := by
  rw [scopedRest0_eq]; simp only [scM0_0, owns_whole]; try rfl

end Cert.Kernel.Fr

end
-- ==== Proof.K.RunFirst.lean ====
/-
  The body at a FIRST column block (second grid coordinate 0): the running sum is reset to zero, the block's row
  sums are added to it, and nothing is stored into the output window, which is handed back as it was found.
-/
import proofs.«104670_j24464133718914_2_alg».proof.Proof.Gen.Kernel.Launch
import proofs.«104670_j24464133718914_2_alg».proof.Proof.Gen.Kernel.Skeleton
import proofs.«104670_j24464133718914_2_alg».proof.Proof.Gen.Kernel.Points
import Idealize.ShloMosaic.Lib.Pipeline.FrameBody
import Idealize.ShloMosaic.Lib.Pipeline.FrameSuffix
import Idealize.ShloMosaic.Lib.Ring
import Idealize.ShloMosaic.Lib.Tactic
import proofs.«104670_j24464133718914_2_alg».proof.Proof.K.Base
set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 1000000 in
/-- The body's triple at a first column block, on whole memrefs: the two input blocks at their contents, the output
    window's buffer at contents handed back untouched, the running sum's buffer at anything; it ends with the running
    sum's buffer written by the pieces the run finds (the list `LS0`, last store first). -/
noncomputable def kernelRun0_A (c : Dev nD) (i : grid0.Coords) (arg2 : Memref sig .tc .vmem S1024x256 .bf16) (harg2 : arg2.IsWhole) (arg3 : Memref sig .tc .vmem S2048x256 .bf16) (harg3 : arg3.IsWhole) (arg4 : Memref sig .tc .vmem S1024x1 .f32) (harg4 : arg4.IsWhole) (arg5 : Memref sig .tc .vmem S1024x1 .f32) (harg5 : arg5.IsWhole) (hc0 : cond0_0 i) (hc1 : ¬cond0_1 i)
    (x0 : Vec F S1024x256 .bf16) (x1 : Vec F S2048x256 .bf16) :
    Σ' (L2 : List (View.Piece (Elt F) S1024x1 .f32)), { LS0 : List (View.Piece (Elt F) S1024x1 .f32) //
      ∀ (xi2 : Vec F S1024x1 .f32) (E : Set ℕ) (K : PUnit → sProp 𝕄),
        iprop(owns (c : Thread nD τ) arg2 fullShare x0 ∗ owns (c : Thread nD τ) arg3 fullShare x1 ∗ owns (c : Thread nD τ) arg4 fullShare xi2 ∗ (∃ d, owns (c : Thread nD τ) arg5 fullShare d)
            ∗ (iprop(owns (c : Thread nD τ) arg2 fullShare x0 ∗ owns (c : Thread nD τ) arg3 fullShare x1 ∗ owns (c : Thread nD τ) arg4 fullShare xi2 ∗ (∃ f, arg5.view.loc (c : Thread nD τ) ↦[arg5.view.set]{fullShare} arg5.view.writes (Elt F) f LS0)) -∗ K ⟨⟩))
          ⊢ wp frame (wpE (defs₀ (F := F)) Variants.none c none) E (cc0__denom_kernel i arg2 harg2 arg3 harg3 arg4 harg4 arg5 harg5) K } := by
  refine ⟨[], ?_, fun xi2 E K => ?run⟩
  case run =>
    simp only [cc0__denom_kernel_eq_skeleton]; unfold cc0__denom_kernel_skel
    unfold owns
    iintro ⟨⟨%f0, %hf0, H0⟩, ⟨%f1, %hf1, H1⟩, ⟨%f2, %hf2, H2⟩, ⟨%ds0, %fs0, -, HS0⟩, Hk⟩
    obtain rfl := harg2.eq_unread hf0; obtain rfl := harg3.eq_unread hf1; obtain rfl := harg4.eq_unread hf2
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    iexists _; iexact HS0

end Cert.Kernel.Fr

end
-- ==== Proof.K.RunLast.lean ====
/-
  The body at a LAST column block (second grid coordinate 1): the block's row sums are added to the running sum,
  and the running sum is copied into the output window.
-/
import proofs.«104670_j24464133718914_2_alg».proof.Proof.Gen.Kernel.Launch
import proofs.«104670_j24464133718914_2_alg».proof.Proof.Gen.Kernel.Skeleton
import proofs.«104670_j24464133718914_2_alg».proof.Proof.Gen.Kernel.Points
import Idealize.ShloMosaic.Lib.Pipeline.FrameBody
import Idealize.ShloMosaic.Lib.Pipeline.FrameSuffix
import Idealize.ShloMosaic.Lib.Ring
import Idealize.ShloMosaic.Lib.Tactic
import proofs.«104670_j24464133718914_2_alg».proof.Proof.K.Base
set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 1000000 in
/-- The body's triple at a last column block, on whole memrefs: the two input blocks at their contents, the output
    window's buffer at anything, the running sum's buffer at what the point before left (`xs0`); it ends with the
    output window's buffer and the running sum's buffer written by the pieces the run finds (`L2`, `LS0`). -/
noncomputable def kernelRun0_B (c : Dev nD) (i : grid0.Coords) (arg2 : Memref sig .tc .vmem S1024x256 .bf16) (harg2 : arg2.IsWhole) (arg3 : Memref sig .tc .vmem S2048x256 .bf16) (harg3 : arg3.IsWhole) (arg4 : Memref sig .tc .vmem S1024x1 .f32) (harg4 : arg4.IsWhole) (arg5 : Memref sig .tc .vmem S1024x1 .f32) (harg5 : arg5.IsWhole) (hc0 : ¬cond0_0 i) (hc1 : cond0_1 i)
    (x0 : Vec F S1024x256 .bf16) (x1 : Vec F S2048x256 .bf16) (xs0 : Vec F S1024x1 .f32) :
    Σ' (L2 : List (View.Piece (Elt F) S1024x1 .f32)), { LS0 : List (View.Piece (Elt F) S1024x1 .f32) //
      ∀ (E : Set ℕ) (K : PUnit → sProp 𝕄),
        iprop(owns (c : Thread nD τ) arg2 fullShare x0 ∗ owns (c : Thread nD τ) arg3 fullShare x1 ∗ (∃ d, owns (c : Thread nD τ) arg4 fullShare d) ∗ owns (c : Thread nD τ) arg5 fullShare xs0
            ∗ (iprop(owns (c : Thread nD τ) arg2 fullShare x0 ∗ owns (c : Thread nD τ) arg3 fullShare x1 ∗ (∃ f, arg4.view.loc (c : Thread nD τ) ↦[arg4.view.set]{fullShare} arg4.view.writes (Elt F) f L2) ∗ (∃ f, arg5.view.loc (c : Thread nD τ) ↦[arg5.view.set]{fullShare} arg5.view.writes (Elt F) f LS0)) -∗ K ⟨⟩))
          ⊢ wp frame (wpE (defs₀ (F := F)) Variants.none c none) E (cc0__denom_kernel i arg2 harg2 arg3 harg3 arg4 harg4 arg5 harg5) K } := by
  refine ⟨?_, ?_, fun E K => ?run⟩
  case run =>
    simp only [cc0__denom_kernel_eq_skeleton]; unfold cc0__denom_kernel_skel
    unfold owns
    iintro ⟨⟨%f0, %hf0, H0⟩, ⟨%f1, %hf1, H1⟩, ⟨%d2, %f2, -, H2⟩, ⟨%fs0, %hfs0, HS0⟩, Hk⟩
    obtain rfl := harg2.eq_unread hf0; obtain rfl := harg3.eq_unread hf1; obtain rfl := harg5.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]; · iexists _; iexact H2
    iexists _; iexact HS0

end Cert.Kernel.Fr

end
-- ==== Proof.K.Data.lean ====
/-
  The frame of the program, part two: what the running sum and the output window hold after each grid point, the
  region's proof data, and the body's obligation at every point.

  Grid point `t` (0 … 7) is row block `t / 2`, column block `t % 2`. After an even point the running sum holds the
  first column block's row sums; after an odd point it holds both blocks' row sums, and so does the output window's
  buffer, which is then written back as rows `1024·(t/2) … 1024·(t/2)+1023` of the result.
-/
import proofs.«104670_j24464133718914_2_alg».proof.Proof.Gen.Kernel.Launch
import proofs.«104670_j24464133718914_2_alg».proof.Proof.Gen.Kernel.Skeleton
import proofs.«104670_j24464133718914_2_alg».proof.Proof.Gen.Kernel.Points
import Idealize.ShloMosaic.Lib.Pipeline.FrameBody
import Idealize.ShloMosaic.Lib.Pipeline.FrameSuffix
import Idealize.ShloMosaic.Lib.Ring
import Idealize.ShloMosaic.Lib.Tactic
import proofs.«104670_j24464133718914_2_alg».proof.Proof.K.RunFirst
import proofs.«104670_j24464133718914_2_alg».proof.Proof.K.RunLast
set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What each case leaves -/

/-- A first column block stores nothing into the output window: a placeholder nothing consults. -/
def out0_A_2 (c : Dev nD) (i : grid0.Coords) (arg2 : Memref sig .tc .vmem S1024x256 .bf16) (harg2 : arg2.IsWhole) (arg3 : Memref sig .tc .vmem S2048x256 .bf16) (harg3 : arg3.IsWhole) (arg4 : Memref sig .tc .vmem S1024x1 .f32) (harg4 : arg4.IsWhole) (arg5 : Memref sig .tc .vmem S1024x1 .f32) (harg5 : arg5.IsWhole) (hc0 : cond0_0 i) (hc1 : ¬cond0_1 i)
    (x0 : Vec F S1024x256 .bf16) (x1 : Vec F S2048x256 .bf16) : Vec F S1024x1 .f32 :=
  VO0_2.read (Elt F) (VO0_2.writes (Elt F) VO0_2.junk (kernelRun0_A c i arg2 harg2 arg3 harg3 arg4 harg4 arg5 harg5 hc0 hc1 x0 x1).1)

/-- The stores of a first column block cover the running sum's buffer. -/
theorem scover0_A_0 (c : Dev nD) (i : grid0.Coords) (arg2 : Memref sig .tc .vmem S1024x256 .bf16) (harg2 : arg2.IsWhole) (arg3 : Memref sig .tc .vmem S2048x256 .bf16) (harg3 : arg3.IsWhole) (arg4 : Memref sig .tc .vmem S1024x1 .f32) (harg4 : arg4.IsWhole) (arg5 : Memref sig .tc .vmem S1024x1 .f32) (harg5 : arg5.IsWhole) (hc0 : cond0_0 i) (hc1 : ¬cond0_1 i)
    (x0 : Vec F S1024x256 .bf16) (x1 : Vec F S2048x256 .bf16) (y : S1024x1.Idx) :
    ∃ pc ∈ (kernelRun0_A c i arg2 harg2 arg3 harg3 arg4 harg4 arg5 harg5 hc0 hc1 x0 x1).2.1, y ∈ pc.1.set :=
  View.cover_of_tiledL (kernelRun0_A c i arg2 harg2 arg3 harg3 arg4 harg4 arg5 harg5 hc0 hc1 x0 x1).2.1 S1024x1.size (by sl_kernel_rfl) y

/-- What a first column block leaves in the running sum's buffer. -/
def sout0_A_0 (c : Dev nD) (i : grid0.Coords) (arg2 : Memref sig .tc .vmem S1024x256 .bf16) (harg2 : arg2.IsWhole) (arg3 : Memref sig .tc .vmem S2048x256 .bf16) (harg3 : arg3.IsWhole) (arg4 : Memref sig .tc .vmem S1024x1 .f32) (harg4 : arg4.IsWhole) (arg5 : Memref sig .tc .vmem S1024x1 .f32) (harg5 : arg5.IsWhole) (hc0 : cond0_0 i) (hc1 : ¬cond0_1 i)
    (x0 : Vec F S1024x256 .bf16) (x1 : Vec F S2048x256 .bf16) : Vec F S1024x1 .f32 :=
  VS0_0.read (Elt F) (VS0_0.writes (Elt F) VS0_0.junk (kernelRun0_A c i arg2 harg2 arg3 harg3 arg4 harg4 arg5 harg5 hc0 hc1 x0 x1).2.1)

/-- The store of a last column block covers the output window's buffer. -/
theorem cover0_B_2 (c : Dev nD) (i : grid0.Coords) (arg2 : Memref sig .tc .vmem S1024x256 .bf16) (harg2 : arg2.IsWhole) (arg3 : Memref sig .tc .vmem S2048x256 .bf16) (harg3 : arg3.IsWhole) (arg4 : Memref sig .tc .vmem S1024x1 .f32) (harg4 : arg4.IsWhole) (arg5 : Memref sig .tc .vmem S1024x1 .f32) (harg5 : arg5.IsWhole) (hc0 : ¬cond0_0 i) (hc1 : cond0_1 i)
    (x0 : Vec F S1024x256 .bf16) (x1 : Vec F S2048x256 .bf16) (xs0 : Vec F S1024x1 .f32) (y : S1024x1.Idx) :
    ∃ pc ∈ (kernelRun0_B c i arg2 harg2 arg3 harg3 arg4 harg4 arg5 harg5 hc0 hc1 x0 x1 xs0).1, y ∈ pc.1.set :=
  View.cover_of_tiledL (kernelRun0_B c i arg2 harg2 arg3 harg3 arg4 harg4 arg5 harg5 hc0 hc1 x0 x1 xs0).1 S1024x1.size (by sl_kernel_rfl) y

/-- What a last column block leaves in the output window's buffer. -/
def out0_B_2 (c : Dev nD) (i : grid0.Coords) (arg2 : Memref sig .tc .vmem S1024x256 .bf16) (harg2 : arg2.IsWhole) (arg3 : Memref sig .tc .vmem S2048x256 .bf16) (harg3 : arg3.IsWhole) (arg4 : Memref sig .tc .vmem S1024x1 .f32) (harg4 : arg4.IsWhole) (arg5 : Memref sig .tc .vmem S1024x1 .f32) (harg5 : arg5.IsWhole) (hc0 : ¬cond0_0 i) (hc1 : cond0_1 i)
    (x0 : Vec F S1024x256 .bf16) (x1 : Vec F S2048x256 .bf16) (xs0 : Vec F S1024x1 .f32) : Vec F S1024x1 .f32 :=
  VO0_2.read (Elt F) (VO0_2.writes (Elt F) VO0_2.junk (kernelRun0_B c i arg2 harg2 arg3 harg3 arg4 harg4 arg5 harg5 hc0 hc1 x0 x1 xs0).1)

/-- The store of a last column block covers the running sum's buffer. -/
theorem scover0_B_0 (c : Dev nD) (i : grid0.Coords) (arg2 : Memref sig .tc .vmem S1024x256 .bf16) (harg2 : arg2.IsWhole) (arg3 : Memref sig .tc .vmem S2048x256 .bf16) (harg3 : arg3.IsWhole) (arg4 : Memref sig .tc .vmem S1024x1 .f32) (harg4 : arg4.IsWhole) (arg5 : Memref sig .tc .vmem S1024x1 .f32) (harg5 : arg5.IsWhole) (hc0 : ¬cond0_0 i) (hc1 : cond0_1 i)
    (x0 : Vec F S1024x256 .bf16) (x1 : Vec F S2048x256 .bf16) (xs0 : Vec F S1024x1 .f32) (y : S1024x1.Idx) :
    ∃ pc ∈ (kernelRun0_B c i arg2 harg2 arg3 harg3 arg4 harg4 arg5 harg5 hc0 hc1 x0 x1 xs0).2.1, y ∈ pc.1.set :=
  View.cover_of_tiledL (kernelRun0_B c i arg2 harg2 arg3 harg3 arg4 harg4 arg5 harg5 hc0 hc1 x0 x1 xs0).2.1 S1024x1.size (by sl_kernel_rfl) y

/-- What a last column block leaves in the running sum's buffer. -/
def sout0_B_0 (c : Dev nD) (i : grid0.Coords) (arg2 : Memref sig .tc .vmem S1024x256 .bf16) (harg2 : arg2.IsWhole) (arg3 : Memref sig .tc .vmem S2048x256 .bf16) (harg3 : arg3.IsWhole) (arg4 : Memref sig .tc .vmem S1024x1 .f32) (harg4 : arg4.IsWhole) (arg5 : Memref sig .tc .vmem S1024x1 .f32) (harg5 : arg5.IsWhole) (hc0 : ¬cond0_0 i) (hc1 : cond0_1 i)
    (x0 : Vec F S1024x256 .bf16) (x1 : Vec F S2048x256 .bf16) (xs0 : Vec F S1024x1 .f32) : Vec F S1024x1 .f32 :=
  VS0_0.read (Elt F) (VS0_0.writes (Elt F) VS0_0.junk (kernelRun0_B c i arg2 harg2 arg3 harg3 arg4 harg4 arg5 harg5 hc0 hc1 x0 x1 xs0).2.1)

/-! ## Point by point -/

theorem hc1_of_even (t : Fin cfg0.N) (h0 : t.val % 2 = 0) : ¬cond0_1 (grid0.coords t) := fun h => by
  have := (hcond0_1 t).mp h; omega
theorem hc0_of_odd (t : Fin cfg0.N) (h1 : t.val % 2 = 1) : ¬cond0_0 (grid0.coords t) := fun h => by
  have := (hcond0_0 t).mp h; omega

/-- After an even point: (the output window's placeholder, the running sum). -/
def outA (c : Dev nD) (t : Fin cfg0.N) (h0 : t.val % 2 = 0) : Vec F S1024x1 .f32 × Vec F S1024x1 .f32 :=
  (out0_A_2 c (grid0.coords t) (ms0_0 t) (hs0_0 t) (ms0_1 t) (hs0_1 t) (ms0_2 t) (hs0_2 t) scM0_0 (Memref.isWhole_whole _) ((hcond0_0 t).mpr h0) (hc1_of_even t h0) (iblk m c 0 t) (iblk m c 1 t),
   sout0_A_0 c (grid0.coords t) (ms0_0 t) (hs0_0 t) (ms0_1 t) (hs0_1 t) (ms0_2 t) (hs0_2 t) scM0_0 (Memref.isWhole_whole _) ((hcond0_0 t).mpr h0) (hc1_of_even t h0) (iblk m c 0 t) (iblk m c 1 t))

/-- After an odd point, from the running sum `xs` the point before left: (the output window, the running sum). -/
def outB (c : Dev nD) (t : Fin cfg0.N) (h1 : t.val % 2 = 1) (xs : Vec F S1024x1 .f32) : Vec F S1024x1 .f32 × Vec F S1024x1 .f32 :=
  (out0_B_2 c (grid0.coords t) (ms0_0 t) (hs0_0 t) (ms0_1 t) (hs0_1 t) (ms0_2 t) (hs0_2 t) scM0_0 (Memref.isWhole_whole _) (hc0_of_odd t h1) ((hcond0_1 t).mpr h1) (iblk m c 0 t) (iblk m c 1 t) xs,
   sout0_B_0 c (grid0.coords t) (ms0_0 t) (hs0_0 t) (ms0_1 t) (hs0_1 t) (ms0_2 t) (hs0_2 t) scM0_0 (Memref.isWhole_whole _) (hc0_of_odd t h1) ((hcond0_1 t).mpr h1) (iblk m c 0 t) (iblk m c 1 t) xs)

/-- What the output window's buffer and the running sum's buffer hold after the body at position `n`. -/
def outsAt0 (c : Dev nD) : (n : ℕ) → n < cfg0.N → Vec F S1024x1 .f32 × Vec F S1024x1 .f32
  | 0, hn => outA m c ⟨0, hn⟩ rfl
  | n + 1, hn =>
    if h0 : (n + 1) % 2 = 0 then outA m c ⟨n + 1, hn⟩ h0
    else outB m c ⟨n + 1, hn⟩ (by show (n + 1) % 2 = 1; omega) (outsAt0 c n (Nat.lt_of_succ_lt hn)).2

theorem outsAt0_A (c : Dev nD) (t : Fin cfg0.N) (h0 : t.val % 2 = 0) : outsAt0 m c t.val t.isLt = outA m c t h0 := by
  obtain ⟨n, hn⟩ := t
  cases n with
  | zero => exact rfl
  | succ n => exact (dif_pos h0).trans rfl

theorem outsAt0_B (c : Dev nD) (t : Fin cfg0.N) (h1 : t.val % 2 = 1) :
    outsAt0 m c t.val t.isLt = outB m c t h1 (outsAt0 m c (t.val - 1) (Nat.lt_of_le_of_lt (Nat.sub_le _ _) t.isLt)).2 := by
  obtain ⟨n, hn⟩ := t
  cases n with
  | zero => exact absurd (show 0 % 2 = 1 from h1) (by decide)
  | succ n => exact (dif_neg (by have h1' : (n + 1) % 2 = 1 := h1; omega)).trans rfl

/-- The region's invariant before position `n`: before the first point the running sum's buffer at anything; afterwards
    at what the point before left in it. -/
def PhiS (c : Dev nD) : (n : ℕ) → n ≤ cfg0.N → sProp 𝕄
  | 0, _ => Pipeline.scopedRest spec0 c
  | n + 1, hn => owns (c : Thread nD τ) scM0_0 fullShare ((outsAt0 m c n hn).2)

theorem PhiS_zero (c : Dev nD) (n : ℕ) (h : n ≤ cfg0.N) (hz : n = 0) : PhiS m c n h = Pipeline.scopedRest spec0 c := by
  subst hz; rfl

theorem PhiS_succ (c : Dev nD) (n : ℕ) (hn : n < cfg0.N) :
    PhiS m c (n + 1) hn = owns (c : Thread nD τ) scM0_0 fullShare ((outsAt0 m c n hn).2) := rfl

theorem PhiS_pos (c : Dev nD) (n : ℕ) (h : n ≤ cfg0.N) (hz : n ≠ 0) :
    PhiS m c n h = owns (c : Thread nD τ) scM0_0 fullShare ((outsAt0 m c (n - 1) (by omega)).2) := by
  cases n with
  | zero => exact absurd rfl hz
  | succ n => rfl

/-! ## The region's proof data -/

/-- The arrays as the region finds them; after the body at a point each input's buffer at its block and the output's at
    `outsAt0`; the invariant `PhiS`; nothing owed. The stacked matrix is read through two windows: each holds half of
    its share. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => (outsAt0 m c t.val t.isLt).1
  Φ t := PhiS m c t.val (Nat.le_of_lt_succ t.isLt)
  q w := match w with
    | ⟨0, _⟩ => fullShare.left
    | ⟨1, _⟩ => fullShare.right
    | ⟨2, _⟩ => fullShare
  owed _ := 0

theorem A_eq (c : Dev nD) (w : Fin cfg0.W) : (dats m 0 c).A w = V m c (Pipeline.arrRef spec0 w) := by
  dsimp only [dats]

theorem PhiS_castSucc (c : Dev nD) (t : Fin cfg0.N) :
    (dats m 0 c).Φ t.castSucc = PhiS m c t.val (Nat.le_of_lt t.isLt) := by
  dsimp only [dats]; simp only [Fin.coe_castSucc]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = (outsAt0 m c t.val t.isLt).1 := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d

/-! ## The body obligation -/

def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d)))

def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t)

set_option maxHeartbeats 4800000 in
/-- The body at any point: the inputs' buffers hold their blocks; the point's parity says which case it is; the
    invariant hands the body the running sum at what the point before left (at anything at the very first point) and
    takes it back at this point's contents. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1]
  rw [show (dats m 0 c).owesAt () t.succ = (dats m 0 c).owesAt () t.castSucc from rfl]
  rw [show (dats m 0 c).Φ t.succ = PhiS m c (t.val + 1) t.isLt from rfl, PhiS_succ]
  have hN : t.val < 8 := lt_of_lt_of_eq t.isLt (show cfg0.N = 8 from N_0)
  rw [show (dats m 0 c).leavesExact 0 t = owns (c : Thread nD τ) (ms0_0 t) fullShare ((dats m 0 c).after 0 t) from by
    unfold Dat.leavesExact; rw [liveAt0_0 t], after0_0]
  rw [show (dats m 0 c).leavesExact 1 t = owns (c : Thread nD τ) (ms0_1 t) fullShare ((dats m 0 c).after 1 t) from by
    unfold Dat.leavesExact; rw [liveAt0_1 t], after0_1]
  by_cases h0 : t.val % 2 = 0
  · rw [Dat.leavesExact_idle (dats m 0 c) 2 t (idleAt0_2_A t ((hcond0_0 t).mpr h0) (hc1_of_even t h0)) (noFlush0_2_A t ((hcond0_0 t).mpr h0) (hc1_of_even t h0))]
    rw [outsAt0_A m c t h0]
    unfold outA sout0_A_0; (try dsimp only)
    by_cases hz : t.val = 0
    · rw [PhiS_castSucc m c t, PhiS_zero m c _ _ hz, Phi0_eq]
      iintro ⟨HS0, Ho, ⟨%d0, H0⟩, ⟨%d1, H1⟩, ⟨%d2, H2⟩⟩
      iapply ((kernelRun0_A c (grid0.coords t) _ _ _ _ _ _ _ _ ((hcond0_0 t).mpr h0) (hc1_of_even t h0) (iblk m c 0 t) (iblk m c 1 t)).2.2 _ Set.univ _)
      isplitl [H0]; · iexact H0
      isplitl [H1]; · iexact H1
      isplitl [H2]; · iexact H2
      isplitl [HS0]; · iexact HS0
      iintro ⟨H0, H1, H2, ⟨%es0, HS0⟩⟩
      isplitl [HS0]
      · unfold owns; iexists _; isplitr
        swap; · iexact HS0
        ipureintro; exact View.read_writes_of_cover _ _ _ _ _ (scover0_A_0 c _ _ _ _ _ _ _ _ _ _ _ _ _)
      isplitl [Ho]; · iexact Ho
      isplitl [H0]; · iexact H0
      isplitl [H1]; · iexact H1
      iexists _; iexact H2
    · rw [PhiS_castSucc m c t, PhiS_pos m c _ _ hz]
      iintro ⟨HS0, Ho, ⟨%d0, H0⟩, ⟨%d1, H1⟩, ⟨%d2, H2⟩⟩
      iapply ((kernelRun0_A c (grid0.coords t) _ _ _ _ _ _ _ _ ((hcond0_0 t).mpr h0) (hc1_of_even t h0) (iblk m c 0 t) (iblk m c 1 t)).2.2 _ Set.univ _)
      isplitl [H0]; · iexact H0
      isplitl [H1]; · iexact H1
      isplitl [H2]; · iexact H2
      isplitl [HS0]; · iexists _; iexact HS0
      iintro ⟨H0, H1, H2, ⟨%es0, HS0⟩⟩
      isplitl [HS0]
      · unfold owns; iexists _; isplitr
        swap; · iexact HS0
        ipureintro; exact View.read_writes_of_cover _ _ _ _ _ (scover0_A_0 c _ _ _ _ _ _ _ _ _ _ _ _ _)
      isplitl [Ho]; · iexact Ho
      isplitl [H0]; · iexact H0
      isplitl [H1]; · iexact H1
      iexists _; iexact H2
  · have h1 : t.val % 2 = 1 := by omega
    rw [show (dats m 0 c).leavesExact 2 t = owns (c : Thread nD τ) (ms0_2 t) fullShare ((dats m 0 c).after 2 t) from by
      unfold Dat.leavesExact; rw [liveAt0_2_B t (hc0_of_odd t h1) ((hcond0_1 t).mpr h1)], after0_2]
    rw [outsAt0_B m c t h1]
    unfold outB out0_B_2 sout0_B_0; (try dsimp only)
    have hz : t.val ≠ 0 := by omega
    rw [PhiS_castSucc m c t, PhiS_pos m c _ _ hz]
    iintro ⟨HS0, Ho, ⟨%d0, H0⟩, ⟨%d1, H1⟩, ⟨%d2, H2⟩⟩
    iapply ((kernelRun0_B c (grid0.coords t) _ _ _ _ _ _ _ _ (hc0_of_odd t h1) ((hcond0_1 t).mpr h1) (iblk m c 0 t) (iblk m c 1 t) _).2.2 Set.univ _)
    isplitl [H0]; · iexact H0
    isplitl [H1]; · iexact H1
    isplitl [H2]; · iexists _; iexact H2
    isplitl [HS0]; · iexact HS0
    iintro ⟨H0, H1, ⟨%e2, H2⟩, ⟨%es0, HS0⟩⟩
    isplitl [HS0]
    · unfold owns; iexists _; isplitr
      swap; · iexact HS0
      ipureintro; exact View.read_writes_of_cover _ _ _ _ _ (scover0_B_0 c _ _ _ _ _ _ _ _ _ _ _ _ _ _)
    isplitl [Ho]; · iexact Ho
    isplitl [H0]; · iexact H0
    isplitl [H1]; · iexact H1
    unfold owns; iexists _; isplitr
    swap; · iexact H2
    ipureintro; exact View.read_writes_of_cover _ _ _ _ _ (cover0_B_2 c _ _ _ _ _ _ _ _ _ _ _ _ _ _)

/-- The body obligation, at every point. -/
theorem body_obligation (c : Dev nD) : BodyObligation (dats (F := F) m 0 c) (defs₀ (F := F)) Variants.none () Set.univ := fun t => by
  rw [bigSep_W0, bigSep_W0]
  exact sound_body m c t

/-- Before the first point the invariant is the scoped buffers no window stages: the running sum's buffer. -/
theorem hin (c : Dev nD) : Pipeline.scopedRest spec0 c ⊢ (dats m 0 c).Φ 0 := by
  rw [show (dats m 0 c).Φ 0 = PhiS m c 0 (Nat.zero_le _) from rfl, PhiS_zero m c 0 _ rfl]
  try exact Idealize.SL.BI.Entails.refl _

/-- After any point but the first the invariant gives it back, its contents forgotten. -/
theorem Phi_out (c : Dev nD) (t : Fin (cfg0.N + 1)) (ht : t.val ≠ 0) : (dats m 0 c).Φ t ⊢ Pipeline.scopedRest spec0 c := by
  rw [show (dats m 0 c).Φ t = PhiS m c t.val (Nat.le_of_lt_succ t.isLt) from rfl, PhiS_pos m c _ _ ht, Phi0_eq]
  iintro HS0
  iexists _; iexact HS0

theorem hout (c : Dev nD) : (dats m 0 c).Φ (Fin.last cfg0.N) ⊢ Pipeline.scopedRest spec0 c :=
  Phi_out m c _ (by rw [Fin.val_last]; have : cfg0.N = 8 := N_0; omega)

end Cert.Kernel.Fr

end
-- ==== Proof.K.Launch.lean ====
/-
  The frame of the program, part three: the launch of the region and the program's run.

  The region's three windows stand on TWO arrays: the stacked matrix (read through two windows, each holding half of
  its share while the region runs) and the result column. Entering the region splits the stacked matrix's share in
  two; leaving it joins the halves again, so that the host operations after the region find both arrays whole.
-/
import proofs.«104670_j24464133718914_2_alg».proof.Proof.Gen.Kernel.Launch
import proofs.«104670_j24464133718914_2_alg».proof.Proof.Gen.Kernel.Skeleton
import proofs.«104670_j24464133718914_2_alg».proof.Proof.Gen.Kernel.Points
import Idealize.ShloMosaic.Lib.Pipeline.FrameBody
import Idealize.ShloMosaic.Lib.Pipeline.FrameSuffix
import Idealize.ShloMosaic.Lib.Ring
import Idealize.ShloMosaic.Lib.Tactic
import proofs.«104670_j24464133718914_2_alg».proof.Proof.K.Data
set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

open Idealize.ShloMosaic.Pipeline (WinSpec arrRef arrBufs arrPts unscopedRestP unscopedRest restRefsP restRefs withArrays tailRefs Prefetch)

/-! ## The two arrays behind the three windows -/

/-- The windows' arrays without repetition: the stacked matrix (window 0's) and the result column (window 2's). -/
abbrev win2 : Fin 2 → WinSpec sig grid0.rank := fun | 0 => spec0 0 | 1 => spec0 2 | ⟨_ + 2, h⟩ => absurd h (Nat.not_lt.2 (Nat.le_add_left _ _))

theorem win2_inj : Function.Injective (arrRef win2) := by decide
theorem img_eq : Finset.univ.image (arrRef spec0) = Finset.univ.image (arrRef win2) := by decide

theorem rest_eq (c : Dev nD) (W : (b : Ref sig .tc) → Buf (Elt F) ((c : Thread nD τ).loc b)) :
    (unscopedRestP Prefetch.none spec0 c W : sProp 𝕄) = unscopedRestP Prefetch.none win2 c W := by
  unfold Pipeline.unscopedRestP; rw [img_eq]

/-- The buffers behind the windows' arrays, one by one. -/
theorem arrBufs_eq (c : Dev nD) (W : (b : Ref sig .tc) → Buf (Elt F) ((c : Thread nD τ).loc b)) :
    (arrBufs spec0 c W : sProp 𝕄)
      = iprop((((c : Thread nD τ).loc main_v17) ↦{fullShare} W main_v17) ∗ (((c : Thread nD τ).loc main_v20) ↦{fullShare} W main_v20)) := by
  unfold Pipeline.arrBufs
  rw [img_eq, show Finset.univ.image (arrRef win2) = Finset.univ.map ⟨arrRef win2, win2_inj⟩ from (Finset.map_eq_image ⟨arrRef win2, win2_inj⟩ Finset.univ).symm,
    bigSep_map, bigSep_univ_two]
  rfl

/-- The two arrays held whole, one by one. -/
theorem arrPts_eq (c : Dev nD) (A2 : (w : Fin 2) → Buf (Elt F) ((win2 w).arr.view.loc (c : Thread nD τ))) :
    (arrPts win2 c A2 : sProp 𝕄)
      = iprop((((c : Thread nD τ).loc main_v17) ↦{fullShare} A2 0) ∗ (((c : Thread nD τ).loc main_v20) ↦{fullShare} A2 1)) := by
  unfold Pipeline.arrPts
  rw [bigSep_univ_two]

/-- The region's arrays, window by window: the stacked matrix at its two half shares, the result column whole. -/
theorem arrays_eq3 (c : Dev nD) (Fn : (w : Fin cfg0.W) → Buf (Elt F) ((cfg0.win w).arr.view.loc (c : Thread nD τ))) :
    ((dats m 0 c).arrays Fn : sProp 𝕄)
      = iprop((((c : Thread nD τ).loc main_v17) ↦{fullShare.left} Fn 0) ∗ (((c : Thread nD τ).loc main_v17) ↦{fullShare.right} Fn 1)
          ∗ (((c : Thread nD τ).loc main_v20) ↦{fullShare} Fn 2)) := by
  unfold Dat.arrays
  rw [bigSep_W0, (arr_whole0 0).set_eq_univ, (arr_whole0 2).set_eq_univ]
  rfl

/-- Entering the region: the stacked matrix's share is split between its two windows. -/
theorem hsplit (c : Dev nD) : (arrBufs spec0 c (V m c) : sProp 𝕄) ⊢ (dats m 0 c).arrays ((dats m 0 c).arrAt · 0) := by
  rw [arrBufs_eq, arrays_eq3]
  iintro ⟨H17, H20⟩
  ihave H17 := (pointsTo_share (PosShare.mem_left_op_right fullShare)).1 $$ H17
  icases H17 with ⟨HL, HR⟩
  isplitl [HL]; · iexact HL
  isplitl [HR]; · iexact HR
  iexact H20

/-! ## After the region -/

/-- The two arrays when the region is left: the stacked matrix as it was, the result column as the write-backs left it. -/
def A2 (c : Dev nD) : (w : Fin 2) → Buf (Elt F) ((win2 w).arr.view.loc (c : Thread nD τ)) := fun w => match w with
  | ⟨0, _⟩ => V m c main_v17
  | ⟨1, _⟩ => (dats m 0 c).arrAt 2 cfg0.N

theorem A2_zero (c : Dev nD) : A2 m c 0 = V m c main_v17 := rfl
theorem A2_one (c : Dev nD) : A2 m c 1 = (dats m 0 c).arrAt 2 cfg0.N := rfl

/-- A core's buffer contents when the program ends: the host operations after the region, run from the region's exit. -/
def Vend (c : Dev nD) (b : Ref sig .tc) : Buf (Elt F) ((c : Thread nD τ).loc b) :=
  StableHlo.after (List.flatten [hostOps1]) (withArrays win2 c (V0 m c) (A2 m c)) (Proc.devRef .tc b)

/-- An input window's array is never written. -/
theorem arrAt_in0 (c : Dev nD) : (dats m 0 c).arrAt 0 cfg0.N = V m c main_v17 := ((dats m 0 c).arrAt_in 0 rfl _).trans (A_eq m c 0)
theorem arrAt_in1 (c : Dev nD) : (dats m 0 c).arrAt 1 cfg0.N = V m c main_v17 := ((dats m 0 c).arrAt_in 1 rfl _).trans (A_eq m c 1)

theorem sfx_sub : ∀ ops ∈ ([hostOps1] : List (List (HloOp τ sig (Elt F)))), ∀ op ∈ ops,
    op.bufs ⊆ tailRefs sig Prefetch.none win2 := by
  rw [Pipeline.tailRefs_none win2 (by decide)]
  intro ops hops op hop
  simp only [List.mem_cons, List.mem_nil_iff, or_false] at hops
  rcases hops with rfl
  · exact Pipeline.sub_ucRefs op ((List.forall_iff_forall_mem.mp hostOps1_sub) op hop)

theorem sfx_fresh : ∀ ops ∈ ([hostOps1] : List (List (HloOp τ sig (Elt F)))), ∀ op ∈ ops, op.fresh = ∅ := by
  intro ops hops op hop
  simp only [List.mem_cons, List.mem_nil_iff, or_false] at hops
  rcases hops with rfl
  · exact (List.forall_iff_forall_mem.mp hostOps1_fresh) op hop

/-- The host operations after the region write neither of the two arrays. -/
theorem sfx_keeps : ∀ ops ∈ ([hostOps1] : List (List (HloOp τ sig (Elt F)))), ∀ op ∈ ops,
    ∀ w, Proc.devRef .tc (arrRef win2 w) ∉ op.writes := by
  intro ops hops op hop
  simp only [List.mem_cons, List.mem_nil_iff, or_false] at hops
  rcases hops with rfl
  · simp only [hostOps1, List.mem_cons, List.mem_nil_iff, or_false] at hop
    rcases hop with rfl | rfl | rfl | rfl | rfl | rfl | rfl | rfl | rfl | rfl | rfl | rfl | rfl
    all_goals intro w; fin_cases w <;> simp only [StableHlo.nullary_writes, StableHlo.unary_writes, StableHlo.binary_writes, StableHlo.ternary_writes, StableHlo.quaternary_writes, StableHlo.reshape_writes, StableHlo.binaryIndexed_writes, Finset.mem_singleton] <;> exact StableHlo.devRef_ne_of_ne (by decide)

/-- Leaving the region: the stacked matrix's two half shares are joined, the host operations run on whole arrays,
    and what they hand back is split again for the region's exit. -/
theorem htail (c : Dev nD) (Q' : PUnit → sProp 𝕄) :
    iprop((iprop((dats m 0 c).arrays ((dats m 0 c).arrAt · cfg0.N) ∗ unscopedRestP Prefetch.none win2 c (Vend m c)) -∗ Q' ⟨⟩)
        ∗ boundary (c : Thread nD τ) ∗ (dats m 0 c).arrays ((dats m 0 c).arrAt · cfg0.N)
        ∗ unscopedRestP Prefetch.none win2 c (fun b => V0 m c (Proc.devRef .tc b)))
      ⊢ wp frame (wpE (Pipeline.defs (fun q => (cfgs q).toPCfg (Val := Elt F)) defs₀) (Variants.lift Variants.none) (c : Thread nD τ) none) Set.univ
          (Pipeline.chain [StableHlo.seq hostOps1]) Q' := by
  have h := Pipeline.tail_seqs (Ix := Unit) (Name := ℕ) (U := UR sig nD τ) (Lvl := ℕ) (fun q => (cfgs q).toPCfg (Val := Elt F)) defs₀ Variants.none Prefetch.none win2 win2_inj c (V0 m c) (A2 m c) [hostOps1]
    sfx_sub sfx_fresh sfx_keeps Q'
  rw [arrPts_eq, A2_zero, A2_one] at h
  rw [arrays_eq3, arrAt_in0, arrAt_in1]
  refine BIBase.Entails.trans ?_ h
  iintro ⟨Hk, Hb, ⟨HL, HR, H20⟩, HZ⟩
  ihave H17 := (pointsTo_share (PosShare.mem_left_op_right fullShare)).2 $$ [HL HR]
  · isplitl [HL] <;> iassumption
  isplitl [Hk]
  · iintro ⟨⟨H17, H20⟩, HZ'⟩
    iapply Hk
    ihave H17 := (pointsTo_share (PosShare.mem_left_op_right fullShare)).1 $$ H17
    icases H17 with ⟨HL, HR⟩
    isplitr [HZ']
    · isplitl [HL]; · iexact HL
      isplitl [HR]; · iexact HR
      iexact H20
    · iexact HZ'
  isplitl [Hb]; · iexact Hb
  isplitl [H17 H20]
  · isplitl [H17]; · iexact H17
    iexact H20
  iexact HZ

/-! ## The run -/

set_option backward.isDefEq.respectTransparency.types false in
/-- Every weakly fair execution of the program terminates, nothing faulting, and every buffer that is neither scoped nor
    one of the region's two arrays ends at what the host operations after the region leave in it. -/
theorem run_main : θ_run defs (onTc (τ := τ) (main (F := F))) ⟨m, fun _ => 0, ρ⟩ (fun r => ∀ c : Dev nD,
      ∀ b ∈ restRefsP sig Prefetch.none win2, r.2.mem ((c : Thread nD τ).loc b) = Vend m c b) :=
  Pipeline.θ_run_region_noSem_pf_tail (fun q => (cfgs q).toPCfg (Val := Elt F)) (fun q => (cfgs q).toPCfg_adm) (dats m) () cellOf_inj (0 : Fin 1)
    winFacts₀0 (Pipeline.PreFacts.none _) emb₁ defs₀ Variants.none m ρ main (fun _ => Pipeline.chain [StableHlo.seq hostOps1])
    (hbody := fun c => (body_obligation m c).loose) (hne := block_pos0) (harr := arr_whole0) (hstage := stage_whole0)
    (howed := fun _ _ => rfl)
    (u₀ := initOf (Pipeline.cells (Pipeline.pin (fun q => (cfgs q).toPCfg (Val := Elt F)) (fun q => (cfgs q).toPCfg_adm)) cellOf_inj)
      (Pipeline.launchToks (Pipeline.pin (fun q => (cfgs q).toPCfg (Val := Elt F)) (fun q => (cfgs q).toPCfg_adm)) cellOf_inj))
    (hu₀ := .rfl)
    (V := V m) (hmain := hmain m Variants.none) (hsplit := hsplit m) (hpf := fun _ k => k.elim0)
    (X := fun _ => iprop(emp)) (Y := fun _ => iprop(emp))
    (Z := fun c => unscopedRestP (Ix := Unit) (Name := ℕ) (U := UR sig nD τ) (Lvl := ℕ) Prefetch.none win2 c (fun b => V0 m c (Proc.devRef .tc b)))
    (Z' := fun c => unscopedRestP (Ix := Unit) (Name := ℕ) (U := UR sig nD τ) (Lvl := ℕ) Prefetch.none win2 c (Vend m c))
    (hX := fun c => by
      rw [rest_eq]
      iintro HU
      isplitr [HU]; · iempintro
      iexact HU)
    (hin := fun c => (show _ ⊢ Pipeline.scopedRest spec0 c from by iintro ⟨-, -, HR⟩; iexact HR).trans (hin m c))
    (hout := fun c => (hout m c).trans (by
      iintro HR
      isplitr [HR]; · iempintro
      iexact HR))
    (htail := htail m)
    (QY := fun c s => ∀ b ∈ restRefsP sig Prefetch.none win2, s.mem ((c : Thread nD τ).loc b) = Vend m c b)
    (hY := fun c s' => by
      iintro ⟨-, HU, HSI⟩
      unfold Pipeline.unscopedRestP
      imodintro
      iapply (pointsTo_read_all (restRefsP sig Prefetch.none win2) (fun b => (c : Thread nD τ).loc b) (Vend m c) s')
      isplitl [HU] <;> iassumption)
    (hQ := fun s h c => (h c).2.2)

end Cert.Kernel.Fr

end
-- ==== Proof.K.Frame.lean ====
/-
  The frame of the program, part four: the run read at the program's arguments and at its result.

  Neither argument is written by any host operation or by the region, so each ends as it began; the result is what
  the host operations after the region compute from the region's result column and the positive-pair dot products.
-/
import proofs.«104670_j24464133718914_2_alg».proof.Proof.Gen.Kernel.Launch
import proofs.«104670_j24464133718914_2_alg».proof.Proof.Gen.Kernel.Skeleton
import proofs.«104670_j24464133718914_2_alg».proof.Proof.Gen.Kernel.Points
import Idealize.ShloMosaic.Lib.Pipeline.FrameBody
import Idealize.ShloMosaic.Lib.Pipeline.FrameSuffix
import Idealize.ShloMosaic.Lib.Ring
import Idealize.ShloMosaic.Lib.Tactic
import proofs.«104670_j24464133718914_2_alg».proof.Proof.K.Launch
set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

open Idealize.ShloMosaic.Pipeline (restRefsP restRefs Prefetch withArrays)

theorem mem_rest (b : Ref sig .tc) (hs : b.isScoped = false) (ha : ∀ w, (win2 w).arr.view.ref ≠ b) :
    b ∈ restRefsP sig Prefetch.none win2 :=
  Finset.mem_sdiff.mpr ⟨Pipeline.mem_restRefs_of b hs ha, fun h => by obtain ⟨k, -, -⟩ := Finset.mem_image.mp h; exact k.elim0⟩

/-- The host operations after the region write neither argument, and neither is one of the region's arrays. -/
theorem Vend_arg0 (c : Dev nD) : Vend m c main_arg0 = m ((c : Thread nD τ).loc main_arg0) := by
  unfold Vend
  simp only [hostOps1, List.flatten_cons, List.flatten_nil, List.append_nil]
  after_results
  rw [Pipeline.withArrays_of_ne win2 c _ _ main_arg0 (by decide)]
  exact V_main_arg0 m c
theorem Vend_arg1 (c : Dev nD) : Vend m c main_arg1 = m ((c : Thread nD τ).loc main_arg1) := by
  unfold Vend
  simp only [hostOps1, List.flatten_cons, List.flatten_nil, List.append_nil]
  after_results
  rw [Pipeline.withArrays_of_ne win2 c _ _ main_arg1 (by decide)]
  exact V_main_arg1 m c

/-- The program runs to the end, nothing faulting, with its result at the host operations' value and its arguments
    unchanged. -/
theorem run_result : θ_run defs (onTc (τ := τ) (main (F := F))) ⟨m, fun _ => 0, ρ⟩ (fun r => ∀ c : Dev nD,
      r.2.mem ((c.tc : Thread nD τ).loc main_v30) = Vend m c main_v30
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c =>
    ⟨h c main_v30 (mem_rest main_v30 rfl (by decide)),
     (h c main_arg0 (mem_rest main_arg0 rfl (by decide))).trans (Vend_arg0 m c),
     (h c main_arg1 (mem_rest main_arg1 rfl (by decide))).trans (Vend_arg1 m c)⟩) (run_main m ρ)

/-- The frame: the program runs to the end, nothing faulting, and its arguments end unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c => (h c).2) (run_result m ρ)

end Cert.Kernel.Fr

end
-- ==== Proof.KI.Base.lean ====
/-
  The frame of the program, part one: what every later part is stated over.

  The program is: host operations (the row normalisation, the stacking, the positive-pair dot products), ONE kernel
  region on a 4 × 2 grid, host operations (the loss from the region's result). The region reads ONE array, the
  stacked matrix, through two windows — a block of 1024 rows (window 0) and a block of 2048 rows (window 1) — and
  writes a column of 1024 row sums per row block (window 2). Its body keeps a running sum in a scratch buffer:
  reset at the first column block (second grid coordinate 0), added to at both, copied to the output at the last
  (second grid coordinate 1).
-/
import proofs.«104670_j24464133718914_2_alg».proof.Proof.Gen.KernelIdeal.Launch
import proofs.«104670_j24464133718914_2_alg».proof.Proof.Gen.KernelIdeal.Skeleton
import proofs.«104670_j24464133718914_2_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The program around the region -/

/-- A core's buffer contents when the region is entered: after the host operations before it. -/
abbrev V0 (c : Dev nD) : Valuation τ sig (Elt F) := StableHlo.after (List.flatten [hostOps0]) (fun b => m (c, b))
/-- The same read at a reference. -/
abbrev V (c : Dev nD) (b : Ref sig .tc) : Buf (Elt F) ((c : Thread nD τ).loc b) := V0 m c (Proc.devRef .tc b)

theorem hostOps0_fresh : (hostOps0 : List (HloOp τ sig (Elt F))).Forall fun op => op.fresh = ∅ := by
  simp only [List.Forall]; repeat' constructor

theorem hostOps1_fresh : (hostOps1 : List (HloOp τ sig (Elt F))).Forall fun op => op.fresh = ∅ := by
  simp only [List.Forall]; repeat' constructor

/-- The program is: the first stretch of host operations, the region, the second stretch. -/
theorem hmain (𝒱₀ : Variants) : Pipeline.HMainK (Ix := Unit) (Name := ℕ) (U := UR sig nD τ) (Lvl := ℕ) cfgs 0 defs₀ 𝒱₀ m (main (F := F)) (V m)
      (fun _ => Pipeline.chain [StableHlo.seq hostOps1]) :=
  Pipeline.hmain_around cfgs 0 defs₀ 𝒱₀ m main [hostOps0] [hostOps1] hostOps0_sub
    hostOps0_fresh main_chain

/-- The host operations before the region write neither argument. -/
theorem V_main_arg0 (c : Dev nD) : V m c main_arg0 = m ((c : Thread nD τ).loc main_arg0) := by
  dsimp only [V, V0]
  simp only [hostOps0, List.flatten_cons, List.flatten_nil, List.append_nil]
  after_results
theorem V_main_arg1 (c : Dev nD) : V m c main_arg1 = m ((c : Thread nD τ).loc main_arg1) := by
  dsimp only [V, V0]
  simp only [hostOps0, List.flatten_cons, List.flatten_nil, List.append_nil]
  after_results

/-! ## The windows' blocks -/

/-- Window `w`'s block at grid point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- An input window's current staging buffer holds its block at every point, fetched there or not. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-! ## The body's two conditions over the grid -/

/-- "This is the first column block": the second grid coordinate is 0. -/
abbrev cond0_0 (i : grid0.Coords) : Prop := (Scalar.cmpi .ne (Scalar.extui (Scalar.cmpi .eq (BitVec.ofNat 32 (i 1).val) 0#32)) 0#32) = 1#1
theorem hcond0_0 : ∀ t : Fin cfg0.N, cond0_0 (grid0.coords t) ↔ t.val % 2 = 0 :=
  (by decide +kernel : ∀ t : Fin grid0.N, cond0_0 (grid0.coords t) ↔ t.val % 2 = 0)

/-- "This is the last column block": the second grid coordinate is 1. -/
abbrev cond0_1 (i : grid0.Coords) : Prop := k0_cond2 i = 1#1
theorem hcond0_1 : ∀ t : Fin cfg0.N, cond0_1 (grid0.coords t) ↔ t.val % 2 = 1 :=
  (by decide +kernel : ∀ t : Fin grid0.N, cond0_1 (grid0.coords t) ↔ t.val % 2 = 1)

/-! ## Where the windows are idle -/

theorem liveAt0_0 : ∀ t : Fin cfg0.N, cfg0.idle 0 (grid0.coords t) = false := by decide +kernel
theorem liveAt0_1 : ∀ t : Fin cfg0.N, cfg0.idle 1 (grid0.coords t) = false := by decide +kernel
/-- At a first column block the output window is idle (nothing is stored into it) and not written back. -/
theorem idleAt0_2_A : ∀ t : Fin cfg0.N, cond0_0 (grid0.coords t) → ¬cond0_1 (grid0.coords t) → cfg0.idle 2 (grid0.coords t) = true := by decide +kernel
theorem noFlush0_2_A : ∀ t : Fin cfg0.N, cond0_0 (grid0.coords t) → ¬cond0_1 (grid0.coords t) → (cfg0.win 2).flush t = false := by decide +kernel
/-- At a last column block it is live. -/
theorem liveAt0_2_B : ∀ t : Fin cfg0.N, ¬cond0_0 (grid0.coords t) → cond0_1 (grid0.coords t) → cfg0.idle 2 (grid0.coords t) = false := by decide +kernel

/-! ## The memrefs the body is called with -/

abbrev VO0_2 : View sig .tc .vmem S1024x1 .f32 := (Memref.whole cc0_stg2_0 : Memref sig .tc .vmem S1024x1 .f32).view
abbrev ms0_0 (t : Fin cfg0.N) : Memref sig .tc .vmem S1024x256 .bf16 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S2048x256 .bf16 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1024x1 .f32 := win0_2.stage (cfg0.slots t 2)
abbrev hs0_2 (t : Fin cfg0.N) : (ms0_2 t).IsWhole := hstage0_2 ((cfg0.slots t 2).cast nbuf0_2)
/-- The running sum's buffer. -/
abbrev scM0_0 : Memref sig .tc .vmem S1024x1 .f32 := Memref.whole cc0_scratch0
abbrev VS0_0 : View sig .tc .vmem S1024x1 .f32 := scM0_0.view

/-- The scoped buffers no window stages are the running sum's buffer, whole at some contents. -/
theorem Phi0_eq (c : Dev nD) :
    (Pipeline.scopedRest spec0 c : sProp 𝕄) = iprop(∃ d, owns (c : Thread nD τ) scM0_0 fullShare d) := by
  rw [scopedRest0_eq]; simp only [scM0_0, owns_whole]; try rfl

end Cert.KernelIdeal.Fr

end
-- ==== Proof.KI.RunFirst.lean ====
/-
  The body at a FIRST column block (second grid coordinate 0): the running sum is reset to zero, the block's row
  sums are added to it, and nothing is stored into the output window, which is handed back as it was found.
-/
import proofs.«104670_j24464133718914_2_alg».proof.Proof.Gen.KernelIdeal.Launch
import proofs.«104670_j24464133718914_2_alg».proof.Proof.Gen.KernelIdeal.Skeleton
import proofs.«104670_j24464133718914_2_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic
import proofs.«104670_j24464133718914_2_alg».proof.Proof.KI.Base
set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 1000000 in
/-- The body's triple at a first column block, on whole memrefs: the two input blocks at their contents, the output
    window's buffer at contents handed back untouched, the running sum's buffer at anything; it ends with the running
    sum's buffer written by the pieces the run finds (the list `LS0`, last store first). -/
noncomputable def kernelRun0_A (c : Dev nD) (i : grid0.Coords) (arg2 : Memref sig .tc .vmem S1024x256 .bf16) (harg2 : arg2.IsWhole) (arg3 : Memref sig .tc .vmem S2048x256 .bf16) (harg3 : arg3.IsWhole) (arg4 : Memref sig .tc .vmem S1024x1 .f32) (harg4 : arg4.IsWhole) (arg5 : Memref sig .tc .vmem S1024x1 .f32) (harg5 : arg5.IsWhole) (hc0 : cond0_0 i) (hc1 : ¬cond0_1 i)
    (x0 : Vec F S1024x256 .bf16) (x1 : Vec F S2048x256 .bf16) :
    Σ' (L2 : List (View.Piece (Elt F) S1024x1 .f32)), { LS0 : List (View.Piece (Elt F) S1024x1 .f32) //
      ∀ (xi2 : Vec F S1024x1 .f32) (E : Set ℕ) (K : PUnit → sProp 𝕄),
        iprop(owns (c : Thread nD τ) arg2 fullShare x0 ∗ owns (c : Thread nD τ) arg3 fullShare x1 ∗ owns (c : Thread nD τ) arg4 fullShare xi2 ∗ (∃ d, owns (c : Thread nD τ) arg5 fullShare d)
            ∗ (iprop(owns (c : Thread nD τ) arg2 fullShare x0 ∗ owns (c : Thread nD τ) arg3 fullShare x1 ∗ owns (c : Thread nD τ) arg4 fullShare xi2 ∗ (∃ f, arg5.view.loc (c : Thread nD τ) ↦[arg5.view.set]{fullShare} arg5.view.writes (Elt F) f LS0)) -∗ K ⟨⟩))
          ⊢ wp frame (wpE (defs₀ (F := F)) Variants.none c none) E (cc0__denom_kernel i arg2 harg2 arg3 harg3 arg4 harg4 arg5 harg5) K } := by
  refine ⟨[], ?_, fun xi2 E K => ?run⟩
  case run =>
    simp only [cc0__denom_kernel_eq_skeleton]; unfold cc0__denom_kernel_skel
    unfold owns
    iintro ⟨⟨%f0, %hf0, H0⟩, ⟨%f1, %hf1, H1⟩, ⟨%f2, %hf2, H2⟩, ⟨%ds0, %fs0, -, HS0⟩, Hk⟩
    obtain rfl := harg2.eq_unread hf0; obtain rfl := harg3.eq_unread hf1; obtain rfl := harg4.eq_unread hf2
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    iexists _; iexact HS0

end Cert.KernelIdeal.Fr

end
-- ==== Proof.KI.RunLast.lean ====
/-
  The body at a LAST column block (second grid coordinate 1): the block's row sums are added to the running sum,
  and the running sum is copied into the output window.
-/
import proofs.«104670_j24464133718914_2_alg».proof.Proof.Gen.KernelIdeal.Launch
import proofs.«104670_j24464133718914_2_alg».proof.Proof.Gen.KernelIdeal.Skeleton
import proofs.«104670_j24464133718914_2_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic
import proofs.«104670_j24464133718914_2_alg».proof.Proof.KI.Base
set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 1000000 in
/-- The body's triple at a last column block, on whole memrefs: the two input blocks at their contents, the output
    window's buffer at anything, the running sum's buffer at what the point before left (`xs0`); it ends with the
    output window's buffer and the running sum's buffer written by the pieces the run finds (`L2`, `LS0`). -/
noncomputable def kernelRun0_B (c : Dev nD) (i : grid0.Coords) (arg2 : Memref sig .tc .vmem S1024x256 .bf16) (harg2 : arg2.IsWhole) (arg3 : Memref sig .tc .vmem S2048x256 .bf16) (harg3 : arg3.IsWhole) (arg4 : Memref sig .tc .vmem S1024x1 .f32) (harg4 : arg4.IsWhole) (arg5 : Memref sig .tc .vmem S1024x1 .f32) (harg5 : arg5.IsWhole) (hc0 : ¬cond0_0 i) (hc1 : cond0_1 i)
    (x0 : Vec F S1024x256 .bf16) (x1 : Vec F S2048x256 .bf16) (xs0 : Vec F S1024x1 .f32) :
    Σ' (L2 : List (View.Piece (Elt F) S1024x1 .f32)), { LS0 : List (View.Piece (Elt F) S1024x1 .f32) //
      ∀ (E : Set ℕ) (K : PUnit → sProp 𝕄),
        iprop(owns (c : Thread nD τ) arg2 fullShare x0 ∗ owns (c : Thread nD τ) arg3 fullShare x1 ∗ (∃ d, owns (c : Thread nD τ) arg4 fullShare d) ∗ owns (c : Thread nD τ) arg5 fullShare xs0
            ∗ (iprop(owns (c : Thread nD τ) arg2 fullShare x0 ∗ owns (c : Thread nD τ) arg3 fullShare x1 ∗ (∃ f, arg4.view.loc (c : Thread nD τ) ↦[arg4.view.set]{fullShare} arg4.view.writes (Elt F) f L2) ∗ (∃ f, arg5.view.loc (c : Thread nD τ) ↦[arg5.view.set]{fullShare} arg5.view.writes (Elt F) f LS0)) -∗ K ⟨⟩))
          ⊢ wp frame (wpE (defs₀ (F := F)) Variants.none c none) E (cc0__denom_kernel i arg2 harg2 arg3 harg3 arg4 harg4 arg5 harg5) K } := by
  refine ⟨?_, ?_, fun E K => ?run⟩
  case run =>
    simp only [cc0__denom_kernel_eq_skeleton]; unfold cc0__denom_kernel_skel
    unfold owns
    iintro ⟨⟨%f0, %hf0, H0⟩, ⟨%f1, %hf1, H1⟩, ⟨%d2, %f2, -, H2⟩, ⟨%fs0, %hfs0, HS0⟩, Hk⟩
    obtain rfl := harg2.eq_unread hf0; obtain rfl := harg3.eq_unread hf1; obtain rfl := harg5.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]; · iexists _; iexact H2
    iexists _; iexact HS0

end Cert.KernelIdeal.Fr

end
-- ==== Proof.KI.Data.lean ====
/-
  The frame of the program, part two: what the running sum and the output window hold after each grid point, the
  region's proof data, and the body's obligation at every point.

  Grid point `t` (0 … 7) is row block `t / 2`, column block `t % 2`. After an even point the running sum holds the
  first column block's row sums; after an odd point it holds both blocks' row sums, and so does the output window's
  buffer, which is then written back as rows `1024·(t/2) … 1024·(t/2)+1023` of the result.
-/
import proofs.«104670_j24464133718914_2_alg».proof.Proof.Gen.KernelIdeal.Launch
import proofs.«104670_j24464133718914_2_alg».proof.Proof.Gen.KernelIdeal.Skeleton
import proofs.«104670_j24464133718914_2_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic
import proofs.«104670_j24464133718914_2_alg».proof.Proof.KI.RunFirst
import proofs.«104670_j24464133718914_2_alg».proof.Proof.KI.RunLast
set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What each case leaves -/

/-- A first column block stores nothing into the output window: a placeholder nothing consults. -/
def out0_A_2 (c : Dev nD) (i : grid0.Coords) (arg2 : Memref sig .tc .vmem S1024x256 .bf16) (harg2 : arg2.IsWhole) (arg3 : Memref sig .tc .vmem S2048x256 .bf16) (harg3 : arg3.IsWhole) (arg4 : Memref sig .tc .vmem S1024x1 .f32) (harg4 : arg4.IsWhole) (arg5 : Memref sig .tc .vmem S1024x1 .f32) (harg5 : arg5.IsWhole) (hc0 : cond0_0 i) (hc1 : ¬cond0_1 i)
    (x0 : Vec F S1024x256 .bf16) (x1 : Vec F S2048x256 .bf16) : Vec F S1024x1 .f32 :=
  VO0_2.read (Elt F) (VO0_2.writes (Elt F) VO0_2.junk (kernelRun0_A c i arg2 harg2 arg3 harg3 arg4 harg4 arg5 harg5 hc0 hc1 x0 x1).1)

/-- The stores of a first column block cover the running sum's buffer. -/
theorem scover0_A_0 (c : Dev nD) (i : grid0.Coords) (arg2 : Memref sig .tc .vmem S1024x256 .bf16) (harg2 : arg2.IsWhole) (arg3 : Memref sig .tc .vmem S2048x256 .bf16) (harg3 : arg3.IsWhole) (arg4 : Memref sig .tc .vmem S1024x1 .f32) (harg4 : arg4.IsWhole) (arg5 : Memref sig .tc .vmem S1024x1 .f32) (harg5 : arg5.IsWhole) (hc0 : cond0_0 i) (hc1 : ¬cond0_1 i)
    (x0 : Vec F S1024x256 .bf16) (x1 : Vec F S2048x256 .bf16) (y : S1024x1.Idx) :
    ∃ pc ∈ (kernelRun0_A c i arg2 harg2 arg3 harg3 arg4 harg4 arg5 harg5 hc0 hc1 x0 x1).2.1, y ∈ pc.1.set :=
  View.cover_of_tiledL (kernelRun0_A c i arg2 harg2 arg3 harg3 arg4 harg4 arg5 harg5 hc0 hc1 x0 x1).2.1 S1024x1.size (by sl_kernel_rfl) y

/-- What a first column block leaves in the running sum's buffer. -/
def sout0_A_0 (c : Dev nD) (i : grid0.Coords) (arg2 : Memref sig .tc .vmem S1024x256 .bf16) (harg2 : arg2.IsWhole) (arg3 : Memref sig .tc .vmem S2048x256 .bf16) (harg3 : arg3.IsWhole) (arg4 : Memref sig .tc .vmem S1024x1 .f32) (harg4 : arg4.IsWhole) (arg5 : Memref sig .tc .vmem S1024x1 .f32) (harg5 : arg5.IsWhole) (hc0 : cond0_0 i) (hc1 : ¬cond0_1 i)
    (x0 : Vec F S1024x256 .bf16) (x1 : Vec F S2048x256 .bf16) : Vec F S1024x1 .f32 :=
  VS0_0.read (Elt F) (VS0_0.writes (Elt F) VS0_0.junk (kernelRun0_A c i arg2 harg2 arg3 harg3 arg4 harg4 arg5 harg5 hc0 hc1 x0 x1).2.1)

/-- The store of a last column block covers the output window's buffer. -/
theorem cover0_B_2 (c : Dev nD) (i : grid0.Coords) (arg2 : Memref sig .tc .vmem S1024x256 .bf16) (harg2 : arg2.IsWhole) (arg3 : Memref sig .tc .vmem S2048x256 .bf16) (harg3 : arg3.IsWhole) (arg4 : Memref sig .tc .vmem S1024x1 .f32) (harg4 : arg4.IsWhole) (arg5 : Memref sig .tc .vmem S1024x1 .f32) (harg5 : arg5.IsWhole) (hc0 : ¬cond0_0 i) (hc1 : cond0_1 i)
    (x0 : Vec F S1024x256 .bf16) (x1 : Vec F S2048x256 .bf16) (xs0 : Vec F S1024x1 .f32) (y : S1024x1.Idx) :
    ∃ pc ∈ (kernelRun0_B c i arg2 harg2 arg3 harg3 arg4 harg4 arg5 harg5 hc0 hc1 x0 x1 xs0).1, y ∈ pc.1.set :=
  View.cover_of_tiledL (kernelRun0_B c i arg2 harg2 arg3 harg3 arg4 harg4 arg5 harg5 hc0 hc1 x0 x1 xs0).1 S1024x1.size (by sl_kernel_rfl) y

/-- What a last column block leaves in the output window's buffer. -/
def out0_B_2 (c : Dev nD) (i : grid0.Coords) (arg2 : Memref sig .tc .vmem S1024x256 .bf16) (harg2 : arg2.IsWhole) (arg3 : Memref sig .tc .vmem S2048x256 .bf16) (harg3 : arg3.IsWhole) (arg4 : Memref sig .tc .vmem S1024x1 .f32) (harg4 : arg4.IsWhole) (arg5 : Memref sig .tc .vmem S1024x1 .f32) (harg5 : arg5.IsWhole) (hc0 : ¬cond0_0 i) (hc1 : cond0_1 i)
    (x0 : Vec F S1024x256 .bf16) (x1 : Vec F S2048x256 .bf16) (xs0 : Vec F S1024x1 .f32) : Vec F S1024x1 .f32 :=
  VO0_2.read (Elt F) (VO0_2.writes (Elt F) VO0_2.junk (kernelRun0_B c i arg2 harg2 arg3 harg3 arg4 harg4 arg5 harg5 hc0 hc1 x0 x1 xs0).1)

/-- The store of a last column block covers the running sum's buffer. -/
theorem scover0_B_0 (c : Dev nD) (i : grid0.Coords) (arg2 : Memref sig .tc .vmem S1024x256 .bf16) (harg2 : arg2.IsWhole) (arg3 : Memref sig .tc .vmem S2048x256 .bf16) (harg3 : arg3.IsWhole) (arg4 : Memref sig .tc .vmem S1024x1 .f32) (harg4 : arg4.IsWhole) (arg5 : Memref sig .tc .vmem S1024x1 .f32) (harg5 : arg5.IsWhole) (hc0 : ¬cond0_0 i) (hc1 : cond0_1 i)
    (x0 : Vec F S1024x256 .bf16) (x1 : Vec F S2048x256 .bf16) (xs0 : Vec F S1024x1 .f32) (y : S1024x1.Idx) :
    ∃ pc ∈ (kernelRun0_B c i arg2 harg2 arg3 harg3 arg4 harg4 arg5 harg5 hc0 hc1 x0 x1 xs0).2.1, y ∈ pc.1.set :=
  View.cover_of_tiledL (kernelRun0_B c i arg2 harg2 arg3 harg3 arg4 harg4 arg5 harg5 hc0 hc1 x0 x1 xs0).2.1 S1024x1.size (by sl_kernel_rfl) y

/-- What a last column block leaves in the running sum's buffer. -/
def sout0_B_0 (c : Dev nD) (i : grid0.Coords) (arg2 : Memref sig .tc .vmem S1024x256 .bf16) (harg2 : arg2.IsWhole) (arg3 : Memref sig .tc .vmem S2048x256 .bf16) (harg3 : arg3.IsWhole) (arg4 : Memref sig .tc .vmem S1024x1 .f32) (harg4 : arg4.IsWhole) (arg5 : Memref sig .tc .vmem S1024x1 .f32) (harg5 : arg5.IsWhole) (hc0 : ¬cond0_0 i) (hc1 : cond0_1 i)
    (x0 : Vec F S1024x256 .bf16) (x1 : Vec F S2048x256 .bf16) (xs0 : Vec F S1024x1 .f32) : Vec F S1024x1 .f32 :=
  VS0_0.read (Elt F) (VS0_0.writes (Elt F) VS0_0.junk (kernelRun0_B c i arg2 harg2 arg3 harg3 arg4 harg4 arg5 harg5 hc0 hc1 x0 x1 xs0).2.1)

/-! ## Point by point -/

theorem hc1_of_even (t : Fin cfg0.N) (h0 : t.val % 2 = 0) : ¬cond0_1 (grid0.coords t) := fun h => by
  have := (hcond0_1 t).mp h; omega
theorem hc0_of_odd (t : Fin cfg0.N) (h1 : t.val % 2 = 1) : ¬cond0_0 (grid0.coords t) := fun h => by
  have := (hcond0_0 t).mp h; omega

/-- After an even point: (the output window's placeholder, the running sum). -/
def outA (c : Dev nD) (t : Fin cfg0.N) (h0 : t.val % 2 = 0) : Vec F S1024x1 .f32 × Vec F S1024x1 .f32 :=
  (out0_A_2 c (grid0.coords t) (ms0_0 t) (hs0_0 t) (ms0_1 t) (hs0_1 t) (ms0_2 t) (hs0_2 t) scM0_0 (Memref.isWhole_whole _) ((hcond0_0 t).mpr h0) (hc1_of_even t h0) (iblk m c 0 t) (iblk m c 1 t),
   sout0_A_0 c (grid0.coords t) (ms0_0 t) (hs0_0 t) (ms0_1 t) (hs0_1 t) (ms0_2 t) (hs0_2 t) scM0_0 (Memref.isWhole_whole _) ((hcond0_0 t).mpr h0) (hc1_of_even t h0) (iblk m c 0 t) (iblk m c 1 t))

/-- After an odd point, from the running sum `xs` the point before left: (the output window, the running sum). -/
def outB (c : Dev nD) (t : Fin cfg0.N) (h1 : t.val % 2 = 1) (xs : Vec F S1024x1 .f32) : Vec F S1024x1 .f32 × Vec F S1024x1 .f32 :=
  (out0_B_2 c (grid0.coords t) (ms0_0 t) (hs0_0 t) (ms0_1 t) (hs0_1 t) (ms0_2 t) (hs0_2 t) scM0_0 (Memref.isWhole_whole _) (hc0_of_odd t h1) ((hcond0_1 t).mpr h1) (iblk m c 0 t) (iblk m c 1 t) xs,
   sout0_B_0 c (grid0.coords t) (ms0_0 t) (hs0_0 t) (ms0_1 t) (hs0_1 t) (ms0_2 t) (hs0_2 t) scM0_0 (Memref.isWhole_whole _) (hc0_of_odd t h1) ((hcond0_1 t).mpr h1) (iblk m c 0 t) (iblk m c 1 t) xs)

/-- What the output window's buffer and the running sum's buffer hold after the body at position `n`. -/
def outsAt0 (c : Dev nD) : (n : ℕ) → n < cfg0.N → Vec F S1024x1 .f32 × Vec F S1024x1 .f32
  | 0, hn => outA m c ⟨0, hn⟩ rfl
  | n + 1, hn =>
    if h0 : (n + 1) % 2 = 0 then outA m c ⟨n + 1, hn⟩ h0
    else outB m c ⟨n + 1, hn⟩ (by show (n + 1) % 2 = 1; omega) (outsAt0 c n (Nat.lt_of_succ_lt hn)).2

theorem outsAt0_A (c : Dev nD) (t : Fin cfg0.N) (h0 : t.val % 2 = 0) : outsAt0 m c t.val t.isLt = outA m c t h0 := by
  obtain ⟨n, hn⟩ := t
  cases n with
  | zero => exact rfl
  | succ n => exact (dif_pos h0).trans rfl

theorem outsAt0_B (c : Dev nD) (t : Fin cfg0.N) (h1 : t.val % 2 = 1) :
    outsAt0 m c t.val t.isLt = outB m c t h1 (outsAt0 m c (t.val - 1) (Nat.lt_of_le_of_lt (Nat.sub_le _ _) t.isLt)).2 := by
  obtain ⟨n, hn⟩ := t
  cases n with
  | zero => exact absurd (show 0 % 2 = 1 from h1) (by decide)
  | succ n => exact (dif_neg (by have h1' : (n + 1) % 2 = 1 := h1; omega)).trans rfl

/-- The region's invariant before position `n`: before the first point the running sum's buffer at anything; afterwards
    at what the point before left in it. -/
def PhiS (c : Dev nD) : (n : ℕ) → n ≤ cfg0.N → sProp 𝕄
  | 0, _ => Pipeline.scopedRest spec0 c
  | n + 1, hn => owns (c : Thread nD τ) scM0_0 fullShare ((outsAt0 m c n hn).2)

theorem PhiS_zero (c : Dev nD) (n : ℕ) (h : n ≤ cfg0.N) (hz : n = 0) : PhiS m c n h = Pipeline.scopedRest spec0 c := by
  subst hz; rfl

theorem PhiS_succ (c : Dev nD) (n : ℕ) (hn : n < cfg0.N) :
    PhiS m c (n + 1) hn = owns (c : Thread nD τ) scM0_0 fullShare ((outsAt0 m c n hn).2) := rfl

theorem PhiS_pos (c : Dev nD) (n : ℕ) (h : n ≤ cfg0.N) (hz : n ≠ 0) :
    PhiS m c n h = owns (c : Thread nD τ) scM0_0 fullShare ((outsAt0 m c (n - 1) (by omega)).2) := by
  cases n with
  | zero => exact absurd rfl hz
  | succ n => rfl

/-! ## The region's proof data -/

/-- The arrays as the region finds them; after the body at a point each input's buffer at its block and the output's at
    `outsAt0`; the invariant `PhiS`; nothing owed. The stacked matrix is read through two windows: each holds half of
    its share. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => (outsAt0 m c t.val t.isLt).1
  Φ t := PhiS m c t.val (Nat.le_of_lt_succ t.isLt)
  q w := match w with
    | ⟨0, _⟩ => fullShare.left
    | ⟨1, _⟩ => fullShare.right
    | ⟨2, _⟩ => fullShare
  owed _ := 0

theorem A_eq (c : Dev nD) (w : Fin cfg0.W) : (dats m 0 c).A w = V m c (Pipeline.arrRef spec0 w) := by
  dsimp only [dats]

theorem PhiS_castSucc (c : Dev nD) (t : Fin cfg0.N) :
    (dats m 0 c).Φ t.castSucc = PhiS m c t.val (Nat.le_of_lt t.isLt) := by
  dsimp only [dats]; simp only [Fin.coe_castSucc]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = (outsAt0 m c t.val t.isLt).1 := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d

/-! ## The body obligation -/

def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d)))

def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t)

set_option maxHeartbeats 4800000 in
/-- The body at any point: the inputs' buffers hold their blocks; the point's parity says which case it is; the
    invariant hands the body the running sum at what the point before left (at anything at the very first point) and
    takes it back at this point's contents. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1]
  rw [show (dats m 0 c).owesAt () t.succ = (dats m 0 c).owesAt () t.castSucc from rfl]
  rw [show (dats m 0 c).Φ t.succ = PhiS m c (t.val + 1) t.isLt from rfl, PhiS_succ]
  have hN : t.val < 8 := lt_of_lt_of_eq t.isLt (show cfg0.N = 8 from N_0)
  rw [show (dats m 0 c).leavesExact 0 t = owns (c : Thread nD τ) (ms0_0 t) fullShare ((dats m 0 c).after 0 t) from by
    unfold Dat.leavesExact; rw [liveAt0_0 t], after0_0]
  rw [show (dats m 0 c).leavesExact 1 t = owns (c : Thread nD τ) (ms0_1 t) fullShare ((dats m 0 c).after 1 t) from by
    unfold Dat.leavesExact; rw [liveAt0_1 t], after0_1]
  by_cases h0 : t.val % 2 = 0
  · rw [Dat.leavesExact_idle (dats m 0 c) 2 t (idleAt0_2_A t ((hcond0_0 t).mpr h0) (hc1_of_even t h0)) (noFlush0_2_A t ((hcond0_0 t).mpr h0) (hc1_of_even t h0))]
    rw [outsAt0_A m c t h0]
    unfold outA sout0_A_0; (try dsimp only)
    by_cases hz : t.val = 0
    · rw [PhiS_castSucc m c t, PhiS_zero m c _ _ hz, Phi0_eq]
      iintro ⟨HS0, Ho, ⟨%d0, H0⟩, ⟨%d1, H1⟩, ⟨%d2, H2⟩⟩
      iapply ((kernelRun0_A c (grid0.coords t) _ _ _ _ _ _ _ _ ((hcond0_0 t).mpr h0) (hc1_of_even t h0) (iblk m c 0 t) (iblk m c 1 t)).2.2 _ Set.univ _)
      isplitl [H0]; · iexact H0
      isplitl [H1]; · iexact H1
      isplitl [H2]; · iexact H2
      isplitl [HS0]; · iexact HS0
      iintro ⟨H0, H1, H2, ⟨%es0, HS0⟩⟩
      isplitl [HS0]
      · unfold owns; iexists _; isplitr
        swap; · iexact HS0
        ipureintro; exact View.read_writes_of_cover _ _ _ _ _ (scover0_A_0 c _ _ _ _ _ _ _ _ _ _ _ _ _)
      isplitl [Ho]; · iexact Ho
      isplitl [H0]; · iexact H0
      isplitl [H1]; · iexact H1
      iexists _; iexact H2
    · rw [PhiS_castSucc m c t, PhiS_pos m c _ _ hz]
      iintro ⟨HS0, Ho, ⟨%d0, H0⟩, ⟨%d1, H1⟩, ⟨%d2, H2⟩⟩
      iapply ((kernelRun0_A c (grid0.coords t) _ _ _ _ _ _ _ _ ((hcond0_0 t).mpr h0) (hc1_of_even t h0) (iblk m c 0 t) (iblk m c 1 t)).2.2 _ Set.univ _)
      isplitl [H0]; · iexact H0
      isplitl [H1]; · iexact H1
      isplitl [H2]; · iexact H2
      isplitl [HS0]; · iexists _; iexact HS0
      iintro ⟨H0, H1, H2, ⟨%es0, HS0⟩⟩
      isplitl [HS0]
      · unfold owns; iexists _; isplitr
        swap; · iexact HS0
        ipureintro; exact View.read_writes_of_cover _ _ _ _ _ (scover0_A_0 c _ _ _ _ _ _ _ _ _ _ _ _ _)
      isplitl [Ho]; · iexact Ho
      isplitl [H0]; · iexact H0
      isplitl [H1]; · iexact H1
      iexists _; iexact H2
  · have h1 : t.val % 2 = 1 := by omega
    rw [show (dats m 0 c).leavesExact 2 t = owns (c : Thread nD τ) (ms0_2 t) fullShare ((dats m 0 c).after 2 t) from by
      unfold Dat.leavesExact; rw [liveAt0_2_B t (hc0_of_odd t h1) ((hcond0_1 t).mpr h1)], after0_2]
    rw [outsAt0_B m c t h1]
    unfold outB out0_B_2 sout0_B_0; (try dsimp only)
    have hz : t.val ≠ 0 := by omega
    rw [PhiS_castSucc m c t, PhiS_pos m c _ _ hz]
    iintro ⟨HS0, Ho, ⟨%d0, H0⟩, ⟨%d1, H1⟩, ⟨%d2, H2⟩⟩
    iapply ((kernelRun0_B c (grid0.coords t) _ _ _ _ _ _ _ _ (hc0_of_odd t h1) ((hcond0_1 t).mpr h1) (iblk m c 0 t) (iblk m c 1 t) _).2.2 Set.univ _)
    isplitl [H0]; · iexact H0
    isplitl [H1]; · iexact H1
    isplitl [H2]; · iexists _; iexact H2
    isplitl [HS0]; · iexact HS0
    iintro ⟨H0, H1, ⟨%e2, H2⟩, ⟨%es0, HS0⟩⟩
    isplitl [HS0]
    · unfold owns; iexists _; isplitr
      swap; · iexact HS0
      ipureintro; exact View.read_writes_of_cover _ _ _ _ _ (scover0_B_0 c _ _ _ _ _ _ _ _ _ _ _ _ _ _)
    isplitl [Ho]; · iexact Ho
    isplitl [H0]; · iexact H0
    isplitl [H1]; · iexact H1
    unfold owns; iexists _; isplitr
    swap; · iexact H2
    ipureintro; exact View.read_writes_of_cover _ _ _ _ _ (cover0_B_2 c _ _ _ _ _ _ _ _ _ _ _ _ _ _)

/-- The body obligation, at every point. -/
theorem body_obligation (c : Dev nD) : BodyObligation (dats (F := F) m 0 c) (defs₀ (F := F)) Variants.none () Set.univ := fun t => by
  rw [bigSep_W0, bigSep_W0]
  exact sound_body m c t

/-- Before the first point the invariant is the scoped buffers no window stages: the running sum's buffer. -/
theorem hin (c : Dev nD) : Pipeline.scopedRest spec0 c ⊢ (dats m 0 c).Φ 0 := by
  rw [show (dats m 0 c).Φ 0 = PhiS m c 0 (Nat.zero_le _) from rfl, PhiS_zero m c 0 _ rfl]
  try exact Idealize.SL.BI.Entails.refl _

/-- After any point but the first the invariant gives it back, its contents forgotten. -/
theorem Phi_out (c : Dev nD) (t : Fin (cfg0.N + 1)) (ht : t.val ≠ 0) : (dats m 0 c).Φ t ⊢ Pipeline.scopedRest spec0 c := by
  rw [show (dats m 0 c).Φ t = PhiS m c t.val (Nat.le_of_lt_succ t.isLt) from rfl, PhiS_pos m c _ _ ht, Phi0_eq]
  iintro HS0
  iexists _; iexact HS0

theorem hout (c : Dev nD) : (dats m 0 c).Φ (Fin.last cfg0.N) ⊢ Pipeline.scopedRest spec0 c :=
  Phi_out m c _ (by rw [Fin.val_last]; have : cfg0.N = 8 := N_0; omega)

end Cert.KernelIdeal.Fr

end
-- ==== Proof.KI.Launch.lean ====
/-
  The frame of the program, part three: the launch of the region and the program's run.

  The region's three windows stand on TWO arrays: the stacked matrix (read through two windows, each holding half of
  its share while the region runs) and the result column. Entering the region splits the stacked matrix's share in
  two; leaving it joins the halves again, so that the host operations after the region find both arrays whole.
-/
import proofs.«104670_j24464133718914_2_alg».proof.Proof.Gen.KernelIdeal.Launch
import proofs.«104670_j24464133718914_2_alg».proof.Proof.Gen.KernelIdeal.Skeleton
import proofs.«104670_j24464133718914_2_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic
import proofs.«104670_j24464133718914_2_alg».proof.Proof.KI.Data
set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

open Idealize.ShloMosaic.Pipeline (WinSpec arrRef arrBufs arrPts unscopedRestP unscopedRest restRefsP restRefs withArrays tailRefs Prefetch)

/-! ## The two arrays behind the three windows -/

/-- The windows' arrays without repetition: the stacked matrix (window 0's) and the result column (window 2's). -/
abbrev win2 : Fin 2 → WinSpec sig grid0.rank := fun | 0 => spec0 0 | 1 => spec0 2 | ⟨_ + 2, h⟩ => absurd h (Nat.not_lt.2 (Nat.le_add_left _ _))

theorem win2_inj : Function.Injective (arrRef win2) := by decide
theorem img_eq : Finset.univ.image (arrRef spec0) = Finset.univ.image (arrRef win2) := by decide

theorem rest_eq (c : Dev nD) (W : (b : Ref sig .tc) → Buf (Elt F) ((c : Thread nD τ).loc b)) :
    (unscopedRestP Prefetch.none spec0 c W : sProp 𝕄) = unscopedRestP Prefetch.none win2 c W := by
  unfold Pipeline.unscopedRestP; rw [img_eq]

/-- The buffers behind the windows' arrays, one by one. -/
theorem arrBufs_eq (c : Dev nD) (W : (b : Ref sig .tc) → Buf (Elt F) ((c : Thread nD τ).loc b)) :
    (arrBufs spec0 c W : sProp 𝕄)
      = iprop((((c : Thread nD τ).loc main_v17) ↦{fullShare} W main_v17) ∗ (((c : Thread nD τ).loc main_v20) ↦{fullShare} W main_v20)) := by
  unfold Pipeline.arrBufs
  rw [img_eq, show Finset.univ.image (arrRef win2) = Finset.univ.map ⟨arrRef win2, win2_inj⟩ from (Finset.map_eq_image ⟨arrRef win2, win2_inj⟩ Finset.univ).symm,
    bigSep_map, bigSep_univ_two]
  rfl

/-- The two arrays held whole, one by one. -/
theorem arrPts_eq (c : Dev nD) (A2 : (w : Fin 2) → Buf (Elt F) ((win2 w).arr.view.loc (c : Thread nD τ))) :
    (arrPts win2 c A2 : sProp 𝕄)
      = iprop((((c : Thread nD τ).loc main_v17) ↦{fullShare} A2 0) ∗ (((c : Thread nD τ).loc main_v20) ↦{fullShare} A2 1)) := by
  unfold Pipeline.arrPts
  rw [bigSep_univ_two]

/-- The region's arrays, window by window: the stacked matrix at its two half shares, the result column whole. -/
theorem arrays_eq3 (c : Dev nD) (Fn : (w : Fin cfg0.W) → Buf (Elt F) ((cfg0.win w).arr.view.loc (c : Thread nD τ))) :
    ((dats m 0 c).arrays Fn : sProp 𝕄)
      = iprop((((c : Thread nD τ).loc main_v17) ↦{fullShare.left} Fn 0) ∗ (((c : Thread nD τ).loc main_v17) ↦{fullShare.right} Fn 1)
          ∗ (((c : Thread nD τ).loc main_v20) ↦{fullShare} Fn 2)) := by
  unfold Dat.arrays
  rw [bigSep_W0, (arr_whole0 0).set_eq_univ, (arr_whole0 2).set_eq_univ]
  rfl

/-- Entering the region: the stacked matrix's share is split between its two windows. -/
theorem hsplit (c : Dev nD) : (arrBufs spec0 c (V m c) : sProp 𝕄) ⊢ (dats m 0 c).arrays ((dats m 0 c).arrAt · 0) := by
  rw [arrBufs_eq, arrays_eq3]
  iintro ⟨H17, H20⟩
  ihave H17 := (pointsTo_share (PosShare.mem_left_op_right fullShare)).1 $$ H17
  icases H17 with ⟨HL, HR⟩
  isplitl [HL]; · iexact HL
  isplitl [HR]; · iexact HR
  iexact H20

/-! ## After the region -/

/-- The two arrays when the region is left: the stacked matrix as it was, the result column as the write-backs left it. -/
def A2 (c : Dev nD) : (w : Fin 2) → Buf (Elt F) ((win2 w).arr.view.loc (c : Thread nD τ)) := fun w => match w with
  | ⟨0, _⟩ => V m c main_v17
  | ⟨1, _⟩ => (dats m 0 c).arrAt 2 cfg0.N

theorem A2_zero (c : Dev nD) : A2 m c 0 = V m c main_v17 := rfl
theorem A2_one (c : Dev nD) : A2 m c 1 = (dats m 0 c).arrAt 2 cfg0.N := rfl

/-- A core's buffer contents when the program ends: the host operations after the region, run from the region's exit. -/
def Vend (c : Dev nD) (b : Ref sig .tc) : Buf (Elt F) ((c : Thread nD τ).loc b) :=
  StableHlo.after (List.flatten [hostOps1]) (withArrays win2 c (V0 m c) (A2 m c)) (Proc.devRef .tc b)

/-- An input window's array is never written. -/
theorem arrAt_in0 (c : Dev nD) : (dats m 0 c).arrAt 0 cfg0.N = V m c main_v17 := ((dats m 0 c).arrAt_in 0 rfl _).trans (A_eq m c 0)
theorem arrAt_in1 (c : Dev nD) : (dats m 0 c).arrAt 1 cfg0.N = V m c main_v17 := ((dats m 0 c).arrAt_in 1 rfl _).trans (A_eq m c 1)

theorem sfx_sub : ∀ ops ∈ ([hostOps1] : List (List (HloOp τ sig (Elt F)))), ∀ op ∈ ops,
    op.bufs ⊆ tailRefs sig Prefetch.none win2 := by
  rw [Pipeline.tailRefs_none win2 (by decide)]
  intro ops hops op hop
  simp only [List.mem_cons, List.mem_nil_iff, or_false] at hops
  rcases hops with rfl
  · exact Pipeline.sub_ucRefs op ((List.forall_iff_forall_mem.mp hostOps1_sub) op hop)

theorem sfx_fresh : ∀ ops ∈ ([hostOps1] : List (List (HloOp τ sig (Elt F)))), ∀ op ∈ ops, op.fresh = ∅ := by
  intro ops hops op hop
  simp only [List.mem_cons, List.mem_nil_iff, or_false] at hops
  rcases hops with rfl
  · exact (List.forall_iff_forall_mem.mp hostOps1_fresh) op hop

/-- The host operations after the region write neither of the two arrays. -/
theorem sfx_keeps : ∀ ops ∈ ([hostOps1] : List (List (HloOp τ sig (Elt F)))), ∀ op ∈ ops,
    ∀ w, Proc.devRef .tc (arrRef win2 w) ∉ op.writes := by
  intro ops hops op hop
  simp only [List.mem_cons, List.mem_nil_iff, or_false] at hops
  rcases hops with rfl
  · simp only [hostOps1, List.mem_cons, List.mem_nil_iff, or_false] at hop
    rcases hop with rfl | rfl | rfl | rfl | rfl | rfl | rfl | rfl | rfl | rfl | rfl | rfl | rfl
    all_goals intro w; fin_cases w <;> simp only [StableHlo.nullary_writes, StableHlo.unary_writes, StableHlo.binary_writes, StableHlo.ternary_writes, StableHlo.quaternary_writes, StableHlo.reshape_writes, StableHlo.binaryIndexed_writes, Finset.mem_singleton] <;> exact StableHlo.devRef_ne_of_ne (by decide)

/-- Leaving the region: the stacked matrix's two half shares are joined, the host operations run on whole arrays,
    and what they hand back is split again for the region's exit. -/
theorem htail (c : Dev nD) (Q' : PUnit → sProp 𝕄) :
    iprop((iprop((dats m 0 c).arrays ((dats m 0 c).arrAt · cfg0.N) ∗ unscopedRestP Prefetch.none win2 c (Vend m c)) -∗ Q' ⟨⟩)
        ∗ boundary (c : Thread nD τ) ∗ (dats m 0 c).arrays ((dats m 0 c).arrAt · cfg0.N)
        ∗ unscopedRestP Prefetch.none win2 c (fun b => V0 m c (Proc.devRef .tc b)))
      ⊢ wp frame (wpE (Pipeline.defs (fun q => (cfgs q).toPCfg (Val := Elt F)) defs₀) (Variants.lift Variants.none) (c : Thread nD τ) none) Set.univ
          (Pipeline.chain [StableHlo.seq hostOps1]) Q' := by
  have h := Pipeline.tail_seqs (Ix := Unit) (Name := ℕ) (U := UR sig nD τ) (Lvl := ℕ) (fun q => (cfgs q).toPCfg (Val := Elt F)) defs₀ Variants.none Prefetch.none win2 win2_inj c (V0 m c) (A2 m c) [hostOps1]
    sfx_sub sfx_fresh sfx_keeps Q'
  rw [arrPts_eq, A2_zero, A2_one] at h
  rw [arrays_eq3, arrAt_in0, arrAt_in1]
  refine BIBase.Entails.trans ?_ h
  iintro ⟨Hk, Hb, ⟨HL, HR, H20⟩, HZ⟩
  ihave H17 := (pointsTo_share (PosShare.mem_left_op_right fullShare)).2 $$ [HL HR]
  · isplitl [HL] <;> iassumption
  isplitl [Hk]
  · iintro ⟨⟨H17, H20⟩, HZ'⟩
    iapply Hk
    ihave H17 := (pointsTo_share (PosShare.mem_left_op_right fullShare)).1 $$ H17
    icases H17 with ⟨HL, HR⟩
    isplitr [HZ']
    · isplitl [HL]; · iexact HL
      isplitl [HR]; · iexact HR
      iexact H20
    · iexact HZ'
  isplitl [Hb]; · iexact Hb
  isplitl [H17 H20]
  · isplitl [H17]; · iexact H17
    iexact H20
  iexact HZ

/-! ## The run -/

set_option backward.isDefEq.respectTransparency.types false in
/-- Every weakly fair execution of the program terminates, nothing faulting, and every buffer that is neither scoped nor
    one of the region's two arrays ends at what the host operations after the region leave in it. -/
theorem run_main : θ_run defs (onTc (τ := τ) (main (F := F))) ⟨m, fun _ => 0, ρ⟩ (fun r => ∀ c : Dev nD,
      ∀ b ∈ restRefsP sig Prefetch.none win2, r.2.mem ((c : Thread nD τ).loc b) = Vend m c b) :=
  Pipeline.θ_run_region_noSem_pf_tail (fun q => (cfgs q).toPCfg (Val := Elt F)) (fun q => (cfgs q).toPCfg_adm) (dats m) () cellOf_inj (0 : Fin 1)
    winFacts₀0 (Pipeline.PreFacts.none _) emb₁ defs₀ Variants.none m ρ main (fun _ => Pipeline.chain [StableHlo.seq hostOps1])
    (hbody := fun c => (body_obligation m c).loose) (hne := block_pos0) (harr := arr_whole0) (hstage := stage_whole0)
    (howed := fun _ _ => rfl)
    (u₀ := initOf (Pipeline.cells (Pipeline.pin (fun q => (cfgs q).toPCfg (Val := Elt F)) (fun q => (cfgs q).toPCfg_adm)) cellOf_inj)
      (Pipeline.launchToks (Pipeline.pin (fun q => (cfgs q).toPCfg (Val := Elt F)) (fun q => (cfgs q).toPCfg_adm)) cellOf_inj))
    (hu₀ := .rfl)
    (V := V m) (hmain := hmain m Variants.none) (hsplit := hsplit m) (hpf := fun _ k => k.elim0)
    (X := fun _ => iprop(emp)) (Y := fun _ => iprop(emp))
    (Z := fun c => unscopedRestP (Ix := Unit) (Name := ℕ) (U := UR sig nD τ) (Lvl := ℕ) Prefetch.none win2 c (fun b => V0 m c (Proc.devRef .tc b)))
    (Z' := fun c => unscopedRestP (Ix := Unit) (Name := ℕ) (U := UR sig nD τ) (Lvl := ℕ) Prefetch.none win2 c (Vend m c))
    (hX := fun c => by
      rw [rest_eq]
      iintro HU
      isplitr [HU]; · iempintro
      iexact HU)
    (hin := fun c => (show _ ⊢ Pipeline.scopedRest spec0 c from by iintro ⟨-, -, HR⟩; iexact HR).trans (hin m c))
    (hout := fun c => (hout m c).trans (by
      iintro HR
      isplitr [HR]; · iempintro
      iexact HR))
    (htail := htail m)
    (QY := fun c s => ∀ b ∈ restRefsP sig Prefetch.none win2, s.mem ((c : Thread nD τ).loc b) = Vend m c b)
    (hY := fun c s' => by
      iintro ⟨-, HU, HSI⟩
      unfold Pipeline.unscopedRestP
      imodintro
      iapply (pointsTo_read_all (restRefsP sig Prefetch.none win2) (fun b => (c : Thread nD τ).loc b) (Vend m c) s')
      isplitl [HU] <;> iassumption)
    (hQ := fun s h c => (h c).2.2)

end Cert.KernelIdeal.Fr

end
-- ==== Proof.KI.Frame.lean ====
/-
  The frame of the program, part four: the run read at the program's arguments and at its result.

  Neither argument is written by any host operation or by the region, so each ends as it began; the result is what
  the host operations after the region compute from the region's result column and the positive-pair dot products.
-/
import proofs.«104670_j24464133718914_2_alg».proof.Proof.Gen.KernelIdeal.Launch
import proofs.«104670_j24464133718914_2_alg».proof.Proof.Gen.KernelIdeal.Skeleton
import proofs.«104670_j24464133718914_2_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic
import proofs.«104670_j24464133718914_2_alg».proof.Proof.KI.Launch
set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

open Idealize.ShloMosaic.Pipeline (restRefsP restRefs Prefetch withArrays)

theorem mem_rest (b : Ref sig .tc) (hs : b.isScoped = false) (ha : ∀ w, (win2 w).arr.view.ref ≠ b) :
    b ∈ restRefsP sig Prefetch.none win2 :=
  Finset.mem_sdiff.mpr ⟨Pipeline.mem_restRefs_of b hs ha, fun h => by obtain ⟨k, -, -⟩ := Finset.mem_image.mp h; exact k.elim0⟩

/-- The host operations after the region write neither argument, and neither is one of the region's arrays. -/
theorem Vend_arg0 (c : Dev nD) : Vend m c main_arg0 = m ((c : Thread nD τ).loc main_arg0) := by
  unfold Vend
  simp only [hostOps1, List.flatten_cons, List.flatten_nil, List.append_nil]
  after_results
  rw [Pipeline.withArrays_of_ne win2 c _ _ main_arg0 (by decide)]
  exact V_main_arg0 m c
theorem Vend_arg1 (c : Dev nD) : Vend m c main_arg1 = m ((c : Thread nD τ).loc main_arg1) := by
  unfold Vend
  simp only [hostOps1, List.flatten_cons, List.flatten_nil, List.append_nil]
  after_results
  rw [Pipeline.withArrays_of_ne win2 c _ _ main_arg1 (by decide)]
  exact V_main_arg1 m c

/-- The program runs to the end, nothing faulting, with its result at the host operations' value and its arguments
    unchanged. -/
theorem run_result : θ_run defs (onTc (τ := τ) (main (F := F))) ⟨m, fun _ => 0, ρ⟩ (fun r => ∀ c : Dev nD,
      r.2.mem ((c.tc : Thread nD τ).loc main_v30) = Vend m c main_v30
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c =>
    ⟨h c main_v30 (mem_rest main_v30 rfl (by decide)),
     (h c main_arg0 (mem_rest main_arg0 rfl (by decide))).trans (Vend_arg0 m c),
     (h c main_arg1 (mem_rest main_arg1 rfl (by decide))).trans (Vend_arg1 m c)⟩) (run_main m ρ)

/-- The frame: the program runs to the end, nothing faulting, and its arguments end unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c => (h c).2) (run_result m ρ)

end Cert.KernelIdeal.Fr

end
-- ==== Proof.KIPieces.lean ====
/-
  What each case of the body leaves in its buffers, as the body's arithmetic of what it loaded.

  At a first column block the running sum's buffer ends at: the reset value, plus the block's masked row sums.
  At a last column block it ends at: what it held, plus the block's masked row sums; and the output window's
  buffer ends at the same value (the copy of the running sum just written). Each buffer is written by whole-buffer
  stores, so what it holds is the last store's value, and a load of a whole buffer reads its contents.
-/
import proofs.«104670_j24464133718914_2_alg».proof.Proof.KI.Data
import Idealize.ShloMosaic.Lib.Pipeline.Value
import Idealize.ShloMosaic.Lib.Tactic

set_option maxRecDepth 16384

noncomputable section

namespace Cert.KernelIdeal.Val

open Cert.KernelIdeal Cert.KernelIdeal.Gen Cert.KernelIdeal.Fr
open Idealize.ShloMosaic Idealize.ShloMosaic.TcCoe Idealize.SL.Sem Idealize.ShloMosaic.Tactic
open Idealize.ShloMosaic.Pipeline (Dat)

variable {F : FTy → Type} [FloatOps F]

/-- The zero offsets, however spelt. -/
theorem hz : (![0, 0] : Fin 2 → Nat) = fun _ => 0 := funext fun a => by fin_cases a <;> rfl

/-- A first column block leaves in the running sum's buffer: the reset value, then the block's masked row sums added. -/
theorem sout_A (c : Dev nD) (i : grid0.Coords) (a2 : Memref sig .tc .vmem S1024x256 .bf16) (h2 : a2.IsWhole) (a3 : Memref sig .tc .vmem S2048x256 .bf16) (h3 : a3.IsWhole) (a4 : Memref sig .tc .vmem S1024x1 .f32) (h4 : a4.IsWhole) (a5 : Memref sig .tc .vmem S1024x1 .f32) (h5 : a5.IsWhole) (hc0 : cond0_0 i) (hc1 : ¬cond0_1 i)
    (x0 : Vec F S1024x256 .bf16) (x1 : Vec F S2048x256 .bf16) :
    sout0_A_0 c i a2 h2 a3 h3 a4 h4 a5 h5 hc0 hc1 x0 x1 = k0_pay2 i x0 x1 (k0_pay1 (F := F)) := by
  unfold sout0_A_0
  rw [View.read_writes_eq_canon _ _ _ (scover0_A_0 c i a2 h2 a3 h3 a4 h4 a5 h5 hc0 hc1 x0 x1)]
  unfold kernelRun0_A
  dsimp only
  sl_unfold_words
  rw [View.canon_cons_unit_zero (S := S1024x1) hz, View.readCov_unit_zero (S := S1024x1) _ hz]
  simp only [View.readAt_eq_ld, h2.read_unread, h3.read_unread, View.ld_unit_zero (S := S1024x256) hz,
    View.ld_unit_zero (S := S2048x256) hz]

/-- A last column block leaves in the running sum's buffer: what it found there, plus the block's masked row sums. -/
theorem sout_B (c : Dev nD) (i : grid0.Coords) (a2 : Memref sig .tc .vmem S1024x256 .bf16) (h2 : a2.IsWhole) (a3 : Memref sig .tc .vmem S2048x256 .bf16) (h3 : a3.IsWhole) (a4 : Memref sig .tc .vmem S1024x1 .f32) (h4 : a4.IsWhole) (a5 : Memref sig .tc .vmem S1024x1 .f32) (h5 : a5.IsWhole) (hc0 : ¬cond0_0 i) (hc1 : cond0_1 i)
    (x0 : Vec F S1024x256 .bf16) (x1 : Vec F S2048x256 .bf16) (xs0 : Vec F S1024x1 .f32) :
    sout0_B_0 c i a2 h2 a3 h3 a4 h4 a5 h5 hc0 hc1 x0 x1 xs0 = k0_pay2 i x0 x1 xs0 := by
  unfold sout0_B_0
  rw [View.read_writes_eq_canon _ _ _ (scover0_B_0 c i a2 h2 a3 h3 a4 h4 a5 h5 hc0 hc1 x0 x1 xs0)]
  unfold kernelRun0_B
  dsimp only
  sl_unfold_words
  rw [View.canon_unit_zero (S := S1024x1) hz]
  simp only [View.readAt_eq_ld, h2.read_unread, h3.read_unread, h5.read_unread, View.ld_unit_zero (S := S1024x256) hz,
    View.ld_unit_zero (S := S2048x256) hz, View.ld_unit_zero (S := S1024x1) hz]

/-- A last column block copies the running sum it has just written into the output window's buffer. -/
theorem out_B (c : Dev nD) (i : grid0.Coords) (a2 : Memref sig .tc .vmem S1024x256 .bf16) (h2 : a2.IsWhole) (a3 : Memref sig .tc .vmem S2048x256 .bf16) (h3 : a3.IsWhole) (a4 : Memref sig .tc .vmem S1024x1 .f32) (h4 : a4.IsWhole) (a5 : Memref sig .tc .vmem S1024x1 .f32) (h5 : a5.IsWhole) (hc0 : ¬cond0_0 i) (hc1 : cond0_1 i)
    (x0 : Vec F S1024x256 .bf16) (x1 : Vec F S2048x256 .bf16) (xs0 : Vec F S1024x1 .f32) :
    out0_B_2 c i a2 h2 a3 h3 a4 h4 a5 h5 hc0 hc1 x0 x1 xs0 = k0_pay2 i x0 x1 xs0 := by
  unfold out0_B_2
  rw [View.read_writes_eq_canon _ _ _ (cover0_B_2 c i a2 h2 a3 h3 a4 h4 a5 h5 hc0 hc1 x0 x1 xs0)]
  unfold kernelRun0_B
  dsimp only
  sl_unfold_words
  rw [View.canon_unit_zero (S := S1024x1) hz, View.readCov_unit_zero (S := S1024x1) _ hz]
  simp only [View.readAt_eq_ld, h2.read_unread, h3.read_unread, h5.read_unread, View.ld_unit_zero (S := S1024x256) hz,
    View.ld_unit_zero (S := S2048x256) hz, View.ld_unit_zero (S := S1024x1) hz]

end Cert.KernelIdeal.Val

end
-- ==== Proof.BodyDot.lean ====
/-
  The block product of the body read at one entry.

  The body contracts a 1024 × 256 row block `x` with a 2048 × 256 column block `y` along their second axes into a
  zero accumulator: entry (r, c) of the result is the inner product of row r of `x` with row c of `y`,
  `∑ k, x (r, k) * y (c, k)`. The sum over the one-axis contraction index is re-indexed over `Fin 256`.
-/
import proofs.«104670_j24464133718914_2_alg».proof.Proof.Gen.KernelIdeal.Skeleton
import Idealize.ShloMosaic.Lib.ValueIdx
import Idealize.ShloMosaic.Lib.Pipeline.Value
import Idealize.ShloMosaic.Lib.ValueLayout
import Idealize.ShloMosaic.PureOps.Ideal.Laws

noncomputable section

namespace Cert.BodyAt

open Cert.KernelIdeal Cert.KernelIdeal.Gen Idealize.ShloMosaic ValueIdx
open scoped BigOperators

/-- On the left operand's kept axis the operand index is the output row. -/
theorem dot_lhs0 (j : S1024x2048.Idx) (q : dot_S1024x256_S2048x256_S1024x2048_1_1_0_0_n_n.contr.Idx) :
    (dot_S1024x256_S2048x256_S1024x2048_1_1_0_0_n_n.lhsIdx j q 0).val = (j 0).val := by
  unfold DotDims.lhsIdx
  rw [dif_neg (show ¬(0 : Fin S1024x256.rank) ∈ dot_S1024x256_S2048x256_S1024x2048_1_1_0_0_n_n.lhsBatch by decide),
    dif_pos (show (0 : Fin S1024x256.rank) ∈ dot_S1024x256_S2048x256_S1024x2048_1_1_0_0_n_n.lhsNonContracting by decide)]
  rfl

/-- On the right operand's kept axis the operand index is the output column. -/
theorem dot_rhs0 (j : S1024x2048.Idx) (q : dot_S1024x256_S2048x256_S1024x2048_1_1_0_0_n_n.contr.Idx) :
    (dot_S1024x256_S2048x256_S1024x2048_1_1_0_0_n_n.rhsIdx j q 0).val = (j 1).val := by
  unfold DotDims.rhsIdx
  rw [dif_neg (show ¬(0 : Fin S2048x256.rank) ∈ dot_S1024x256_S2048x256_S1024x2048_1_1_0_0_n_n.rhsBatch by decide),
    dif_pos (show (0 : Fin S2048x256.rank) ∈ dot_S1024x256_S2048x256_S1024x2048_1_1_0_0_n_n.rhsNonContracting by decide)]
  rfl

/-- The block product at (r, c): row r of the left block against row c of the right block. -/
theorem dot_apply (x : FVec Ideal S1024x256 .bf16) (y : FVec Ideal S2048x256 .bf16) (r : Fin 1024) (c : Fin 2048) :
    matmul dot_S1024x256_S2048x256_S1024x2048_1_1_0_0_n_n none x y (constant S1024x2048 .f32 0x00000000#32) (ix2 r c)
      = ∑ k : Fin 256, x (ix2 r k) * y (ix2 c k) := by
  simp only [matmul]
  rw [Ideal.matmul_constant_zero_apply, ← Equiv.sum_comp (contrEquiv1 dot_S1024x256_S2048x256_S1024x2048_1_1_0_0_n_n 256 rfl rfl).symm]
  refine Finset.sum_congr rfl fun k _ => ?_
  have hk := contrEquiv1_symm_val dot_S1024x256_S2048x256_S1024x2048_1_1_0_0_n_n 256 rfl rfl k
  have el : dot_S1024x256_S2048x256_S1024x2048_1_1_0_0_n_n.lhsIdx (ix2 r c) ((contrEquiv1 dot_S1024x256_S2048x256_S1024x2048_1_1_0_0_n_n 256 rfl rfl).symm k) = ix2 r k :=
    funext fun a => Fin.ext (by
      match a with
      | ⟨0, _⟩ => exact dot_lhs0 _ _
      | ⟨1, _⟩ => exact (dot_S1024x256_S2048x256_S1024x2048_1_1_0_0_n_n.lhsIdx_val_of_single rfl _ _).trans hk)
  have er : dot_S1024x256_S2048x256_S1024x2048_1_1_0_0_n_n.rhsIdx (ix2 r c) ((contrEquiv1 dot_S1024x256_S2048x256_S1024x2048_1_1_0_0_n_n 256 rfl rfl).symm k) = ix2 c k :=
    funext fun a => Fin.ext (by
      match a with
      | ⟨0, _⟩ => exact dot_rhs0 _ _
      | ⟨1, _⟩ => exact (dot_S1024x256_S2048x256_S1024x2048_1_1_0_0_n_n.rhsIdx_val_of_single rfl _ _).trans hk)
  rw [el, er]

end Cert.BodyAt

end
-- ==== Proof.BodyMask.lean ====
/-
  The diagonal mask of the body read at one entry.

  The body compares, as 32-bit words, the GLOBAL row index `p * 1024 + r` (block row `p < 4`, local row `r < 1024`,
  broadcast along the lanes) with the GLOBAL column index `q * 2048 + c` (block column `q < 2`, local column
  `c < 2048`, broadcast along the rows). Every value is below `2 ^ 13`, so no word arithmetic wraps and the
  comparison of words is the comparison of the natural numbers.
-/
import proofs.«104670_j24464133718914_2_alg».proof.Proof.Gen.KernelIdeal.Skeleton
import Idealize.ShloMosaic.Lib.ValueIdx
import Idealize.ShloMosaic.Lib.Pipeline.Value
import Idealize.ShloMosaic.Lib.ValueLayout
import Idealize.ShloMosaic.PureOps.Ideal.Laws

noncomputable section

namespace Cert.BodyAt

open Cert.KernelIdeal Cert.KernelIdeal.Gen Idealize.ShloMosaic ValueIdx
open scoped BigOperators

/-- An integer equality test is the bit `1` exactly when the two words are equal. -/
theorem cmpi_eq_one_iff (x y : BitVec 32) : IntOp.cmpi .eq x y = 1#1 ↔ x = y := by
  unfold IntOp.cmpi
  by_cases h : x = y
  · subst h; simp
  · have hb : (x == y) = false := beq_eq_false_iff_ne.mpr h
    simp only [hb, h, iff_false]
    decide

/-- With `a < 4`, `b < 2`, `r < 1024`, `c < 2048` both sides stay below `2 ^ 32`: equal words, equal numbers. -/
theorem word_eq_iff (a b r c : Nat) (ha : a < 4) (hb : b < 2) (hr : r < 1024) (hc : c < 2048) :
    (BitVec.ofNat 32 a * 1024#32 + BitVec.ofNat 32 r = BitVec.ofNat 32 b * 2048#32 + BitVec.ofNat 32 c)
      ↔ a * 1024 + r = b * 2048 + c := by
  rw [← BitVec.toNat_inj]
  simp only [BitVec.toNat_add, BitVec.toNat_mul, BitVec.toNat_ofNat]
  omega

/-- An `[a, 1]` column broadcast to `[a, b]` reads, at `(p, c)`, the column's entry at row `p`. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The mask bit at (r, c) is set exactly on the global diagonal. -/
theorem mask_apply (i : grid0.Coords) (r : Fin 1024) (c : Fin 2048) :
    cmpi .eq
      (broadcastTo S1024x2048 (addi (broadcast S1024x1 (Scalar.muli (BitVec.ofNat 32 (i 0).val) 1024#32)) (iota .tc S1024x1 32 [0] iota_S1024x1_d0_w32)) broadcasts_S1024x1_S1024x2048)
      (broadcastTo S1024x2048 (addi (broadcast S1x2048 (Scalar.muli (BitVec.ofNat 32 (i 1).val) 2048#32)) (iota .tc S1x2048 32 [1] iota_S1x2048_d1_w32)) broadcasts_S1x2048_S1024x2048)
      (ix2 r c) = 1#1 ↔ (i 0).val * 1024 + r.val = (i 1).val * 2048 + c.val := by
  have h0 : (i 0).val < 4 := (i 0).isLt
  have h1 : (i 1).val < 2 := (i 1).isLt
  show IntOp.cmpi .eq (broadcastTo S1024x2048 _ _ (ix2 r c)) (broadcastTo S1024x2048 _ _ (ix2 r c)) = 1#1 ↔ _
  rw [cmpi_eq_one_iff, broadcastTo_a1_ab_apply, broadcastTo_1b_ab_apply]
  show IntOp.addi _ (iota .tc S1024x1 32 [0] _ (ix2 r (0 : Fin 1))) = IntOp.addi _ (iota .tc S1x2048 32 [1] _ (ix2 (0 : Fin 1) c)) ↔ _
  rw [iota_single_apply, iota_single_apply]
  exact word_eq_iff _ _ _ _ h0 h1 r.isLt c.isLt

end Cert.BodyAt

end
-- ==== Proof.BodySum.lean ====
/-
  The remaining non-pointwise pieces of the body read at an index: the constant two, the exponential of a vector,
  the cast of a length-1024 vector to a 1024 × 1 column, and the sum along the 2048 lanes of a 1024 × 2048 block
  (row r's sum is the sum of that row's 2048 entries).
-/
import proofs.«104670_j24464133718914_2_alg».proof.Proof.Gen.KernelIdeal.Skeleton
import Idealize.ShloMosaic.Lib.ValueIdx
import Idealize.ShloMosaic.Lib.Pipeline.Value
import Idealize.ShloMosaic.Lib.ValueLayout
import Idealize.ShloMosaic.PureOps.Ideal.Laws

noncomputable section

namespace Cert.BodyAt

open Cert.KernelIdeal Cert.KernelIdeal.Gen Idealize.ShloMosaic ValueIdx
open scoped BigOperators

/-- The f32 pattern `0x40000000` is the extended real two. -/
theorem ofBits_two_f32 : Ideal.ofBits .f32 0x40000000#32 = 2 := by
  rw [show (2 : EReal) = ((2 : ℝ) : EReal) by norm_cast]
  simp [Ideal.ofBits, Ideal.ieee, -EReal.coe_mul]; norm_num

/-- An `[a]` vector cast to an `[a, 1]` column reads, at `(i, u)`, the vector at `i`, whatever the unit coordinate. -/
theorem shapeCast_a_a1_apply {α : Type} {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- The sum along the lanes of a 1024 × 2048 block, at row `r`, is the sum of that row's 2048 entries. -/
theorem rowsum_apply (v : FVec Ideal S1024x2048 .f32) (hφ : FKind.Formats .f32)
    (hacc : (0x00000000#32 : BitVec 32) = FKind.add.neutral .f32 hφ) (r : Fin 1024) :
    multiReduction .add [1] S1024 v 0x00000000#32 reduces_S1024x2048_S1024 hφ hacc (ix1 r)
      = ∑ c : Fin 2048, v (ix2 r c) := by
  refine (Ideal.multiReduction_add_single v _ reduces_S1024x2048_S1024 hφ hacc (ix1 r)).trans ?_
  show ∑ c : Fin 2048, v (reduces_S1024x2048_S1024.lift (ix1 r) c) = _
  refine Finset.sum_congr rfl fun c _ => congrArg v (funext fun a => Fin.ext ?_)
  match a with
  | ⟨0, _⟩ => rfl
  | ⟨1, _⟩ => rfl

/-- The exponential of a vector read at an index is the exponential of the entry. -/
theorem exp_apply {s : Shape} {φ : FTy} (a : FVec Ideal s φ) (j : s.Idx) : exp a j = Ideal.exp (a j) := rfl

end Cert.BodyAt

end
-- ==== Proof.BodyAt.lean ====
/-
  The two values the kernel body stores, read at an index.

  * The accumulator's reset value is the zero column.
  * The accumulator's new value at grid point (p, q), row r: the old value plus the sum over the 2048 local columns c
    of `exp (2 · ⟨x r, y c⟩)`, the term being `0` where the global row index `p * 1024 + r` equals the global
    column index `q * 2048 + c`. Here `x` is the 1024 × 256 row block and `y` the 2048 × 256 column block.
  Every step is an identity of extended reals: no finiteness is used.
-/
import proofs.«104670_j24464133718914_2_alg».proof.Proof.Gen.KernelIdeal.Skeleton
import Idealize.ShloMosaic.Lib.ValueIdx
import Idealize.ShloMosaic.Lib.Pipeline.Value
import Idealize.ShloMosaic.Lib.ValueLayout
import Idealize.ShloMosaic.PureOps.Ideal.Laws
import proofs.«104670_j24464133718914_2_alg».proof.Proof.BodyDot
import proofs.«104670_j24464133718914_2_alg».proof.Proof.BodyMask
import proofs.«104670_j24464133718914_2_alg».proof.Proof.BodySum

noncomputable section

namespace Cert.BodyAt

open Cert.KernelIdeal Cert.KernelIdeal.Gen Idealize.ShloMosaic ValueIdx
open scoped BigOperators

/-- The reset value is zero at every index. -/
theorem pay1_apply (j : S1024x1.Idx) : k0_pay1 (F := Ideal) j = 0 := by
  unfold k0_pay1
  rw [shapeCast_self]
  exact Ideal.ofBits_zero_f32

/-- The new accumulator at row `r`: the old one plus the masked row sum of `exp (2 · ⟨x r, y c⟩)`. -/
theorem pay2_apply (i : grid0.Coords) (x : FVec Ideal S1024x256 .bf16) (y : FVec Ideal S2048x256 .bf16)
    (acc : FVec Ideal S1024x1 .f32) (r : Fin 1024) :
    k0_pay2 (F := Ideal) i x y acc (ix2 r (0 : Fin 1))
      = acc (ix2 r (0 : Fin 1)) + ∑ c : Fin 2048,
          (if (i 0).val * 1024 + r.val = (i 1).val * 2048 + c.val then (0 : EReal)
           else Ideal.exp ((∑ k : Fin 256, x (ix2 r k) * y (ix2 c k)) * 2)) := by
  unfold k0_pay2
  -- the three casts of a shape to itself are the identity
  simp only [shapeCast_self]
  rw [addf_apply]
  congr 1
  -- the column cast, then the lane sum, then term by term
  refine (shapeCast_a_a1_apply _ _ r 0).trans ?_
  refine (rowsum_apply _ _ _ r).trans ?_
  refine Finset.sum_congr rfl fun c _ => ?_
  rw [select_apply]
  by_cases h : (i 0).val * 1024 + r.val = (i 1).val * 2048 + c.val
  · -- on the diagonal the mask bit is set and the term is the constant zero
    rw [if_pos h, (mask_apply i r c).mpr h, select_one, broadcast_apply]
    exact Ideal.ofBits_zero_f32
  · -- off the diagonal the term is the exponential of twice the inner product
    rw [if_neg h, eq_zero_of_ne_one (mt (mask_apply i r c).mp h), select_zero]
    rw [exp_apply, mulf_apply, dot_apply, broadcast_apply]
    exact congrArg (fun t => Ideal.exp (_ * t)) ofBits_two_f32

end Cert.BodyAt

end
-- ==== Proof.Spec.lean ====
/-
  The mathematics both programs compute, stated once over plain coordinates.

  Rows of two 2048 × 256 matrices `u`, `v` (the row-normalised inputs) are stacked into one 4096 × 256 matrix `Z`.
  For a row `r` of `Z`:
  * its DENOMINATOR is the sum over every column index `c ≠ r` of `exp (2 · ⟨Z r, Z c⟩)` (the diagonal term is `0`);
  * its POSITIVE-PAIR similarity is `⟨u a, v a⟩` with `a = r mod 2048` (row `a` of one half against row `a` of the other).
  Nothing here needs finiteness: the sums and products are those of the extended reals.
-/
import Idealize.ShloMosaic.PureOps.Ideal
import Idealize.ShloMosaic.Lib.ValueIdx

noncomputable section

namespace Cert.PairLoss

open Idealize.ShloMosaic

/-- One term of a row's denominator: `exp (2 · ⟨Z r, Z c⟩)` off the diagonal, `0` on it. -/
def term (Z : Fin 4096 → Fin 256 → EReal) (r c : Fin 4096) : EReal :=
  if r = c then 0 else Ideal.exp ((∑ k : Fin 256, Z r k * Z c k) * 2)

/-- Row `r`'s denominator: its terms summed over all 4096 columns. -/
def denom (Z : Fin 4096 → Fin 256 → EReal) (r : Fin 4096) : EReal := ∑ c : Fin 4096, term Z r c

/-- The two halves stacked: rows `0 … 2047` are `u`, rows `2048 … 4095` are `v`. -/
def stack (u v : Fin 2048 → Fin 256 → EReal) (r : Fin 4096) (k : Fin 256) : EReal :=
  if h : r.val < 2048 then u ⟨r.val, h⟩ k else v ⟨r.val - 2048, by omega⟩ k

/-- The positive-pair similarity of row `r`: `⟨u a, v a⟩` at `a = r mod 2048`. -/
def pair (u v : Fin 2048 → Fin 256 → EReal) (r : Fin 4096) : EReal :=
  ∑ k : Fin 256, u ⟨r.val % 2048, Nat.mod_lt _ (by decide)⟩ k * v ⟨r.val % 2048, Nat.mod_lt _ (by decide)⟩ k

end Cert.PairLoss

end
-- ==== Proof.BodyFold.lean ====
/-
  The two column blocks of one row block add up to the specification's denominator.

  Row block `p` (rows `p * 1024 … p * 1024 + 1023` of the stacked matrix `Z`) meets the two column blocks in turn,
  columns `0 … 2047` and then `2048 … 4095`. Starting from zero, the body adds at row `r` first
  `∑ c < 2048, term Z R c` and then `∑ c < 2048, term Z R (2048 + c)`, where `R = p * 1024 + r`; the diagonal
  condition on natural numbers is the equality of the two indices of `Z`. The sum over all 4096 columns splits into
  these two halves: only `0 + a = a` and the splitting of a finite sum are used, both valid on the extended reals.
-/
import proofs.«104670_j24464133718914_2_alg».proof.Proof.BodyAt
import proofs.«104670_j24464133718914_2_alg».proof.Proof.Spec

noncomputable section

namespace Cert.BodyAt

open Cert.KernelIdeal Cert.KernelIdeal.Gen Idealize.ShloMosaic ValueIdx
open scoped BigOperators

/-- A sum over 4096 columns is the sum over the first 2048 plus the sum over the last 2048. -/
theorem sum_4096 (f : Fin 4096 → EReal) :
    ∑ c : Fin 4096, f c
      = ∑ c : Fin 2048, f ⟨c.val, by omega⟩ + ∑ c : Fin 2048, f ⟨2048 + c.val, by omega⟩ :=
  Fin.sum_univ_add (a := 2048) (b := 2048) f

/-- The two column blocks of row block `p`, accumulated from zero, give row `p * 1024 + r`'s denominator. The row
    block is read once at each of the two grid points (`x0`, `x1`): both readings are rows
    `p * 1024 … p * 1024 + 1023` of `Z`. -/
theorem fold_rows (i0 i1 : grid0.Coords) (p : Fin 4) (hp0 : (i0 0).val = p.val) (hp1 : (i1 0).val = p.val)
    (hq0 : (i0 1).val = 0) (hq1 : (i1 1).val = 1)
    (Z : Fin 4096 → Fin 256 → EReal) (x0 x1 : FVec Ideal S1024x256 .bf16) (y0 y1 : FVec Ideal S2048x256 .bf16)
    (hx0 : ∀ (r : Fin 1024) (k : Fin 256), x0 (ix2 r k) = Z ⟨p.val * 1024 + r.val, by omega⟩ k)
    (hx1 : ∀ (r : Fin 1024) (k : Fin 256), x1 (ix2 r k) = Z ⟨p.val * 1024 + r.val, by omega⟩ k)
    (hy0 : ∀ (c : Fin 2048) (k : Fin 256), y0 (ix2 c k) = Z ⟨c.val, by omega⟩ k)
    (hy1 : ∀ (c : Fin 2048) (k : Fin 256), y1 (ix2 c k) = Z ⟨2048 + c.val, by omega⟩ k)
    (a0 : FVec Ideal S1024x1 .f32) (ha0 : ∀ j, a0 j = 0) (r : Fin 1024) :
    k0_pay2 (F := Ideal) i1 x1 y1 (k0_pay2 (F := Ideal) i0 x0 y0 a0) (ix2 r (0 : Fin 1))
      = Cert.PairLoss.denom Z ⟨p.val * 1024 + r.val, by omega⟩ := by
  rw [pay2_apply, pay2_apply, ha0, zero_add]
  unfold Cert.PairLoss.denom
  rw [sum_4096]
  congr 1
  · refine Finset.sum_congr rfl fun c _ => ?_
    unfold Cert.PairLoss.term
    refine if_congr ?_ rfl ?_
    · rw [hp0, hq0, Fin.mk.injEq, Nat.zero_mul, Nat.zero_add]
    · simp only [hx0, hy0]
  · refine Finset.sum_congr rfl fun c _ => ?_
    unfold Cert.PairLoss.term
    refine if_congr ?_ rfl ?_
    · rw [hp1, hq1, Fin.mk.injEq, Nat.one_mul]
    · simp only [hx1, hy1]

/-- An index of the 1024 × 1 column is its row and the unit axis's `0`. -/
theorem idx_col (j : S1024x1.Idx) : j = ix2 (n0 := 1024) (n1 := 1) (j 0) (0 : Fin 1) := funext fun a => by
  match a with
  | ⟨0, _⟩ => rfl
  | ⟨1, _⟩ =>
    refine Fin.ext ?_
    have h1 : (j 1).val < 1 := (j 1).isLt
    show (j 1).val = 0
    omega

/-- `fold_rows` at any index of the 1024 × 1 column. -/
theorem fold_rows' (i0 i1 : grid0.Coords) (p : Fin 4) (hp0 : (i0 0).val = p.val) (hp1 : (i1 0).val = p.val)
    (hq0 : (i0 1).val = 0) (hq1 : (i1 1).val = 1)
    (Z : Fin 4096 → Fin 256 → EReal) (x0 x1 : FVec Ideal S1024x256 .bf16) (y0 y1 : FVec Ideal S2048x256 .bf16)
    (hx0 : ∀ (r : Fin 1024) (k : Fin 256), x0 (ix2 r k) = Z ⟨p.val * 1024 + r.val, by omega⟩ k)
    (hx1 : ∀ (r : Fin 1024) (k : Fin 256), x1 (ix2 r k) = Z ⟨p.val * 1024 + r.val, by omega⟩ k)
    (hy0 : ∀ (c : Fin 2048) (k : Fin 256), y0 (ix2 c k) = Z ⟨c.val, by omega⟩ k)
    (hy1 : ∀ (c : Fin 2048) (k : Fin 256), y1 (ix2 c k) = Z ⟨2048 + c.val, by omega⟩ k)
    (a0 : FVec Ideal S1024x1 .f32) (ha0 : ∀ j, a0 j = 0) (j : S1024x1.Idx) :
    k0_pay2 (F := Ideal) i1 x1 y1 (k0_pay2 (F := Ideal) i0 x0 y0 a0) j
      = Cert.PairLoss.denom Z ⟨p.val * 1024 + (j 0).val, by have := idx2_lt0 j; omega⟩ := by
  refine (congrArg (k0_pay2 (F := Ideal) i1 x1 y1 (k0_pay2 (F := Ideal) i0 x0 y0 a0)) (idx_col j)).trans ?_
  exact fold_rows i0 i1 p hp0 hp1 hq0 hq1 Z x0 x1 y0 y1 hx0 hx1 hy0 hy1 a0 ha0 (j 0)

/-- The same with one reading `x` of the row block. -/
theorem fold_two (i0 i1 : grid0.Coords) (p : Fin 4) (hp0 : (i0 0).val = p.val) (hp1 : (i1 0).val = p.val)
    (hq0 : (i0 1).val = 0) (hq1 : (i1 1).val = 1)
    (Z : Fin 4096 → Fin 256 → EReal) (x : FVec Ideal S1024x256 .bf16) (y0 y1 : FVec Ideal S2048x256 .bf16)
    (hx : ∀ (r : Fin 1024) (k : Fin 256), x (ix2 r k) = Z ⟨p.val * 1024 + r.val, by omega⟩ k)
    (hy0 : ∀ (c : Fin 2048) (k : Fin 256), y0 (ix2 c k) = Z ⟨c.val, by omega⟩ k)
    (hy1 : ∀ (c : Fin 2048) (k : Fin 256), y1 (ix2 c k) = Z ⟨2048 + c.val, by omega⟩ k)
    (a0 : FVec Ideal S1024x1 .f32) (ha0 : ∀ j, a0 j = 0) (r : Fin 1024) :
    k0_pay2 (F := Ideal) i1 x y1 (k0_pay2 (F := Ideal) i0 x y0 a0) (ix2 r (0 : Fin 1))
      = Cert.PairLoss.denom Z ⟨p.val * 1024 + r.val, by omega⟩ :=
  fold_rows i0 i1 p hp0 hp1 hq0 hq1 Z x x y0 y1 hx hx hy0 hy1 a0 ha0 r

/-- The same at any index of the 1024 × 1 column. -/
theorem fold_two' (i0 i1 : grid0.Coords) (p : Fin 4) (hp0 : (i0 0).val = p.val) (hp1 : (i1 0).val = p.val)
    (hq0 : (i0 1).val = 0) (hq1 : (i1 1).val = 1)
    (Z : Fin 4096 → Fin 256 → EReal) (x : FVec Ideal S1024x256 .bf16) (y0 y1 : FVec Ideal S2048x256 .bf16)
    (hx : ∀ (r : Fin 1024) (k : Fin 256), x (ix2 r k) = Z ⟨p.val * 1024 + r.val, by omega⟩ k)
    (hy0 : ∀ (c : Fin 2048) (k : Fin 256), y0 (ix2 c k) = Z ⟨c.val, by omega⟩ k)
    (hy1 : ∀ (c : Fin 2048) (k : Fin 256), y1 (ix2 c k) = Z ⟨2048 + c.val, by omega⟩ k)
    (a0 : FVec Ideal S1024x1 .f32) (ha0 : ∀ j, a0 j = 0) (j : S1024x1.Idx) :
    k0_pay2 (F := Ideal) i1 x y1 (k0_pay2 (F := Ideal) i0 x y0 a0) j
      = Cert.PairLoss.denom Z ⟨p.val * 1024 + (j 0).val, by have := idx2_lt0 j; omega⟩ :=
  fold_rows' i0 i1 p hp0 hp1 hq0 hq1 Z x x y0 y1 hx hx hy0 hy1 a0 ha0 j

end Cert.BodyAt

end
-- ==== Proof.KIDenom.lean ====
/-
  The kernel region's result, read off its frame: row R of the result column is the specification's denominator
  of row R of the stacked matrix.

  Grid point `t` (0 … 7) is row block `t / 2` against column block `t % 2`: window 0's block at `t` is rows
  `(t / 2) * 1024 …` of the stacked matrix, window 1's block is rows `(t % 2) * 2048 …`. The running sum is reset
  and given the first column block's masked row sums at the even point `t - 1`, given the second's at the odd point
  `t`, and copied to the output window there; the two halves add up to the sum over all 4096 columns. The output
  window is written back at the odd points, its block at `t` being rows `(t / 2) * 1024 …` of the result, so row
  `R` is written by point `2 * (R / 1024) + 1`.
-/
import proofs.«104670_j24464133718914_2_alg».proof.Proof.KIPieces
import proofs.«104670_j24464133718914_2_alg».proof.Proof.BodyFold
import proofs.«104670_j24464133718914_2_alg».proof.Proof.KI.Data
import Idealize.ShloMosaic.Lib.Pipeline.Value
import Idealize.ShloMosaic.Lib.ValueIdx
import Idealize.ShloMosaic.Lib.Tactic

set_option maxRecDepth 16384

noncomputable section

namespace Cert.KernelIdeal.Val

open Cert.KernelIdeal Cert.KernelIdeal.Gen Cert.KernelIdeal.Fr
open Idealize.ShloMosaic Idealize.ShloMosaic.TcCoe Idealize.SL.Sem Idealize.ShloMosaic.Tactic
open Idealize.ShloMosaic.Pipeline (Dat)
open Idealize.ShloMosaic.ValueIdx

variable {F : FTy → Type} [FloatOps F]

variable (m : (ℓ : Loc nD τ sig) → Buf (Elt F) ℓ)

/-- The printed index maps and the grid's coordinates, decided once over the eight points: point `t` is row block
    `t / 2` and column block `t % 2`. -/
theorem idx_facts : ∀ t : Fin cfg0.N,
    win0_0.index t (0 : Fin 2) = t.val / 2 ∧ win0_0.index t (1 : Fin 2) = 0
    ∧ win0_1.index t (0 : Fin 2) = t.val % 2 ∧ win0_1.index t (1 : Fin 2) = 0
    ∧ win0_2.index t (0 : Fin 2) = t.val / 2 ∧ win0_2.index t (1 : Fin 2) = 0
    ∧ (grid0.coords t 0).val = t.val / 2 ∧ (grid0.coords t 1).val = t.val % 2 :=
  (by decide +kernel : ∀ t : Fin grid0.N, _)

/-- The row block at point `t` is rows `(t / 2) * 1024 …` of the stacked matrix. -/
theorem iblk0_apply (c : Dev nD) (t : Fin cfg0.N) (r : Fin 1024) (k : Fin 256)
    (hR : t.val / 2 * 1024 + r.val < 4096) :
    (iblk m c 0 t : Vec F S1024x256 .bf16) (ix2 r k) = V m c main_v17 (ix2 (⟨t.val / 2 * 1024 + r.val, hR⟩ : Fin 4096) k) := by
  obtain ⟨e0, e1, -⟩ := idx_facts t
  show V m c main_v17 (((cfg0.win 0).blk t).view.emb (ix2 r k)) = _
  refine congrArg (V m c main_v17) (funext fun a => Fin.ext ?_)
  match a with
  | ⟨0, _⟩ => show win0_0.index t (0 : Fin 2) * 1024 + 1 * r.val = t.val / 2 * 1024 + r.val; rw [e0]; omega
  | ⟨1, _⟩ => show win0_0.index t (1 : Fin 2) * 256 + 1 * k.val = k.val; rw [e1]; omega

/-- The column block at point `t` is rows `(t % 2) * 2048 …` of the stacked matrix. -/
theorem iblk1_apply (c : Dev nD) (t : Fin cfg0.N) (cc : Fin 2048) (k : Fin 256)
    (hC : t.val % 2 * 2048 + cc.val < 4096) :
    (iblk m c 1 t : Vec F S2048x256 .bf16) (ix2 cc k) = V m c main_v17 (ix2 (⟨t.val % 2 * 2048 + cc.val, hC⟩ : Fin 4096) k) := by
  obtain ⟨-, -, e2, e3, -⟩ := idx_facts t
  show V m c main_v17 (((cfg0.win 1).blk t).view.emb (ix2 cc k)) = _
  refine congrArg (V m c main_v17) (funext fun a => Fin.ext ?_)
  match a with
  | ⟨0, _⟩ => show win0_1.index t (0 : Fin 2) * 2048 + 1 * cc.val = t.val % 2 * 2048 + cc.val; rw [e2]; omega
  | ⟨1, _⟩ => show win0_1.index t (1 : Fin 2) * 256 + 1 * k.val = k.val; rw [e3]; omega

/-- After an odd point `t` the output window's buffer holds the body's arithmetic of the two points `t - 1`, `t`:
    the reset value, the first column block's sums added at `t - 1`, the second's added at `t`. -/
theorem acc_odd (c : Dev nD) (t : Fin cfg0.N) (h1 : t.val % 2 = 1) (hlt : t.val - 1 < cfg0.N) :
    (outsAt0 m c t.val t.isLt).1
      = k0_pay2 (grid0.coords t) (iblk m c 0 t) (iblk m c 1 t)
          (k0_pay2 (grid0.coords ⟨t.val - 1, hlt⟩) (iblk m c 0 ⟨t.val - 1, hlt⟩) (iblk m c 1 ⟨t.val - 1, hlt⟩) (k0_pay1 (F := F))) := by
  have h0 : (⟨t.val - 1, hlt⟩ : Fin cfg0.N).val % 2 = 0 := by show (t.val - 1) % 2 = 0; omega
  have e : outsAt0 m c (t.val - 1) (Nat.lt_of_le_of_lt (Nat.sub_le _ _) t.isLt) = outA m c ⟨t.val - 1, hlt⟩ h0 :=
    outsAt0_A m c ⟨t.val - 1, hlt⟩ h0
  rw [outsAt0_B m c t h1, e]
  unfold outB outA
  dsimp only
  rw [out_B, sout_A]

/-! ## At the ideal values -/

section AtIdeal
variable (mI : (ℓ : Loc nD τ sig) → Buf (Elt Ideal) ℓ)

/-- The stacked matrix as the region finds it, by row and column. -/
abbrev Zof (c : Dev nD) : Fin 4096 → Fin 256 → EReal := fun r k => V (F := Ideal) mI c main_v17 (ix2 r k)

/-- After an odd point `t` the output window's buffer holds, at row `j`, the denominator of row
    `(t / 2) * 1024 + j` of the stacked matrix. -/
theorem acc_val (c : Dev nD) (t : Fin cfg0.N) (h1 : t.val % 2 = 1) (j : S1024x1.Idx)
    (hR : t.val / 2 * 1024 + (j 0).val < 4096) :
    (outsAt0 (F := Ideal) mI c t.val t.isLt).1 j
      = Cert.PairLoss.denom (Zof mI c) ⟨t.val / 2 * 1024 + (j 0).val, hR⟩ := by
  have hN : t.val < 8 := lt_of_lt_of_eq t.isLt N_0
  have hlt : t.val - 1 < cfg0.N := Nat.lt_of_le_of_lt (Nat.sub_le _ _) t.isLt
  obtain ⟨-, -, -, -, -, -, g0, g1⟩ := idx_facts t
  obtain ⟨-, -, -, -, -, -, g0', g1'⟩ := idx_facts ⟨t.val - 1, hlt⟩
  have g0'' : (grid0.coords ⟨t.val - 1, hlt⟩ 0).val = (t.val - 1) / 2 := g0'
  have g1'' : (grid0.coords ⟨t.val - 1, hlt⟩ 1).val = (t.val - 1) % 2 := g1'
  rw [acc_odd mI c t h1 hlt]
  exact Cert.BodyAt.fold_rows' (grid0.coords ⟨t.val - 1, hlt⟩) (grid0.coords t) ⟨t.val / 2, by omega⟩
    (by show _ = t.val / 2; omega) (by show _ = t.val / 2; omega) (by omega) (by omega)
    (Zof mI c) (iblk mI c 0 ⟨t.val - 1, hlt⟩) (iblk mI c 0 t) (iblk mI c 1 ⟨t.val - 1, hlt⟩) (iblk mI c 1 t)
    (fun r k => (iblk0_apply mI c ⟨t.val - 1, hlt⟩ r k (by show (t.val - 1) / 2 * 1024 + r.val < 4096; omega)).trans
      (congrArg (fun R : Fin 4096 => V (F := Ideal) mI c main_v17 (ix2 R k)) (Fin.ext (by show (t.val - 1) / 2 * 1024 + r.val = t.val / 2 * 1024 + r.val; omega))))
    (fun r k => iblk0_apply mI c t r k (by omega))
    (fun cc k => (iblk1_apply mI c ⟨t.val - 1, hlt⟩ cc k (by show (t.val - 1) % 2 * 2048 + cc.val < 4096; omega)).trans
      (congrArg (fun R : Fin 4096 => V (F := Ideal) mI c main_v17 (ix2 R k)) (Fin.ext (by show (t.val - 1) % 2 * 2048 + cc.val = cc.val; omega))))
    (fun cc k => (iblk1_apply mI c t cc k (by omega)).trans
      (congrArg (fun R : Fin 4096 => V (F := Ideal) mI c main_v17 (ix2 R k)) (Fin.ext (by show t.val % 2 * 2048 + cc.val = 2048 + cc.val; omega))))
    (k0_pay1 (F := Ideal)) Cert.BodyAt.pay1_apply j

/-- The result column by rows: row `R` holds the denominator of row `R` of the stacked matrix. -/
abbrev Gof (c : Dev nD) : S4096x1.Idx → EReal :=
  fun i => Cert.PairLoss.denom (Zof mI c) ⟨(i 0).val, idx2_lt0 i⟩

/-- What an odd point `t` writes back is rows `(t / 2) * 1024 …` of that column. -/
theorem flushed_eq (c : Dev nD) (t : Fin cfg0.N) (hf : (cfg0.win 2).flush t = true) :
    (dats (F := Ideal) mI 0 c).flushed 2 t = ((cfg0.win 2).blk t).view.read (Elt Ideal) (Gof mI c) := by
  have h1 : t.val % 2 = 1 := (flush0_2 t).mp hf
  have hN : t.val < 8 := lt_of_lt_of_eq t.isLt N_0
  obtain ⟨-, -, -, -, e4, e5, -⟩ := idx_facts t
  show (cfg0.win 2).cut (grid0.coords t) ((dats mI 0 c).after 2 t) = _
  rw [after0_2]
  funext j
  have hj : (j 0).val < 1024 := (j 0).isLt
  show (outsAt0 mI c t.val t.isLt).1 ((cfg0.win 2).xinj (grid0.coords t) j)
    = Gof mI c (((cfg0.win 2).blk t).view.emb j)
  refine (acc_val mI c t h1 ((cfg0.win 2).xinj (grid0.coords t) j)
    (by show t.val / 2 * 1024 + (j 0).val < 4096; omega)).trans ?_
  refine congrArg (Cert.PairLoss.denom (Zof mI c)) (Fin.ext ?_)
  show t.val / 2 * 1024 + (j 0).val = win0_2.index t (0 : Fin 2) * 1024 + 1 * (j 0).val
  rw [e4]; omega

/-- A row of the result is in point `t`'s block iff each coordinate is in the block's range on its axis. -/
theorem mem_blk (t : Fin cfg0.N) (i : S4096x1.Idx) :
    i ∈ ((cfg0.win 2).blk t).view.set
      ↔ ∀ a : Fin 2, win0_2.index t a * S1024x1.size a ≤ (i a).val ∧ (i a).val < win0_2.index t a * S1024x1.size a + S1024x1.size a := by
  show i ∈ ((View.whole main_v20).slice (win0_2.rect t)).set ↔ _
  rw [View.set_slice_whole, Rect.mem_set_unit]
  exact Iff.rfl

/-- Row `R` of the result is written back by the odd point of row block `R / 1024`. -/
theorem cover (i : S4096x1.Idx) :
    ∃ t : Fin cfg0.N, (cfg0.win 2).flush t = true ∧ i ∈ ((cfg0.win 2).blk t).view.set := by
  have hi0 : (i 0).val < 4096 := (i 0).isLt
  have hi1 : (i 1).val < 1 := (i 1).isLt
  have hN : cfg0.N = 8 := N_0
  have hlt : 2 * ((i 0).val / 1024) + 1 < cfg0.N := by rw [hN]; omega
  obtain ⟨-, -, -, -, e4, e5, -⟩ := idx_facts ⟨2 * ((i 0).val / 1024) + 1, hlt⟩
  have e4' : win0_2.index ⟨2 * ((i 0).val / 1024) + 1, hlt⟩ (0 : Fin 2) = (2 * ((i 0).val / 1024) + 1) / 2 := e4
  refine ⟨⟨2 * ((i 0).val / 1024) + 1, hlt⟩,
    (flush0_2 _).mpr (by show (2 * ((i 0).val / 1024) + 1) % 2 = 1; omega), ?_⟩
  rw [mem_blk]
  intro a
  match a with
  | ⟨0, _⟩ =>
    show win0_2.index ⟨2 * ((i 0).val / 1024) + 1, hlt⟩ (0 : Fin 2) * 1024 ≤ (i 0).val
      ∧ (i 0).val < win0_2.index ⟨2 * ((i 0).val / 1024) + 1, hlt⟩ (0 : Fin 2) * 1024 + 1024
    rw [e4']; omega
  | ⟨1, _⟩ =>
    show win0_2.index ⟨2 * ((i 0).val / 1024) + 1, hlt⟩ (1 : Fin 2) * 1 ≤ (i 1).val
      ∧ (i 1).val < win0_2.index ⟨2 * ((i 0).val / 1024) + 1, hlt⟩ (1 : Fin 2) * 1 + 1
    rw [e5]; omega

/-- The result array after the run: the column of denominators. -/
theorem final (c : Dev nD) : (dats (F := Ideal) mI 0 c).arrAt 2 cfg0.N = Gof mI c :=
  (dats mI 0 c).arrAt_eq_of_cover 2 (Gof mI c) (flushed_eq mI c) cover

/-- Row `R` of the region's result is the specification's denominator of row `R` of the stacked matrix. -/
theorem denom_final (c : Dev nD) (R : Fin 4096) :
    (dats (F := Ideal) mI 0 c).arrAt 2 cfg0.N (ix2 R (0 : Fin 1))
      = Cert.PairLoss.denom (fun r k => V (F := Ideal) mI c main_v17 (ix2 r k)) R := by
  rw [final]

end AtIdeal

end Cert.KernelIdeal.Val

end
-- ==== Proof.RefDenom.lean ====
/-
  The reference program's row denominators, read at an index.

  The stacked matrix is a two-piece concatenation along the rows; the Gram matrix is the contraction of the stacked
  matrix with itself; the mask is one minus the identity pattern (an integer comparison of the row and column
  coordinates turned into a float); each masked entry is the mask times the exponential of the Gram entry divided by
  one half; a row's denominator is the sum of the masked entries along the row.
-/
import proofs.«104670_j24464133718914_2_alg».proof.Proof.Gen.ReferenceIdeal.Read
import proofs.«104670_j24464133718914_2_alg».proof.Proof.Spec

noncomputable section

namespace Cert.RefSide

open Cert.ReferenceIdeal Cert.ReferenceIdeal.Read Cert.PairLoss Idealize.ShloMosaic ValueIdx

/-- The first normalised input by coordinates. -/
abbrev rowsU (x0 : (⟨S2048x256, .f32⟩ : BufTy).Contents (Elt Ideal)) : Fin 2048 → Fin 256 → EReal :=
  fun a k => val_main_v7 (F := Ideal) x0 (ix2 a k)

/-- The second normalised input by coordinates. -/
abbrev rowsV (x1 : (⟨S2048x256, .f32⟩ : BufTy).Contents (Elt Ideal)) : Fin 2048 → Fin 256 → EReal :=
  fun a k => val_main_v15 (F := Ideal) x1 (ix2 a k)

/-- The stacked matrix at row `r`, column `k`: the first input's row below 2048, the second's from 2048 on. -/
theorem ref_stack (x0 x1 : (⟨S2048x256, .f32⟩ : BufTy).Contents (Elt Ideal)) (r : Fin 4096) (k : Fin 256) :
    val_main_v16 (F := Ideal) x0 x1 (ix2 r k) = stack (rowsU x0) (rowsV x1) r k := by
  unfold stack val_main_v16
  by_cases h : r.val < 2048
  · rw [dif_pos h]
    exact concatenate_pair_apply_left (t := S4096x256) (s₁ := S2048x256) (s₂ := S2048x256) 0 _ _ _ (ix2 r k) rfl
      (ix2 ⟨r.val, h⟩ k) (fun b => match b with | ⟨0, _⟩ => rfl | ⟨1, _⟩ => rfl)
  · rw [dif_neg h]
    exact concatenate_pair_apply_right (t := S4096x256) (s₁ := S2048x256) (s₂ := S2048x256) 0 _ _ _ (ix2 r k) rfl rfl
      (ix2 ⟨r.val - 2048, by omega⟩ k)
      (fun b hb => match b, hb with | ⟨0, _⟩, hb => absurd rfl hb | ⟨1, _⟩, _ => rfl)
      (by show r.val - 2048 + 2048 = r.val; omega)

/-- The float word of one. -/
theorem ofBits_one_f32 : Ideal.ofBits .f32 0x3F800000#32 = 1 := by
  simp [Ideal.ofBits, Ideal.ieee]
  rw [← EReal.coe_mul, ← EReal.coe_one]
  congr 1
  norm_num

/-- The float word of one half. -/
theorem ofBits_half_f32 : Ideal.ofBits .f32 0x3F000000#32 = (((1 : ℝ) / 2 : ℝ) : EReal) := by
  simp [Ideal.ofBits, Ideal.ieee]
  rw [← EReal.coe_mul]
  congr 1
  norm_num

/-- The comparison of the row and column counters: the bit is set exactly on the diagonal. Both counters are below
    `4096`, so the 32-bit words are equal only when the numbers are. -/
theorem eye_bit (r c : Fin 4096) :
    IntOp.cmpi .eq (IntOp.addi (BitVec.ofNat 32 r.val) 0#32) (BitVec.ofNat 32 c.val) = if r = c then 1#1 else 0#1 := by
  have hr := r.isLt
  have hc := c.isLt
  show BitVec.ofBool (BitVec.ofNat 32 r.val + 0#32 == BitVec.ofNat 32 c.val) = _
  rw [BitVec.add_zero]
  by_cases h : r = c
  · subst h; simp
  · rw [if_neg h]
    have hne : BitVec.ofNat 32 r.val ≠ BitVec.ofNat 32 c.val := by
      intro e
      have e' := congrArg BitVec.toNat e
      simp only [BitVec.toNat_ofNat] at e'
      rw [Nat.mod_eq_of_lt (by omega), Nat.mod_eq_of_lt (by omega)] at e'
      exact h (Fin.ext e')
    have hb : (BitVec.ofNat 32 r.val == BitVec.ofNat 32 c.val) = false := beq_eq_false_iff_ne.mpr hne
    rw [hb]
    rfl

/-- The mask entry: zero on the diagonal, one off it. -/
theorem ref_mask (r c : Fin 4096) :
    val_main_v28 (F := Ideal) (ix2 r c) = if r = c then 0 else 1 := by
  rw [val_main_v28_apply, val_main_v27_apply, val_main_cst_3_apply, val_main_v26_apply, val_main_v25_apply,
    val_main_v24_apply, val_main_v21_apply, val_main_v22_apply, val_main_v23_apply, val_main_c_apply]
  show Ideal.ofBits .f32 0x3F800000#32
      - (((IntOp.cmpi .eq (IntOp.addi (BitVec.ofNat 32 r.val) 0#32) (BitVec.ofNat 32 c.val)).toNat : ℝ) : EReal) = _
  rw [eye_bit, ofBits_one_f32]
  by_cases h : r = c
  · rw [if_pos h, if_pos h]
    show (1 : EReal) - (((1 : ℕ) : ℝ) : EReal) = 0
    rw [Nat.cast_one, EReal.coe_one, ← EReal.coe_one, ← EReal.coe_sub, sub_self, EReal.coe_zero]
  · rw [if_neg h, if_neg h]
    show (1 : EReal) - (((0 : ℕ) : ℝ) : EReal) = 1
    rw [Nat.cast_zero, EReal.coe_zero, sub_zero]

/-- A Gram entry: the inner product of rows `r` and `c` of the stacked matrix. -/
theorem ref_gram (x0 x1 : (⟨S2048x256, .f32⟩ : BufTy).Contents (Elt Ideal)) (r c : Fin 4096) :
    val_main_v17 (F := Ideal) x0 x1 (ix2 r c)
      = ∑ k : Fin 256, stack (rowsU x0) (rowsV x1) r k * stack (rowsU x0) (rowsV x1) c k := by
  rw [val_main_v17_apply]
  refine Finset.sum_congr rfl fun k _ => ?_
  have hl : lidx_main_v17 (ix2 r c) k = ix2 r k :=
    funext fun a => match a with | ⟨0, _⟩ => rfl | ⟨1, _⟩ => rfl
  have hr : ridx_main_v17 (ix2 r c) k = ix2 c k :=
    funext fun a => match a with | ⟨0, _⟩ => rfl | ⟨1, _⟩ => rfl
  rw [hl, hr, ref_stack, ref_stack]

/-- One masked entry is one term of the row's denominator: off the diagonal the mask is one and dividing by one half
    doubles the Gram entry; on the diagonal the mask is zero and the product is zero whatever the exponential is. -/
theorem ref_term (x0 x1 : (⟨S2048x256, .f32⟩ : BufTy).Contents (Elt Ideal)) (r c : Fin 4096) :
    val_main_v35 (F := Ideal) x0 x1 (ix2 r c) = term (stack (rowsU x0) (rowsV x1)) r c := by
  rw [val_main_v35_apply, ref_mask]
  unfold term
  by_cases h : r = c
  · rw [if_pos h, if_pos h]
    exact zero_mul _
  · rw [if_neg h, if_neg h, val_main_v34_apply, val_main_v33_apply, val_main_v32_apply, val_main_cst_5_apply,
      ref_gram]
    show 1 * Ideal.exp (Ideal.div _ (Ideal.ofBits .f32 0x3F000000#32)) = _
    rw [one_mul, ofBits_half_f32, Ideal.div_coe (by norm_num)]
    have h2 : (((1 : ℝ) / ((1 : ℝ) / 2) : ℝ) : EReal) = 2 := by
      rw [one_div_one_div]; rfl
    rw [h2]

/-- The reference's row sums of the masked exponentials are the specification's denominators. -/
theorem ref_denom (x0 x1 : (⟨S2048x256, .f32⟩ : BufTy).Contents (Elt Ideal)) (r : Fin 4096) :
    val_main_v36 (F := Ideal) x0 x1 (ix1 r) = denom (stack (rowsU x0) (rowsV x1)) r := by
  rw [val_main_v36_apply, val_main_cst_6_apply]
  show Ideal.ofBits .f32 0x00000000#32 + _ = _
  rw [Ideal.ofBits_zero_f32, zero_add]
  unfold denom
  refine Finset.sum_congr rfl fun c _ => ?_
  have hi : idx_main_v36 (ix1 r) c = ix2 r c :=
    funext fun a => match a with | ⟨0, _⟩ => rfl | ⟨1, _⟩ => rfl
  rw [hi, ref_term]

end Cert.RefSide

end
-- ==== Proof.RefPair.lean ====
/-
  The reference program's positive-pair similarities, read at an index.

  The two diagonals of the Gram matrix at offsets `+2048` and `-2048` are gathered through tables of (row, column)
  pairs built from integer counters; every counter stays below `4096`, so no 32-bit sum wraps around, every
  "is negative" test is false, and the tables are `(a, a + 2048)` and `(a + 2048, a)`. The two gathered diagonals
  are laid end to end; entry `r` is the inner product of row `r mod 2048` of the first normalised input with the same
  row of the second.
-/
import proofs.«104670_j24464133718914_2_alg».proof.Proof.RefDenom

noncomputable section

namespace Cert.RefSide

open Cert.ReferenceIdeal Cert.ReferenceIdeal.Read Cert.ReferenceIdeal.Gen Cert.PairLoss Idealize.ShloMosaic ValueIdx

/-! ## 32-bit words of small numbers -/

/-- A number below `2^31` read back signed from its 32-bit word is itself. -/
theorem toInt_ofNat_small (n : Nat) (h : n < 2147483648) : (BitVec.ofNat 32 n).toInt = (n : Int) := by
  rw [BitVec.toInt_eq_toNat_cond, BitVec.toNat_ofNat, Nat.mod_eq_of_lt (by omega)]
  rw [if_pos (by omega)]

/-- … and as a natural number. -/
theorem toNat_toInt_ofNat_small (n : Nat) (h : n < 2147483648) : (BitVec.ofNat 32 n).toInt.toNat = n := by
  rw [toInt_ofNat_small n h]; rfl

/-- The word of a number below `2^31` is not negative. -/
theorem slt_zero_small (n : Nat) (h : n < 2147483648) : IntOp.cmpi .slt (BitVec.ofNat 32 n) 0#32 = 0#1 := by
  show BitVec.ofBool ((BitVec.ofNat 32 n).slt 0#32) = 0#1
  have hf : (BitVec.ofNat 32 n).slt 0#32 = false := by
    unfold BitVec.slt
    rw [toInt_ofNat_small n h]
    exact decide_eq_false (by simp)
  rw [hf]; rfl

/-- Word addition of two numbers' words is the word of the sum. -/
theorem addi_ofNat (m n : Nat) : IntOp.addi (BitVec.ofNat 32 m) (BitVec.ofNat 32 n) = BitVec.ofNat 32 (m + n) := by
  show BitVec.ofNat 32 m + BitVec.ofNat 32 n = _
  rw [BitVec.ofNat_add]

/-! ## The gather of single entries of the square matrix at a table of (row, column) pairs -/

/-- Entry `a` is the matrix at the pair in row `a` of the table, each component read signed and clamped into the
    matrix: no axis is a batching axis, both axes are collapsed, so the operand index is the clamped start index. -/
theorem gather_diag_apply {α : Type} {w : Nat} (x : S4096x4096.Idx → α) (idx : IVec S2048x2 w) (a : Fin 2048) :
    Host.gather gather_S4096x4096_S2048x2_S2048_n_01_n_n_01_1_11 x idx (ix1 a)
      = x (ix2 (n0 := 4096) (n1 := 4096) ⟨min (idx (ix2 a 0)).toInt.toNat 4095, by omega⟩
          ⟨min (idx (ix2 a 1)).toInt.toNat 4095, by omega⟩) := by
  unfold Host.gather
  congr 1
  funext b
  refine Fin.ext ?_
  match b with
  | ⟨0, _⟩ =>
    show gather_S4096x4096_S2048x2_S2048_n_01_n_n_01_1_11.start (ix1 a) idx 0
        + gather_S4096x4096_S2048x2_S2048_n_01_n_n_01_1_11.batchCoord (ix1 a) 0
        + gather_S4096x4096_S2048x2_S2048_n_01_n_n_01_1_11.offCoord (ix1 a) 0 = min (idx (ix2 a 0)).toInt.toNat 4095
    rw [GatherDims.batchCoord_eq_zero _ _ _ List.not_mem_nil,
      GatherDims.offCoord_eq_zero _ _ _ (fun h => ((GatherDims.mem_sKept _ _).mp h).1
        (show (0 : Fin 2) ∈ [(0 : Fin 2), 1] by decide))]
    simp only [Nat.add_zero]
    unfold GatherDims.start
    rw [dif_pos (show (0 : Fin S4096x4096.rank) ∈ gather_S4096x4096_S2048x2_S2048_n_01_n_n_01_1_11.startIndexMap from
      (show (0 : Fin 2) ∈ [(0 : Fin 2), 1] by decide))]
    have hsi : gather_S4096x4096_S2048x2_S2048_n_01_n_n_01_1_11.siIdx (ix1 a)
        ⟨List.idxOf (0 : Fin 2) [(0 : Fin 2), 1], by decide⟩ = ix2 a 0 := by
      funext c; refine Fin.ext ?_
      match c with
      | ⟨0, _⟩ => rfl
      | ⟨1, _⟩ => rfl
    exact congrArg (fun z => min (idx z).toInt.toNat 4095) hsi
  | ⟨1, _⟩ =>
    show gather_S4096x4096_S2048x2_S2048_n_01_n_n_01_1_11.start (ix1 a) idx 1
        + gather_S4096x4096_S2048x2_S2048_n_01_n_n_01_1_11.batchCoord (ix1 a) 1
        + gather_S4096x4096_S2048x2_S2048_n_01_n_n_01_1_11.offCoord (ix1 a) 1 = min (idx (ix2 a 1)).toInt.toNat 4095
    rw [GatherDims.batchCoord_eq_zero _ _ _ List.not_mem_nil,
      GatherDims.offCoord_eq_zero _ _ _ (fun h => ((GatherDims.mem_sKept _ _).mp h).1
        (show (1 : Fin 2) ∈ [(0 : Fin 2), 1] by decide))]
    simp only [Nat.add_zero]
    unfold GatherDims.start
    rw [dif_pos (show (1 : Fin S4096x4096.rank) ∈ gather_S4096x4096_S2048x2_S2048_n_01_n_n_01_1_11.startIndexMap from
      (show (1 : Fin 2) ∈ [(0 : Fin 2), 1] by decide))]
    have hsi : gather_S4096x4096_S2048x2_S2048_n_01_n_n_01_1_11.siIdx (ix1 a)
        ⟨List.idxOf (1 : Fin 2) [(0 : Fin 2), 1], by decide⟩ = ix2 a 1 := by
      funext c; refine Fin.ext ?_
      match c with
      | ⟨0, _⟩ => rfl
      | ⟨1, _⟩ => rfl
    exact congrArg (fun z => min (idx z).toInt.toNat 4095) hsi

/-- The same with the pair named: when row `a` of the table holds `(p, q)`, both inside the matrix, entry `a` of the
    gather is the matrix at `(p, q)`. -/
theorem gather_diag_at {α : Type} {w : Nat} (x : S4096x4096.Idx → α) (idx : IVec S2048x2 w) (a : Fin 2048)
    (p q : Fin 4096) (hp : (idx (ix2 a 0)).toInt.toNat = p.val) (hq : (idx (ix2 a 1)).toInt.toNat = q.val) :
    Host.gather gather_S4096x4096_S2048x2_S2048_n_01_n_n_01_1_11 x idx (ix1 a) = x (ix2 p q) := by
  rw [gather_diag_apply]
  congr 1
  funext b
  have hp' := p.isLt
  have hq' := q.isLt
  match b with
  | ⟨0, _⟩ => exact Fin.ext (by show min (idx (ix2 a 0)).toInt.toNat 4095 = p.val; rw [hp]; omega)
  | ⟨1, _⟩ => exact Fin.ext (by show min (idx (ix2 a 1)).toInt.toNat 4095 = q.val; rw [hq]; omega)

/-! ## The two tables -/

/-- First table, row component: the counter itself. -/
theorem tab0_row (a : Fin 2048) : val_main_call0_v16 (F := Ideal) (ix2 a 0) = BitVec.ofNat 32 a.val := by
  have ha := a.isLt
  unfold val_main_call0_v16
  refine (concatenate_pair_apply_left (t := S2048x2) (s₁ := S2048x1) (s₂ := S2048x1) 1 _ _ _ (ix2 a 0) rfl
    (ix2 a 0) (fun b => match b with | ⟨0, _⟩ => rfl | ⟨1, _⟩ => rfl)).trans ?_
  have hi : idx_main_call0_v14 (ix2 a 0) = ix1 a := funext fun b => match b with | ⟨0, _⟩ => rfl
  rw [val_main_call0_v14_apply, hi, val_main_call0_v8_apply, val_main_call0_v5_apply, val_main_call0_v4_apply,
    val_main_call0_c_0_apply, val_main_call0_v0_apply]
  show Scalar.select (IntOp.cmpi .slt (BitVec.ofNat 32 a.val) 0#32) _ (BitVec.ofNat 32 a.val) = _
  rw [slt_zero_small _ (by omega), select_zero]

/-- First table, column component: the counter plus `2048`. -/
theorem tab0_col (a : Fin 2048) : val_main_call0_v16 (F := Ideal) (ix2 a 1) = BitVec.ofNat 32 (2048 + a.val) := by
  have ha := a.isLt
  unfold val_main_call0_v16
  refine (concatenate_pair_apply_right (t := S2048x2) (s₁ := S2048x1) (s₂ := S2048x1) 1 _ _ _ (ix2 a 1) rfl rfl
    (ix2 a 0) (fun b hb => match b, hb with | ⟨0, _⟩, _ => rfl | ⟨1, _⟩, hb => absurd rfl hb) rfl).trans ?_
  have hi : idx_main_call0_v15 (ix2 a 0) = ix1 a := funext fun b => match b with | ⟨0, _⟩ => rfl
  rw [val_main_call0_v15_apply, hi, val_main_call0_v13_apply, val_main_call0_v10_apply, val_main_call0_v9_apply,
    val_main_call0_c_2_apply, val_main_call0_v3_apply, val_main_call0_v2_apply, val_main_call0_c_apply,
    val_main_call0_v1_apply]
  show Scalar.select (IntOp.cmpi .slt (IntOp.addi (BitVec.ofNat 32 2048) (BitVec.ofNat 32 a.val)) 0#32) _
      (IntOp.addi (BitVec.ofNat 32 2048) (BitVec.ofNat 32 a.val)) = _
  rw [addi_ofNat, slt_zero_small _ (by omega), select_zero]

/-- Second table, row component: the counter plus `2048`. -/
theorem tab1_row (a : Fin 2048) : val_main_call1_v16 (F := Ideal) (ix2 a 0) = BitVec.ofNat 32 (2048 + a.val) := by
  have ha := a.isLt
  unfold val_main_call1_v16
  refine (concatenate_pair_apply_left (t := S2048x2) (s₁ := S2048x1) (s₂ := S2048x1) 1 _ _ _ (ix2 a 0) rfl
    (ix2 a 0) (fun b => match b with | ⟨0, _⟩ => rfl | ⟨1, _⟩ => rfl)).trans ?_
  have hi : idx_main_call1_v14 (ix2 a 0) = ix1 a := funext fun b => match b with | ⟨0, _⟩ => rfl
  rw [val_main_call1_v14_apply, hi, val_main_call1_v8_apply, val_main_call1_v5_apply, val_main_call1_v4_apply,
    val_main_call1_c_0_apply, val_main_call1_v3_apply, val_main_call1_v2_apply, val_main_call1_c_apply,
    val_main_call1_v1_apply]
  show Scalar.select (IntOp.cmpi .slt (IntOp.addi (BitVec.ofNat 32 2048) (BitVec.ofNat 32 a.val)) 0#32) _
      (IntOp.addi (BitVec.ofNat 32 2048) (BitVec.ofNat 32 a.val)) = _
  rw [addi_ofNat, slt_zero_small _ (by omega), select_zero]

/-- Second table, column component: the counter itself. -/
theorem tab1_col (a : Fin 2048) : val_main_call1_v16 (F := Ideal) (ix2 a 1) = BitVec.ofNat 32 a.val := by
  have ha := a.isLt
  unfold val_main_call1_v16
  refine (concatenate_pair_apply_right (t := S2048x2) (s₁ := S2048x1) (s₂ := S2048x1) 1 _ _ _ (ix2 a 1) rfl rfl
    (ix2 a 0) (fun b hb => match b, hb with | ⟨0, _⟩, _ => rfl | ⟨1, _⟩, hb => absurd rfl hb) rfl).trans ?_
  have hi : idx_main_call1_v15 (ix2 a 0) = ix1 a := funext fun b => match b with | ⟨0, _⟩ => rfl
  rw [val_main_call1_v15_apply, hi, val_main_call1_v13_apply, val_main_call1_v10_apply, val_main_call1_v9_apply,
    val_main_call1_c_2_apply, val_main_call1_v0_apply]
  show Scalar.select (IntOp.cmpi .slt (BitVec.ofNat 32 a.val) 0#32) _ (BitVec.ofNat 32 a.val) = _
  rw [slt_zero_small _ (by omega), select_zero]

/-! ## The two gathered diagonals -/

/-- The diagonal at offset `+2048`: entry `a` is the Gram entry of rows `a` and `a + 2048`. -/
theorem ref_diag_up (x0 x1 : (⟨S2048x256, .f32⟩ : BufTy).Contents (Elt Ideal)) (a : Fin 2048) :
    val_main_v18 (F := Ideal) x0 x1 (ix1 a)
      = val_main_v17 (F := Ideal) x0 x1 (ix2 (⟨a.val, by omega⟩ : Fin 4096) (⟨2048 + a.val, by omega⟩ : Fin 4096)) := by
  have ha := a.isLt
  unfold val_main_v18
  exact gather_diag_at _ _ a ⟨a.val, by omega⟩ ⟨2048 + a.val, by omega⟩
    (by rw [tab0_row]; exact toNat_toInt_ofNat_small _ (by omega))
    (by rw [tab0_col]; exact toNat_toInt_ofNat_small _ (by omega))

/-- The diagonal at offset `-2048`: entry `a` is the Gram entry of rows `a + 2048` and `a`. -/
theorem ref_diag_down (x0 x1 : (⟨S2048x256, .f32⟩ : BufTy).Contents (Elt Ideal)) (a : Fin 2048) :
    val_main_v19 (F := Ideal) x0 x1 (ix1 a)
      = val_main_v17 (F := Ideal) x0 x1 (ix2 (⟨2048 + a.val, by omega⟩ : Fin 4096) (⟨a.val, by omega⟩ : Fin 4096)) := by
  have ha := a.isLt
  unfold val_main_v19
  exact gather_diag_at _ _ a ⟨2048 + a.val, by omega⟩ ⟨a.val, by omega⟩
    (by rw [tab1_row]; exact toNat_toInt_ofNat_small _ (by omega))
    (by rw [tab1_col]; exact toNat_toInt_ofNat_small _ (by omega))

/-! ## Rows of the stacked matrix -/

/-- A row below `2048` of the stacked matrix is that row of the first half. -/
theorem stack_lo (u v : Fin 2048 → Fin 256 → EReal) (a : Fin 2048) (h : a.val < 4096) (k : Fin 256) :
    stack u v ⟨a.val, h⟩ k = u a k := by
  unfold stack
  rw [dif_pos (show (⟨a.val, h⟩ : Fin 4096).val < 2048 from a.isLt)]

/-- Row `2048 + a` of the stacked matrix is row `a` of the second half. -/
theorem stack_hi (u v : Fin 2048 → Fin 256 → EReal) (a : Fin 2048) (h : 2048 + a.val < 4096) (k : Fin 256) :
    stack u v ⟨2048 + a.val, h⟩ k = v a k := by
  unfold stack
  rw [dif_neg (show ¬ (⟨2048 + a.val, h⟩ : Fin 4096).val < 2048 from by show ¬ 2048 + a.val < 2048; omega)]
  exact congrArg (fun z => v z k) (Fin.ext (show 2048 + a.val - 2048 = a.val by omega))

/-! ## The positive-pair similarity -/

/-- Entry `r` of the two diagonals laid end to end is the specification's positive-pair similarity of row `r`. -/
theorem ref_pair (x0 x1 : (⟨S2048x256, .f32⟩ : BufTy).Contents (Elt Ideal)) (r : Fin 4096) :
    val_main_v20 (F := Ideal) x0 x1 (ix1 r) = pair (rowsU x0) (rowsV x1) r := by
  have hr := r.isLt
  unfold val_main_v20 pair
  by_cases h : r.val < 2048
  · refine (concatenate_pair_apply_left (t := S4096) (s₁ := S2048) (s₂ := S2048) 0 _ _ _ (ix1 r) rfl
      (ix1 ⟨r.val, h⟩) (fun b => match b with | ⟨0, _⟩ => rfl)).trans ?_
    rw [ref_diag_up, ref_gram]
    have e : (⟨r.val % 2048, Nat.mod_lt _ (by decide)⟩ : Fin 2048) = ⟨r.val, h⟩ := Fin.ext (Nat.mod_eq_of_lt h)
    rw [e]
    refine Finset.sum_congr rfl fun k _ => ?_
    rw [stack_lo, stack_hi]
  · refine (concatenate_pair_apply_right (t := S4096) (s₁ := S2048) (s₂ := S2048) 0 _ _ _ (ix1 r) rfl rfl
      (ix1 ⟨r.val - 2048, by omega⟩) (fun b hb => match b, hb with | ⟨0, _⟩, hb => absurd rfl hb)
      (by show r.val - 2048 + 2048 = r.val; omega)).trans ?_
    rw [ref_diag_down, ref_gram]
    have e : (⟨r.val % 2048, Nat.mod_lt _ (by decide)⟩ : Fin 2048) = ⟨r.val - 2048, by omega⟩ :=
      Fin.ext (by show r.val % 2048 = r.val - 2048; omega)
    rw [e]
    refine Finset.sum_congr rfl fun k _ => ?_
    rw [stack_hi, stack_lo, mul_comm]

end Cert.RefSide

end
-- ==== Proof.KIHost.lean ====
/-
  The host operations before the kernel region, read at the ideal values.

  Before the region the program normalises the rows of its two inputs, stacks them (and changes the format, which is
  the identity on extended reals), and sums the products of corresponding rows. Each of these values is the same
  chain of operations as the reference program's, so it IS the reference's value; at an index the stacked matrix is
  the specification's `stack` and the row sums are the specification's inner products.
-/
import proofs.«104670_j24464133718914_2_alg».proof.Proof.KI.Base
import proofs.«104670_j24464133718914_2_alg».proof.Proof.RefPair

set_option maxRecDepth 16384

noncomputable section

namespace Cert.KernelIdeal.Val

open Cert.KernelIdeal Cert.KernelIdeal.Gen Cert.KernelIdeal.Fr
open Idealize.ShloMosaic Idealize.ShloMosaic.TcCoe Idealize.ShloMosaic.Tactic
open Idealize.SL.Sem
open Idealize.ShloMosaic.ValueIdx

variable (m : (ℓ : Loc nD τ sig) → Buf (Elt Ideal) ℓ)

/-- The program's first argument on core `c`. -/
abbrev arg0 (c : Dev nD) : (⟨S2048x256, .f32⟩ : BufTy).Contents (Elt Ideal) := m ((c : Thread nD τ).loc main_arg0)
/-- The program's second argument on core `c`. -/
abbrev arg1 (c : Dev nD) : (⟨S2048x256, .f32⟩ : BufTy).Contents (Elt Ideal) := m ((c : Thread nD τ).loc main_arg1)

/-! ## The row normalisations -/

/-- The first normalised input is the reference's. -/
theorem V_v7 (c : Dev nD) :
    (V (F := Ideal) m c main_v7 : S2048x256.Idx → EReal) = Cert.ReferenceIdeal.Read.val_main_v7 (F := Ideal) (arg0 m c) := by
  dsimp only [V, V0]
  simp only [hostOps0, List.flatten_cons, List.flatten_nil, List.append_nil]
  after_results
  rfl

/-- The second normalised input is the reference's. -/
theorem V_v15 (c : Dev nD) :
    (V (F := Ideal) m c main_v15 : S2048x256.Idx → EReal) = Cert.ReferenceIdeal.Read.val_main_v15 (F := Ideal) (arg1 m c) := by
  dsimp only [V, V0]
  simp only [hostOps0, List.flatten_cons, List.flatten_nil, List.append_nil]
  after_results
  rfl

/-! ## The stacked matrix -/

/-- The stacked matrix the region reads is the reference's: the change of format is the identity on extended reals. -/
theorem V_v17 (c : Dev nD) :
    (V (F := Ideal) m c main_v17 : S4096x256.Idx → EReal)
      = Cert.ReferenceIdeal.Read.val_main_v16 (F := Ideal) (arg0 m c) (arg1 m c) := by
  dsimp only [V, V0]
  simp only [hostOps0, List.flatten_cons, List.flatten_nil, List.append_nil]
  after_results
  rfl

/-- At row `r`, column `k` it is the specification's stacked matrix. -/
theorem V_v17_apply (c : Dev nD) (r : Fin 4096) (k : Fin 256) :
    V (F := Ideal) m c main_v17 (ix2 r k)
      = Cert.PairLoss.stack (Cert.RefSide.rowsU (arg0 m c)) (Cert.RefSide.rowsV (arg1 m c)) r k :=
  (congrFun (V_v17 m c) (ix2 r k)).trans (Cert.RefSide.ref_stack (arg0 m c) (arg1 m c) r k)

/-! ## The positive-pair sums -/

/-- The host's sum along the rows of a `2048 × 256` array from a zero initial value, at row `a`: the sum of the row. -/
theorem reduce_rows_apply (y : (⟨S2048x256, .f32⟩ : BufTy).Contents (Elt Ideal)) (a : Fin 2048) :
    Host.reduceAdd (F := Ideal) y (constant (F := Ideal) S_ .f32 0x00000000#32) reducesTo_S2048x256_S2048_d1 h_S_ (ix1 a)
      = ∑ k : Fin 256, y (ix2 a k) := by
  simp only [Host.reduceAdd, Ideal.hostReduceAdd_def]
  rw [Ideal.hostReduceAdd_single reducesTo_S2048x256_S2048_d1 (by decide)]
  show Ideal.ofBits .f32 0x00000000#32 + _ = _
  rw [Ideal.ofBits_zero_f32, zero_add]
  refine Finset.sum_congr rfl fun k _ => congrArg y (funext fun b => Fin.ext ?_)
  match b with
  | ⟨0, _⟩ => rfl
  | ⟨1, _⟩ => rfl

/-- The row sums of the products of the two normalised inputs, as the operations spell them. -/
theorem V_v19 (c : Dev nD) :
    (V (F := Ideal) m c main_v19 : S2048.Idx → EReal)
      = Host.reduceAdd (F := Ideal)
          (mulf (Cert.ReferenceIdeal.Read.val_main_v7 (F := Ideal) (arg0 m c))
            (Cert.ReferenceIdeal.Read.val_main_v15 (F := Ideal) (arg1 m c)))
          (constant (F := Ideal) S_ .f32 0x00000000#32) reducesTo_S2048x256_S2048_d1 h_S_ := by
  dsimp only [V, V0]
  simp only [hostOps0, List.flatten_cons, List.flatten_nil, List.append_nil]
  after_results_simp
  rfl

/-- At row `a`: the inner product of row `a` of the first normalised input with row `a` of the second. -/
theorem V_v19_apply (c : Dev nD) (a : Fin 2048) :
    V (F := Ideal) m c main_v19 (ix1 a)
      = ∑ k : Fin 256, Cert.RefSide.rowsU (arg0 m c) a k * Cert.RefSide.rowsV (arg1 m c) a k :=
  (congrFun (V_v19 m c) (ix1 a)).trans (reduce_rows_apply _ a)

end Cert.KernelIdeal.Val

end
-- ==== Proof.KIFinal.lean ====
/-
  The host operations after the kernel region, and the program's result against the reference's.

  After the region the program lays the positive-pair sums end to end twice, reads the region's result column as a
  vector of row denominators, and applies the loss tail: divide the positives by one half, exponentiate, divide by
  the denominators, take the logarithm, negate, sum, divide by the number of rows. The reference applies the SAME
  tail to its own positives and denominators, so the two results agree as soon as the two pairs of operands do; the
  tail is one definition here and is never opened.
-/
import proofs.«104670_j24464133718914_2_alg».proof.Proof.KI.Launch
import proofs.«104670_j24464133718914_2_alg».proof.Proof.KIHost

set_option maxRecDepth 16384

noncomputable section

namespace Cert.KernelIdeal.Val

open Cert.KernelIdeal Cert.KernelIdeal.Gen Cert.KernelIdeal.Fr
open Idealize.ShloMosaic Idealize.ShloMosaic.TcCoe Idealize.ShloMosaic.Tactic
open Idealize.SL.Sem
open Idealize.ShloMosaic.ValueIdx
open Idealize.ShloMosaic.Pipeline (withArrays arrRef)

variable (m : (ℓ : Loc nD τ sig) → Buf (Elt Ideal) ℓ)

/-! ## The loss tail -/

/-- The loss from the positive-pair similarities `pos` and the row denominators `den`: the mean over the rows of
    `-log (exp (pos / (1/2)) / den)`. -/
def lossTail (pos den : (⟨S4096, .f32⟩ : BufTy).Contents (Elt Ideal)) : (⟨S_, .f32⟩ : BufTy).Contents (Elt Ideal) :=
  Host.divf (F := Ideal)
    (Host.reduceAdd (F := Ideal)
      (Host.negf (F := Ideal) (Host.log (F := Ideal) (Host.divf (F := Ideal)
        (Host.exp (F := Ideal) (Host.divf (F := Ideal) pos
          (broadcastInDim S4096 ![] bcast_S_S4096 (constant (F := Ideal) S_ .f32 0x3F000000#32))))
        den)))
      (constant (F := Ideal) S_ .f32 0x00000000#32) reducesTo_S4096_S_d0 h_S_)
    (constant (F := Ideal) S_ .f32 0x45800000#32)

/-- The reference's result is the tail of its positives and its denominators. -/
theorem ref_tail (x0 x1 : (⟨S2048x256, .f32⟩ : BufTy).Contents (Elt Ideal)) :
    Cert.ReferenceIdeal.Read.val_main_v41 (F := Ideal) x0 x1
      = lossTail (Cert.ReferenceIdeal.Read.val_main_v20 (F := Ideal) x0 x1)
          (Cert.ReferenceIdeal.Read.val_main_v36 (F := Ideal) x0 x1) := rfl

/-! ## The program's result as the tail -/

/-- The program's positives: the positive-pair sums laid end to end twice. -/
abbrev kpos (c : Dev nD) : (⟨S4096, .f32⟩ : BufTy).Contents (Elt Ideal) :=
  concatenate S4096 0 [⟨S2048, (V (F := Ideal) m c main_v19 : S2048.Idx → EReal)⟩,
    ⟨S2048, (V (F := Ideal) m c main_v19 : S2048.Idx → EReal)⟩] concatenates_S2048_S2048_S4096_d0

/-- The program's denominators: the region's result column read as a vector. -/
abbrev kden (c : Dev nD) : (⟨S4096, .f32⟩ : BufTy).Contents (Elt Ideal) :=
  fun i => shapeCast S4096 (A2 (F := Ideal) m c 1 : S4096x1.Idx → EReal) shapeCasts_S4096x1_S4096 i

/-- The program's result is the tail of its positives and its denominators. -/
theorem Vend_v30 (c : Dev nD) :
    (Vend (F := Ideal) m c main_v30 : S_.Idx → EReal) = lossTail (kpos m c) (kden m c) := by
  have h20 : withArrays win2 c (V0 (F := Ideal) m c) (A2 (F := Ideal) m c) (Proc.devRef .tc main_v20) = A2 (F := Ideal) m c 1 :=
    Pipeline.withArrays_arr win2 win2_inj c (V0 (F := Ideal) m c) (A2 (F := Ideal) m c) 1
  have h19 : withArrays win2 c (V0 (F := Ideal) m c) (A2 (F := Ideal) m c) (Proc.devRef .tc main_v19)
      = V0 (F := Ideal) m c (Proc.devRef .tc main_v19) :=
    Pipeline.withArrays_of_ne win2 c (V0 (F := Ideal) m c) (A2 (F := Ideal) m c) main_v19 (by decide)
  unfold Vend
  simp only [hostOps1, List.flatten_cons, List.flatten_nil, List.append_nil]
  after_results
  rw [h20, h19]
  rfl

/-! ## The two operands -/

/-- The program's positives at row `r`: the specification's positive-pair similarity. -/
theorem kpos_apply (c : Dev nD) (r : Fin 4096) :
    kpos m c (ix1 r) = Cert.PairLoss.pair (Cert.RefSide.rowsU (arg0 m c)) (Cert.RefSide.rowsV (arg1 m c)) r := by
  have hr := r.isLt
  unfold Cert.PairLoss.pair
  by_cases h : r.val < 2048
  · refine (concatenate_pair_apply_left (t := S4096) (s₁ := S2048) (s₂ := S2048) 0 _ _ _ (ix1 r) rfl
      (ix1 ⟨r.val, h⟩) (fun b => match b with | ⟨0, _⟩ => rfl)).trans ?_
    rw [V_v19_apply]
    have e : (⟨r.val % 2048, Nat.mod_lt _ (by decide)⟩ : Fin 2048) = ⟨r.val, h⟩ := Fin.ext (Nat.mod_eq_of_lt h)
    rw [e]
  · refine (concatenate_pair_apply_right (t := S4096) (s₁ := S2048) (s₂ := S2048) 0 _ _ _ (ix1 r) rfl rfl
      (ix1 ⟨r.val - 2048, by omega⟩) (fun b hb => match b, hb with | ⟨0, _⟩, hb => absurd rfl hb)
      (by show r.val - 2048 + 2048 = r.val; omega)).trans ?_
    rw [V_v19_apply]
    have e : (⟨r.val % 2048, Nat.mod_lt _ (by decide)⟩ : Fin 2048) = ⟨r.val - 2048, by omega⟩ :=
      Fin.ext (by show r.val % 2048 = r.val - 2048; omega)
    rw [e]

/-- The program's denominators at row `R`: the region's result column at `(R, 0)`. -/
theorem kden_apply (c : Dev nD) (R : Fin 4096) :
    kden m c (ix1 R) = (dats (F := Ideal) m 0 c).arrAt 2 cfg0.N (ix2 R (0 : Fin 1)) := by
  show shapeCast S4096 (A2 (F := Ideal) m c 1 : S4096x1.Idx → EReal) shapeCasts_S4096x1_S4096 (ix1 R) = _
  refine (shapeCast_apply _ shapeCasts_S4096x1_S4096 (ix1 R) (ix2 R (0 : Fin 1)) ?_).trans rfl
  rw [Shape.rowMajor_val_two, Shape.rowMajor_val_one]
  show R.val * 1 + 0 = R.val
  omega

/-! ## The result -/

/-- Given that the region leaves the specification's denominators of the stacked matrix in its result column, the
    program's result is the reference's. -/
theorem kernel_result (c : Dev nD)
    (hden : ∀ R : Fin 4096, (dats (F := Ideal) m 0 c).arrAt 2 cfg0.N (ix2 R (0 : Fin 1))
      = Cert.PairLoss.denom (fun r k => V (F := Ideal) m c main_v17 (ix2 r k)) R) :
    Vend (F := Ideal) m c main_v30
      = Cert.ReferenceIdeal.Read.val_main_v41 (F := Ideal) (arg0 m c) (arg1 m c) := by
  refine (Vend_v30 m c).trans ?_
  rw [ref_tail]
  have hZ : (fun (r : Fin 4096) (k : Fin 256) => V (F := Ideal) m c main_v17 (ix2 r k))
      = Cert.PairLoss.stack (Cert.RefSide.rowsU (arg0 m c)) (Cert.RefSide.rowsV (arg1 m c)) :=
    funext fun r => funext fun k => V_v17_apply m c r k
  have hpos : kpos m c = Cert.ReferenceIdeal.Read.val_main_v20 (F := Ideal) (arg0 m c) (arg1 m c) :=
    funext fun i => by
      obtain ⟨r, rfl⟩ : ∃ r : Fin 4096, i = ix1 r := ⟨i 0, eq_ix1 i⟩
      exact (kpos_apply m c r).trans (Cert.RefSide.ref_pair (arg0 m c) (arg1 m c) r).symm
  have hdn : kden m c = Cert.ReferenceIdeal.Read.val_main_v36 (F := Ideal) (arg0 m c) (arg1 m c) :=
    funext fun i => by
      obtain ⟨R, rfl⟩ : ∃ R : Fin 4096, i = ix1 R := ⟨i 0, eq_ix1 i⟩
      rw [kden_apply, hden R, hZ]
      exact (Cert.RefSide.ref_denom (arg0 m c) (arg1 m c) R).symm
  rw [hpos, hdn]

end Cert.KernelIdeal.Val

end
-- ==== Proof.lean ====
/-
  The certificate of a contrastive (InfoNCE-style) loss kernel against its plain reference, over the extended reals.

  Inputs `a, b : f32[2048, 256]`. Both programs normalise the rows (`x / max (√(Σ x²)) ε`), stack the two results into
  `Z : [4096, 256]`, and return `(Σ_r −log (exp (p_r / ½) / D_r)) / 4096`, where `p_r = ⟨u_a, v_a⟩` (`a = r mod 2048`) is
  row `r`'s positive-pair similarity and `D_r = Σ_{c ≠ r} exp (2 · ⟨Z_r, Z_c⟩)` its denominator.
  * The reference forms the whole 4096 × 4096 Gram matrix `Z Zᵀ`, reads the positives off its two off-diagonals at
    offsets ±2048, divides by ½, and masks the diagonal by multiplying with `1 − I`.
  * The kernel computes the positives as row sums of `u ∘ v` on the host and the denominators in one region on a
    4 × 2 grid: for each block of 1024 rows, the two blocks of 2048 columns are multiplied (by 2 instead of divided
    by ½), exponentiated, the diagonal entry replaced by 0, summed along the row, and accumulated in a running sum.
  At the ideal instance the two agree by laws valid on ALL extended reals (`x / ½ = x · 2`, `0 · y = 0`, `1 · y = y`,
  the sum over 4096 columns is the sum of the sums over its two halves, products commute): finiteness of the inputs
  is never used. The frames (each program runs to the end, faults nowhere, leaves its arguments unchanged) are proved
  for the kernel's program once, generically in the float instance, and read at both instances.
-/
import proofs.«104670_j24464133718914_2_alg».proof.Defs
import proofs.«104670_j24464133718914_2_alg».proof.Proof.Gen.Kernel
import proofs.«104670_j24464133718914_2_alg».proof.Proof.Gen.KernelIdeal
import proofs.«104670_j24464133718914_2_alg».proof.Proof.Gen.ReferenceIdeal
import proofs.«104670_j24464133718914_2_alg».proof.Proof.Gen.Pre_finite_inputs
import proofs.«104670_j24464133718914_2_alg».proof.Proof.Gen.ReferenceIdeal.Run
import proofs.«104670_j24464133718914_2_alg».proof.Proof.Gen.ReferenceIdeal.Read
import proofs.«104670_j24464133718914_2_alg».proof.Proof.K.Frame
import proofs.«104670_j24464133718914_2_alg».proof.Proof.KI.Frame
import proofs.«104670_j24464133718914_2_alg».proof.Proof.KIDenom
import proofs.«104670_j24464133718914_2_alg».proof.Proof.KIFinal
import Idealize.ShloMosaic.Adequacy
import Idealize.ShloMosaic.Init

noncomputable section

namespace Cert.Proof

open Idealize.ShloMosaic Idealize.ShloMosaic.TcCoe Idealize.SL.Sem

/-- The kernel's program, as printed, runs to the end with its arguments unchanged. -/
theorem frame_k : Cert.frame_Kernel (hKernel := Cert.Kernel.Gen.facts) (hPre_finite_inputs := Cert.Pre_finite_inputs.Gen.facts) :=
  fun m ρ _ => Cert.Kernel.Fr.frame (F := Bits) m ρ

/-- So does its idealization. -/
theorem frame_ki : Cert.frame_KernelIdeal (hKernelIdeal := Cert.KernelIdeal.Gen.facts) (hPre_finite_inputs := Cert.Pre_finite_inputs.Gen.facts) :=
  fun m ρ _ => Cert.KernelIdeal.Fr.frame (F := Ideal) m ρ

/-- The reference is a straight line of host operations: its run with the result dropped. -/
theorem frame_ri : Cert.frame_ReferenceIdeal (hReferenceIdeal := Cert.ReferenceIdeal.Gen.facts) (hPre_finite_inputs := Cert.Pre_finite_inputs.Gen.facts) :=
  fun m ρ _ => (θ_run Cert.ReferenceIdeal.defs _ _).mono (fun _ h c => (h c).2) (Cert.ReferenceIdeal.Value.run (F := Ideal) m ρ)

/-- From memories agreeing on the arguments both idealized programs end with the same loss. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' _ hagree
  refine ⟨fun c => Cert.KernelIdeal.Fr.Vend (F := Ideal) m c Cert.KernelIdeal.main_v30, Cert.KernelIdeal.Fr.run_result (F := Ideal) m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v41_eq, (hagree c).1, (hagree c).2]
  exact (Cert.KernelIdeal.Val.kernel_result m c (Cert.KernelIdeal.Val.denom_final m c)).symm

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
